-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v151) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x500 : Shape := ⟨2, ![20000, 500]⟩
abbrev S320000x2 : Shape := ⟨2, ![320000, 2]⟩
abbrev S660000 : Shape := ⟨1, ![660000]⟩
abbrev S20000x64 : Shape := ⟨2, ![20000, 64]⟩
abbrev S500x256 : Shape := ⟨2, ![500, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x256 : Shape := ⟨2, ![64, 256]⟩
abbrev S256x2048 : Shape := ⟨2, ![256, 2048]⟩
abbrev S2048 : Shape := ⟨1, ![2048]⟩
abbrev S2048x2500 : Shape := ⟨2, ![2048, 2500]⟩
abbrev S2500 : Shape := ⟨1, ![2500]⟩
abbrev S256x16 : Shape := ⟨2, ![256, 16]⟩
abbrev S16 : Shape := ⟨1, ![16]⟩
abbrev S_ : Shape := ⟨0, ![]⟩

class Facts : Prop where
  bcast_S_S20000x500 : S_.BroadcastsInDim S20000x500 (![] : Fin 0 → Fin S20000x500.rank)
  reducesTo_S20000x500_S_d0_1 : S20000x500.ReducesTo [0, 1] S_
  h_S_ : 0 < S_.numel
  bcast_S_S660000 : S_.BroadcastsInDim S660000 (![] : Fin 0 → Fin S660000.rank)
  reducesTo_S660000_S_d0 : S660000.ReducesTo [0] S_
  bcast_S_S20000x64 : S_.BroadcastsInDim S20000x64 (![] : Fin 0 → Fin S20000x64.rank)
  reducesTo_S20000x64_S_d0_1 : S20000x64.ReducesTo [0, 1] S_
  bcast_S_S500x256 : S_.BroadcastsInDim S500x256 (![] : Fin 0 → Fin S500x256.rank)
  reducesTo_S500x256_S_d0_1 : S500x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x256 : S_.BroadcastsInDim S64x256 (![] : Fin 0 → Fin S64x256.rank)
  reducesTo_S64x256_S_d0_1 : S64x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_
  bcast_S_S2048x2500 : S_.BroadcastsInDim S2048x2500 (![] : Fin 0 → Fin S2048x2500.rank)
  reducesTo_S2048x2500_S_d0_1 : S2048x2500.ReducesTo [0, 1] S_
  bcast_S_S2500 : S_.BroadcastsInDim S2500 (![] : Fin 0 → Fin S2500.rank)
  reducesTo_S2500_S_d0 : S2500.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg21 : FVec F S16 .f32) (main_v83 : IVec S_ 1) (main_v84 : FVec F S256x16 .f32) (main_cst_32 : FVec F S_ .f32) : IVec S_ 1 :=
  let main_v85 : FVec F S256x16 .f32 := broadcastInDim S256x16 ![] bcast_S_S256x16 main_cst_32
  let main_v86 : IVec S256x16 1 := cmpf .olt main_v84 main_v85
  let main_c_33 : IVec S_ 1 := constantI S_ 1 1#1
  let main_v87 : IVec S_ 1 := (fun x v => Host.reduce IntOp.andi x v reducesTo_S256x16_S_d0_1 h_S_) main_v86 main_c_33
  let main_v88 : IVec S_ 1 := andi main_v83 main_v87
  let main_v89 : FVec F S16 .f32 := Host.absf main_arg21
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg17 : FVec F S2500 .f32) (main_arg18 : FVec F S500x256 .f32) (main_arg19 : FVec F S256 .f32) (main_arg20 : FVec F S256x16 .f32) (main_arg21 : FVec F S16 .f32) (main_v63 : IVec S_ 1) (main_v67 : IVec S_ 1) : IVec S_ 1 :=
  let main_v68 : IVec S_ 1 := andi main_v63 main_v67
  let main_v69 : FVec F S2500 .f32 := Host.absf main_arg17
  let main_cst_26 : FVec F S_ .f32 := constant S_ .f32 0x7F800000#32
  let main_v70 : FVec F S2500 .f32 := broadcastInDim S2500 ![] bcast_S_S2500 main_cst_26
  let main_v71 : IVec S2500 1 := cmpf .olt main_v69 main_v70
  let main_c_27 : IVec S_ 1 := constantI S_ 1 1#1
  let main_v72 : IVec S_ 1 := (fun x v => Host.reduce IntOp.andi x v reducesTo_S2500_S_d0 h_S_) main_v71 main_c_27
  let main_v73 : IVec S_ 1 := andi main_v68 main_v72
  let main_v74 : FVec F S500x256 .f32 := Host.absf main_arg18
  let main_cst_28 : FVec F S_ .f32 := constant S_ .f32 0x7F800000#32
  let main_v75 : FVec F S500x256 .f32 := broadcastInDim S500x256 ![] bcast_S_S500x256 main_cst_28
  let main_v76 : IVec S500x256 1 := cmpf .olt main_v74 main_v75
  let main_c_29 : IVec S_ 1 := constantI S_ 1 1#1
  let main_v77 : IVec S_ 1 := (fun x v => Host.reduce IntOp.andi x v reducesTo_S500x256_S_d0_1 h_S_) main_v76 main_c_29
  let main_v78 : IVec S_ 1 := andi main_v73 main_v77
  let main_v79 : FVec F S256 .f32 := Host.absf main_arg19
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x16 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S256x2048 .f32) (main_arg15 : FVec F S2048 .f32) (main_arg16 : FVec F S2048x2500 .f32) (main_arg17 : FVec F S2500 .f32) (main_arg18 : FVec F S500x256 .f32) (main_arg19 : FVec F S256 .f32) (main_arg20 : FVec F S256x16 .f32) (main_arg21 : FVec F S16 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2048 .f32 := Host.absf main_arg14
  let main_cst_20 : FVec F S_ .f32 := constant S_ .f32 0x7F800000#32
  let main_v55 : FVec F S256x2048 .f32 := broadcastInDim S256x2048 ![] bcast_S_S256x2048 main_cst_20
  let main_v56 : IVec S256x2048 1 := cmpf .olt main_v54 main_v55
  let main_c_21 : IVec S_ 1 := constantI S_ 1 1#1
  let main_v57 : IVec S_ 1 := (fun x v => Host.reduce IntOp.andi x v reducesTo_S256x2048_S_d0_1 h_S_) main_v56 main_c_21
  let main_v58 : IVec S_ 1 := andi main_v53 main_v57
  let main_v59 : FVec F S2048 .f32 := Host.absf main_arg15
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2500 .f32 := Host.absf main_arg16
  let main_cst_24 : FVec F S_ .f32 := constant S_ .f32 0x7F800000#32
  let main_v65 : FVec F S2048x2500 .f32 := broadcastInDim S2048x2500 ![] bcast_S_S2048x2500 main_cst_24
  let main_v66 : IVec S2048x2500 1 := cmpf .olt main_v64 main_v65
  let main_c_25 : IVec S_ 1 := constantI S_ 1 1#1
  let main_v67 : IVec S_ 1 := (fun x v => Host.reduce IntOp.andi x v reducesTo_S2048x2500_S_d0_1 h_S_) main_v66 main_c_25
  fn_part4 (F := F) main_arg17 main_arg18 main_arg19 main_arg20 main_arg21 main_v63 main_v67

def fn_part2 {F : FTy → Type} [FloatOps F] (main_arg10 : FVec F S64x1 .f32) (main_arg11 : FVec F S1 .f32) (main_arg12 : FVec F S64x256 .f32) (main_arg13 : FVec F S256 .f32) (main_arg14 : FVec F S256x2048 .f32) (main_arg15 : FVec F S2048 .f32) (main_arg16 : FVec F S2048x2500 .f32) (main_arg17 : FVec F S2500 .f32) (main_arg18 : FVec F S500x256 .f32) (main_arg19 : FVec F S256 .f32) (main_arg20 : FVec F S256x16 .f32) (main_arg21 : FVec F S16 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x256 .f32 := Host.absf main_arg12
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_arg16 main_arg17 main_arg18 main_arg19 main_arg20 main_arg21 main_v48 main_v49 main_v50

def fn_part1 {F : FTy → Type} [FloatOps F] (main_arg7 : FVec F S256 .f32) (main_arg8 : FVec F S256x64 .f32) (main_arg9 : FVec F S64 .f32) (main_arg10 : FVec F S64x1 .f32) (main_arg11 : FVec F S1 .f32) (main_arg12 : FVec F S64x256 .f32) (main_arg13 : FVec F S256 .f32) (main_arg14 : FVec F S256x2048 .f32) (main_arg15 : FVec F S2048 .f32) (main_arg16 : FVec F S2048x2500 .f32) (main_arg17 : FVec F S2500 .f32) (main_arg18 : FVec F S500x256 .f32) (main_arg19 : FVec F S256 .f32) (main_arg20 : FVec F S256x16 .f32) (main_arg21 : FVec F S16 .f32) (main_v13 : IVec S_ 1) (main_v16 : IVec S500x256 1) : IVec S_ 1 :=
  let main_c_5 : IVec S_ 1 := constantI S_ 1 1#1
  let main_v17 : IVec S_ 1 := (fun x v => Host.reduce IntOp.andi x v reducesTo_S500x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg8
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S20000x500 .f32) (main_arg1 : IVec S320000x2 32) (main_arg2 : IVec S660000 32) (main_arg3 : IVec S660000 32) (main_arg4 : FVec F S660000 .f32) (main_arg5 : FVec F S20000x64 .f32) (main_arg6 : FVec F S500x256 .f32) (main_arg7 : FVec F S256 .f32) (main_arg8 : FVec F S256x64 .f32) (main_arg9 : FVec F S64 .f32) (main_arg10 : FVec F S64x1 .f32) (main_arg11 : FVec F S1 .f32) (main_arg12 : FVec F S64x256 .f32) (main_arg13 : FVec F S256 .f32) (main_arg14 : FVec F S256x2048 .f32) (main_arg15 : FVec F S2048 .f32) (main_arg16 : FVec F S2048x2500 .f32) (main_arg17 : FVec F S2500 .f32) (main_arg18 : FVec F S500x256 .f32) (main_arg19 : FVec F S256 .f32) (main_arg20 : FVec F S256x16 .f32) (main_arg21 : FVec F S16 .f32) : IVec S_ 1 :=
  let main_v0 : FVec F S20000x500 .f32 := Host.absf main_arg0
  let main_cst : FVec F S_ .f32 := constant S_ .f32 0x7F800000#32
  let main_v1 : FVec F S20000x500 .f32 := broadcastInDim S20000x500 ![] bcast_S_S20000x500 main_cst
  let main_v2 : IVec S20000x500 1 := cmpf .olt main_v0 main_v1
  let main_c : IVec S_ 1 := constantI S_ 1 1#1
  let main_v3 : IVec S_ 1 := (fun x v => Host.reduce IntOp.andi x v reducesTo_S20000x500_S_d0_1 h_S_) main_v2 main_c
  let main_v4 : FVec F S660000 .f32 := Host.absf main_arg4
  let main_cst_0 : FVec F S_ .f32 := constant S_ .f32 0x7F800000#32
  let main_v5 : FVec F S660000 .f32 := broadcastInDim S660000 ![] bcast_S_S660000 main_cst_0
  let main_v6 : IVec S660000 1 := cmpf .olt main_v4 main_v5
  let main_c_1 : IVec S_ 1 := constantI S_ 1 1#1
  let main_v7 : IVec S_ 1 := (fun x v => Host.reduce IntOp.andi x v reducesTo_S660000_S_d0 h_S_) main_v6 main_c_1
  let main_v8 : IVec S_ 1 := andi main_v3 main_v7
  let main_v9 : FVec F S20000x64 .f32 := Host.absf main_arg5
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S500x256 .f32 := Host.absf main_arg6
  let main_cst_4 : FVec F S_ .f32 := constant S_ .f32 0x7F800000#32
  let main_v15 : FVec F S500x256 .f32 := broadcastInDim S500x256 ![] bcast_S_S500x256 main_cst_4
  let main_v16 : IVec S500x256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S20000x500 : Shape := ⟨2, ![20000, 500]⟩
abbrev S320000x2 : Shape := ⟨2, ![320000, 2]⟩
abbrev S660000 : Shape := ⟨1, ![660000]⟩
abbrev S20000x64 : Shape := ⟨2, ![20000, 64]⟩
abbrev S500x256 : Shape := ⟨2, ![500, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x256 : Shape := ⟨2, ![64, 256]⟩
abbrev S256x2048 : Shape := ⟨2, ![256, 2048]⟩
abbrev S2048 : Shape := ⟨1, ![2048]⟩
abbrev S2048x2500 : Shape := ⟨2, ![2048, 2500]⟩
abbrev S2500 : Shape := ⟨1, ![2500]⟩
abbrev S256x16 : Shape := ⟨2, ![256, 16]⟩
abbrev S16 : Shape := ⟨1, ![16]⟩
abbrev S_ : Shape := ⟨0, ![]⟩
abbrev S1x256 : Shape := ⟨2, ![1, 256]⟩
abbrev S1x64 : Shape := ⟨2, ![1, 64]⟩
abbrev S1x16 : Shape := ⟨2, ![1, 16]⟩
abbrev S20000x256 : Shape := ⟨2, ![20000, 256]⟩
abbrev S2000x500 : Shape := ⟨2, ![2000, 500]⟩
abbrev S2000x256 : Shape := ⟨2, ![2000, 256]⟩
abbrev S660000x1 : Shape := ⟨2, ![660000, 1]⟩
abbrev S660000x256 : Shape := ⟨2, ![660000, 256]⟩
abbrev S2000x64 : Shape := ⟨2, ![2000, 64]⟩
abbrev S660000x64 : Shape := ⟨2, ![660000, 64]⟩
abbrev S20000x1 : Shape := ⟨2, ![20000, 1]⟩
abbrev S1x1 : Shape := ⟨2, ![1, 1]⟩
abbrev S1x2048 : Shape := ⟨2, ![1, 2048]⟩
abbrev S1x2500 : Shape := ⟨2, ![1, 2500]⟩
abbrev S20000x2048 : Shape := ⟨2, ![20000, 2048]⟩
abbrev S2000x2048 : Shape := ⟨2, ![2000, 2048]⟩
abbrev S20000x2500 : Shape := ⟨2, ![20000, 2500]⟩
abbrev S400x2048 : Shape := ⟨2, ![400, 2048]⟩
abbrev S400x2500 : Shape := ⟨2, ![400, 2500]⟩
abbrev S100000x500 : Shape := ⟨2, ![100000, 500]⟩
abbrev S120000x500 : Shape := ⟨2, ![120000, 500]⟩
abbrev S20000 : Shape := ⟨1, ![20000]⟩
abbrev S20000x5 : Shape := ⟨2, ![20000, 5]⟩
abbrev S100000 : Shape := ⟨1, ![100000]⟩
abbrev S5 : Shape := ⟨1, ![5]⟩
abbrev S1x5 : Shape := ⟨2, ![1, 5]⟩
abbrev S100000x1 : Shape := ⟨2, ![100000, 1]⟩
abbrev S120000 : Shape := ⟨1, ![120000]⟩
abbrev S320000x1 : Shape := ⟨2, ![320000, 1]⟩
abbrev S320000 : Shape := ⟨1, ![320000]⟩
abbrev S960000 : Shape := ⟨1, ![960000]⟩
abbrev S960000x1 : Shape := ⟨2, ![960000, 1]⟩
abbrev S120000x256 : Shape := ⟨2, ![120000, 256]⟩
abbrev S960000x256 : Shape := ⟨2, ![960000, 256]⟩
abbrev S120000x16 : Shape := ⟨2, ![120000, 16]⟩
abbrev S2000x16 : Shape := ⟨2, ![2000, 16]⟩
abbrev S960000x16 : Shape := ⟨2, ![960000, 16]⟩

abbrev nBuf : Space → Nat
  | .hbm => 220
  | .vmem => 42
  | .smem => 0
  | _ => 0

abbrev hbmTy0_0 (i : Nat) : BufTy := match i % 128 with
  | 0 => ⟨S20000x500, .f32⟩
  | 1 => ⟨S320000x2, .i32⟩
  | 2 => ⟨S660000, .i32⟩
  | 3 => ⟨S660000, .i32⟩
  | 4 => ⟨S660000, .f32⟩
  | 5 => ⟨S20000x64, .f32⟩
  | 6 => ⟨S500x256, .f32⟩
  | 7 => ⟨S256, .f32⟩
  | 8 => ⟨S256x64, .f32⟩
  | 9 => ⟨S64, .f32⟩
  | 10 => ⟨S64x1, .f32⟩
  | 11 => ⟨S1, .f32⟩
  | 12 => ⟨S64x256, .f32⟩
  | 13 => ⟨S256, .f32⟩
  | 14 => ⟨S256x2048, .f32⟩
  | 15 => ⟨S2048, .f32⟩
  | 16 => ⟨S2048x2500, .f32⟩
  | 17 => ⟨S2500, .f32⟩
  | 18 => ⟨S500x256, .f32⟩
  | 19 => ⟨S256, .f32⟩
  | 20 => ⟨S256x16, .f32⟩
  | 21 => ⟨S16, .f32⟩
  | 22 => ⟨S500x256, .bf16⟩
  | 23 => ⟨S256x64, .bf16⟩
  | 24 => ⟨S64x256, .bf16⟩
  | 25 => ⟨S256x2048, .bf16⟩
  | 26 => ⟨S2048x2500, .bf16⟩
  | 27 => ⟨S500x256, .bf16⟩
  | 28 => ⟨S256x16, .bf16⟩
  | 29 => ⟨S_, .f32⟩
  | 30 => ⟨S1x256, .f32⟩
  | 31 => ⟨S_, .f32⟩
  | 32 => ⟨S1x64, .f32⟩
  | 33 => ⟨S_, .f32⟩
  | 34 => ⟨S1x16, .f32⟩
  | 35 => ⟨S20000x256, .f32⟩
  | 36 => ⟨S660000x1, .f32⟩
  | 37 => ⟨S_, .i32⟩
  | 38 => ⟨S660000, .i32⟩
  | 39 => ⟨S660000, .i1⟩
  | 40 => ⟨S_, .i32⟩
  | 41 => ⟨S660000, .i32⟩
  | 42 => ⟨S660000, .i32⟩
  | 43 => ⟨S660000, .i32⟩
  | 44 => ⟨S660000x1, .i32⟩
  | 45 => ⟨S660000x256, .f32⟩
  | 46 => ⟨S660000x256, .f32⟩
  | 47 => ⟨S660000x256, .f32⟩
  | 48 => ⟨S_, .f32⟩
  | 49 => ⟨S20000x256, .f32⟩
  | 50 => ⟨S660000x1, .i32⟩
  | 51 => ⟨S20000x256, .f32⟩
  | 52 => ⟨S1x256, .f32⟩
  | 53 => ⟨S20000x256, .f32⟩
  | 54 => ⟨S20000x256, .f32⟩
  | 55 => ⟨S_, .f32⟩
  | 56 => ⟨S20000x256, .f32⟩
  | 57 => ⟨S20000x256, .f32⟩
  | 58 => ⟨S20000x64, .f32⟩
  | 59 => ⟨S660000x1, .f32⟩
  | 60 => ⟨S_, .i32⟩
  | 61 => ⟨S660000, .i32⟩
  | 62 => ⟨S660000, .i1⟩
  | 63 => ⟨S_, .i32⟩
  | 64 => ⟨S660000, .i32⟩
  | 65 => ⟨S660000, .i32⟩
  | 66 => ⟨S660000, .i32⟩
  | 67 => ⟨S660000x1, .i32⟩
  | 68 => ⟨S660000x64, .f32⟩
  | 69 => ⟨S660000x64, .f32⟩
  | 70 => ⟨S660000x64, .f32⟩
  | 71 => ⟨S_, .f32⟩
  | 72 => ⟨S20000x64, .f32⟩
  | 73 => ⟨S660000x1, .i32⟩
  | 74 => ⟨S20000x64, .f32⟩
  | 75 => ⟨S1x64, .f32⟩
  | 76 => ⟨S20000x64, .f32⟩
  | 77 => ⟨S20000x64, .f32⟩
  | 78 => ⟨S_, .f32⟩
  | 79 => ⟨S20000x64, .f32⟩
  | 80 => ⟨S20000x64, .f32⟩
  | 81 => ⟨S20000x1, .f32⟩
  | 82 => ⟨S1x1, .f32⟩
  | 83 => ⟨S20000x1, .f32⟩
  | 84 => ⟨S20000x1, .f32⟩
  | 85 => ⟨S_, .f32⟩
  | 86 => ⟨S20000x1, .f32⟩
  | 87 => ⟨S20000x1, .f32⟩
  | 88 => ⟨S20000x64, .f32⟩
  | 89 => ⟨S1x256, .f32⟩
  | 90 => ⟨S1x2048, .f32⟩
  | 91 => ⟨S1x2500, .f32⟩
  | 92 => ⟨S20000x256, .bf16⟩
  | 93 => ⟨S20000x2048, .bf16⟩
  | 94 => ⟨S20000x2500, .f32⟩
  | 95 => ⟨S100000x500, .f32⟩
  | 96 => ⟨S120000x500, .f32⟩
  | 97 => ⟨S20000, .f32⟩
  | 98 => ⟨S20000, .i32⟩
  | 99 => ⟨S_, .i32⟩
  | 100 => ⟨S_, .i32⟩
  | 101 => ⟨S_, .i32⟩
  | 102 => ⟨S20000, .i32⟩
  | 103 => ⟨S20000, .i32⟩
  | 104 => ⟨S_, .i32⟩
  | 105 => ⟨S20000, .i32⟩
  | 106 => ⟨S20000, .i32⟩
  | 107 => ⟨S20000, .i32⟩
  | 108 => ⟨S20000x5, .i32⟩
  | 109 => ⟨S100000, .i32⟩
  | 110 => ⟨S5, .i32⟩
  | 111 => ⟨S1x5, .i32⟩
  | 112 => ⟨S20000x5, .i32⟩
  | 113 => ⟨S100000, .i32⟩
  | 114 => ⟨S_, .i32⟩
  | 115 => ⟨S100000, .i32⟩
  | 116 => ⟨S100000, .i32⟩
  | 117 => ⟨S_, .i32⟩
  | 118 => ⟨S100000, .i32⟩
  | 119 => ⟨S100000, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S20000x500, .f32⟩

abbrev hbmTy0_1 (i : Nat) : BufTy := match i % 128 with
  | 0 => ⟨S100000x1, .i32⟩
  | 1 => ⟨S100000, .i32⟩
  | 2 => ⟨S100000, .i1⟩
  | 3 => ⟨S100000, .f32⟩
  | 4 => ⟨S120000, .i32⟩
  | 5 => ⟨S320000x1, .i32⟩
  | 6 => ⟨S320000, .i32⟩
  | 7 => ⟨S320000x1, .i32⟩
  | 8 => ⟨S320000, .i32⟩
  | 9 => ⟨S960000, .i32⟩
  | 10 => ⟨S320000x1, .i32⟩
  | 11 => ⟨S320000, .i32⟩
  | 12 => ⟨S320000x1, .i32⟩
  | 13 => ⟨S320000, .i32⟩
  | 14 => ⟨S960000, .i32⟩
  | 15 => ⟨S_, .f32⟩
  | 16 => ⟨S320000, .f32⟩
  | 17 => ⟨S_, .f32⟩
  | 18 => ⟨S120000, .f32⟩
  | 19 => ⟨S960000, .f32⟩
  | 20 => ⟨S_, .f32⟩
  | 21 => ⟨S120000, .f32⟩
  | 22 => ⟨S960000x1, .i32⟩
  | 23 => ⟨S120000, .f32⟩
  | 24 => ⟨S_, .f32⟩
  | 25 => ⟨S120000, .f32⟩
  | 26 => ⟨S120000, .i1⟩
  | 27 => ⟨S_, .f32⟩
  | 28 => ⟨S120000, .f32⟩
  | 29 => ⟨S120000, .f32⟩
  | 30 => ⟨S_, .f32⟩
  | 31 => ⟨S_, .f32⟩
  | 32 => ⟨S120000, .f32⟩
  | 33 => ⟨S120000, .f32⟩
  | 34 => ⟨S_, .i32⟩
  | 35 => ⟨S960000, .i32⟩
  | 36 => ⟨S960000, .i1⟩
  | 37 => ⟨S_, .i32⟩
  | 38 => ⟨S960000, .i32⟩
  | 39 => ⟨S960000, .i32⟩
  | 40 => ⟨S960000, .i32⟩
  | 41 => ⟨S960000x1, .i32⟩
  | 42 => ⟨S960000, .f32⟩
  | 43 => ⟨S960000, .f32⟩
  | 44 => ⟨S1x256, .f32⟩
  | 45 => ⟨S1x16, .f32⟩
  | 46 => ⟨S120000x256, .f32⟩
  | 47 => ⟨S960000x1, .f32⟩
  | 48 => ⟨S_, .i32⟩
  | 49 => ⟨S960000, .i32⟩
  | 50 => ⟨S960000, .i1⟩
  | 51 => ⟨S_, .i32⟩
  | 52 => ⟨S960000, .i32⟩
  | 53 => ⟨S960000, .i32⟩
  | 54 => ⟨S960000, .i32⟩
  | 55 => ⟨S960000x1, .i32⟩
  | 56 => ⟨S960000x256, .f32⟩
  | 57 => ⟨S960000x256, .f32⟩
  | 58 => ⟨S960000x256, .f32⟩
  | 59 => ⟨S_, .f32⟩
  | 60 => ⟨S120000x256, .f32⟩
  | 61 => ⟨S960000x1, .i32⟩
  | 62 => ⟨S120000x256, .f32⟩
  | 63 => ⟨S1x256, .f32⟩
  | 64 => ⟨S120000x256, .f32⟩
  | 65 => ⟨S120000x256, .f32⟩
  | 66 => ⟨S_, .f32⟩
  | 67 => ⟨S120000x256, .f32⟩
  | 68 => ⟨S120000x256, .f32⟩
  | 69 => ⟨S120000x16, .f32⟩
  | 70 => ⟨S960000x1, .f32⟩
  | 71 => ⟨S_, .i32⟩
  | 72 => ⟨S960000, .i32⟩
  | 73 => ⟨S960000, .i1⟩
  | 74 => ⟨S_, .i32⟩
  | 75 => ⟨S960000, .i32⟩
  | 76 => ⟨S960000, .i32⟩
  | 77 => ⟨S960000, .i32⟩
  | 78 => ⟨S960000x1, .i32⟩
  | 79 => ⟨S960000x16, .f32⟩
  | 80 => ⟨S960000x16, .f32⟩
  | 81 => ⟨S960000x16, .f32⟩
  | 82 => ⟨S_, .f32⟩
  | 83 => ⟨S120000x16, .f32⟩
  | 84 => ⟨S960000x1, .i32⟩
  | 85 => ⟨S120000x16, .f32⟩
  | 86 => ⟨S1x16, .f32⟩
  | 87 => ⟨S120000x16, .f32⟩
  | 88 => ⟨S120000x16, .f32⟩
  | 89 => ⟨S_, .f32⟩
  | 90 => ⟨S120000x16, .f32⟩
  | 91 => ⟨S120000x16, .f32⟩
  | _ => ⟨S20000x500, .f32⟩

abbrev hbmTy (i : Nat) : BufTy := match i / 128 with
  | 0 => hbmTy0_0 i
  | 1 => hbmTy0_1 i
  | _ => ⟨S20000x500, .f32⟩

abbrev bufTy : (tb : Table) → Fin (tcTables nBuf tb) → BufTy
  | .hbm, ⟨i, _⟩ => hbmTy i
  | .local _ .vmem, ⟨0, _⟩ => ⟨S2000x500, .f32⟩
  | .local _ .vmem, ⟨1, _⟩ => ⟨S2000x500, .f32⟩
  | .local _ .vmem, ⟨2, _⟩ => ⟨S500x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x64, .bf16⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x256, .bf16⟩
  | .local _ .vmem, ⟨15, _⟩ => ⟨S1x256, .f32⟩
  | .local _ .vmem, ⟨16, _⟩ => ⟨S2000x256, .bf16⟩
  | .local _ .vmem, ⟨17, _⟩ => ⟨S2000x256, .bf16⟩
  | .local _ .vmem, ⟨18, _⟩ => ⟨S2000x256, .bf16⟩
  | .local _ .vmem, ⟨19, _⟩ => ⟨S2000x256, .bf16⟩
  | .local _ .vmem, ⟨20, _⟩ => ⟨S256x2048, .bf16⟩
  | .local _ .vmem, ⟨21, _⟩ => ⟨S1x2048, .f32⟩
  | .local _ .vmem, ⟨22, _⟩ => ⟨S2000x2048, .bf16⟩
  | .local _ .vmem, ⟨23, _⟩ => ⟨S2000x2048, .bf16⟩
  | .local _ .vmem, ⟨24, _⟩ => ⟨S400x2048, .bf16⟩
  | .local _ .vmem, ⟨25, _⟩ => ⟨S400x2048, .bf16⟩
  | .local _ .vmem, ⟨26, _⟩ => ⟨S2048x2500, .bf16⟩
  | .local _ .vmem, ⟨27, _⟩ => ⟨S1x2500, .f32⟩
  | .local _ .vmem, ⟨28, _⟩ => ⟨S400x2500, .f32⟩
  | .local _ .vmem, ⟨29, _⟩ => ⟨S400x2500, .f32⟩
  | .local _ .vmem, ⟨30, _⟩ => ⟨S2000x500, .f32⟩
  | .local _ .vmem, ⟨31, _⟩ => ⟨S2000x500, .f32⟩
  | .local _ .vmem, ⟨32, _⟩ => ⟨S500x256, .bf16⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x16, .bf16⟩
  | .local _ .vmem, ⟨39, _⟩ => ⟨S1x16, .f32⟩
  | .local _ .vmem, ⟨40, _⟩ => ⟨S2000x16, .f32⟩
  | .local _ .vmem, ⟨41, _⟩ => ⟨S2000x16, .f32⟩
  | _, _ => ⟨S20000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call0_cst : Ref sig .tc := ⟨.hbm, 55, rfl⟩
abbrev main_call0_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call1_cst : Ref sig .tc := ⟨.hbm, 78, rfl⟩
abbrev main_call1_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call2_cst : Ref sig .tc := ⟨.hbm, 85, rfl⟩
abbrev main_call2_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_7 : Ref sig .tc := ⟨.hbm, 99, rfl⟩
abbrev main_c_8 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_9 : Ref sig .tc := ⟨.hbm, 114, rfl⟩
abbrev main_v70 : Ref sig .tc := ⟨.hbm, 115, rfl⟩
abbrev main_v71 : Ref sig .tc := ⟨.hbm, 116, rfl⟩
abbrev main_c_10 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_11 : Ref sig .tc := ⟨.hbm, 121, rfl⟩
abbrev main_v75 : Ref sig .tc := ⟨.hbm, 122, rfl⟩
abbrev main_v76 : Ref sig .tc := ⟨.hbm, 123, rfl⟩
abbrev main_c_12 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_13 : Ref sig .tc := ⟨.hbm, 143, rfl⟩
abbrev main_v95 : Ref sig .tc := ⟨.hbm, 144, rfl⟩
abbrev main_cst_14 : Ref sig .tc := ⟨.hbm, 145, rfl⟩
abbrev main_v96 : Ref sig .tc := ⟨.hbm, 146, rfl⟩
abbrev main_v97 : Ref sig .tc := ⟨.hbm, 147, rfl⟩
abbrev main_cst_15 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_16 : Ref sig .tc := ⟨.hbm, 152, rfl⟩
abbrev main_v101 : Ref sig .tc := ⟨.hbm, 153, rfl⟩
abbrev main_v102 : Ref sig .tc := ⟨.hbm, 154, rfl⟩
abbrev main_cst_17 : Ref sig .tc := ⟨.hbm, 155, rfl⟩
abbrev main_v103 : Ref sig .tc := ⟨.hbm, 156, rfl⟩
abbrev main_v104 : Ref sig .tc := ⟨.hbm, 157, rfl⟩
abbrev main_cst_18 : Ref sig .tc := ⟨.hbm, 158, rfl⟩
abbrev main_call4_v0 : Ref sig .tc := ⟨.hbm, 159, rfl⟩
abbrev main_call4_v1 : Ref sig .tc := ⟨.hbm, 160, rfl⟩
abbrev main_v105 : Ref sig .tc := ⟨.hbm, 161, rfl⟩
abbrev main_c_19 : Ref sig .tc := ⟨.hbm, 162, rfl⟩
abbrev main_v106 : Ref sig .tc := ⟨.hbm, 163, rfl⟩
abbrev main_v107 : Ref sig .tc := ⟨.hbm, 164, rfl⟩
abbrev main_c_20 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_21 : Ref sig .tc := ⟨.hbm, 176, rfl⟩
abbrev main_v118 : Ref sig .tc := ⟨.hbm, 177, rfl⟩
abbrev main_v119 : Ref sig .tc := ⟨.hbm, 178, rfl⟩
abbrev main_c_22 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_23 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_call5_cst : Ref sig .tc := ⟨.hbm, 194, rfl⟩
abbrev main_call5_v0 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_c_24 : Ref sig .tc := ⟨.hbm, 199, rfl⟩
abbrev main_v136 : Ref sig .tc := ⟨.hbm, 200, rfl⟩
abbrev main_v137 : Ref sig .tc := ⟨.hbm, 201, rfl⟩
abbrev main_c_25 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_26 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_call6_cst : Ref sig .tc := ⟨.hbm, 217, rfl⟩
abbrev main_call6_v0 : Ref sig .tc := ⟨.hbm, 218, rfl⟩
abbrev main_v151 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2500 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2500 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x2500 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![60], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x500 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S500x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![60], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x16 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bitsLt_bf16_f32 : FTy.bits .bf16 < FTy.bits .f32
  bcast_S_S1x256 : S_.BroadcastsInDim S1x256 (![] : Fin 0 → Fin S1x256.rank)
  bcast_S_S1x64 : S_.BroadcastsInDim S1x64 (![] : Fin 0 → Fin S1x64.rank)
  bcast_S_S1x16 : S_.BroadcastsInDim S1x16 (![] : Fin 0 → Fin S1x16.rank)
  inb_S2000x500_S2000x500_0_0 : ∀ a, (![0, 0] : Fin 2 → Nat) a + S2000x500.size a ≤ S2000x500.size a
  h_S2000x500 : 0 < S2000x500.numel
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S660000_S660000x1_0 : S660000.BroadcastsInDim S660000x1 (![0] : Fin 1 → Fin S660000x1.rank)
  bcast_S_S660000 : S_.BroadcastsInDim S660000 (![] : Fin 0 → Fin S660000.rank)
  bcast_S660000x1_S660000x256_0_1 : S660000x1.BroadcastsInDim S660000x256 (![0, 1] : Fin 2 → Fin S660000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S660000x1_S660000x64_0_1 : S660000x1.BroadcastsInDim S660000x64 (![0, 1] : Fin 2 → Fin S660000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  shapeCasts_S256_S1x256 : S256.ShapeCasts S1x256
  shapeCasts_S2048_S1x2048 : S2048.ShapeCasts S1x2048
  shapeCasts_S2500_S1x2500 : S2500.ShapeCasts S1x2500
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  packedbf16_S2000x256_S2000x256_0_0 : (Rect.unit (s := S2000x256) ![0, 0] S2000x256.size inb_S2000x256_S2000x256_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2000x2048 : S1x2048.Broadcasts S2000x2048
  inb_S2000x2048_S2000x2048_0_0 : ∀ a, (![0, 0] : Fin 2 → Nat) a + S2000x2048.size a ≤ S2000x2048.size a
  h_S2000x2048 : 0 < S2000x2048.numel
  packedbf16_S2000x2048_S2000x2048_0_0 : (Rect.unit (s := S2000x2048) ![0, 0] S2000x2048.size inb_S2000x2048_S2000x2048_0_0).PackedRows (EltTy.packing .bf16)
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  inb_S2048x2500_S2048x2500_0_0 : ∀ a, (![0, 0] : Fin 2 → Nat) a + S2048x2500.size a ≤ S2048x2500.size a
  h_S2048x2500 : 0 < S2048x2500.numel
  shapeCasts_S2048x2500_S2048x2500 : S2048x2500.ShapeCasts S2048x2500
  inb_S1x2500_S1x2500_0_0 : ∀ a, (![0, 0] : Fin 2 → Nat) a + S1x2500.size a ≤ S1x2500.size a
  h_S1x2500 : 0 < S1x2500.numel
  shapeCasts_S1x2500_S1x2500 : S1x2500.ShapeCasts S1x2500
  broadcasts_S1x2500_S400x2500 : S1x2500.Broadcasts S400x2500
  inb_S400x2500_S400x2500_0_0 : ∀ a, (![0, 0] : Fin 2 → Nat) a + S400x2500.size a ≤ S400x2500.size a
  h_S400x2500 : 0 < S400x2500.numel
  shapeCasts_S20000x2500_S100000x500 : S20000x2500.ShapeCasts S100000x500
  concatenates_S20000x500_S100000x500_S120000x500_d0 : Shape.Concatenates [S20000x500, S100000x500] S120000x500 0
  shapeCasts_S20000x1_S20000 : S20000x1.ShapeCasts S20000
  bcast_S_S20000 : S_.BroadcastsInDim S20000 (![] : Fin 0 → Fin S20000.rank)
  bcast_S20000_S20000x5_0 : S20000.BroadcastsInDim S20000x5 (![0] : Fin 1 → Fin S20000x5.rank)
  shapeCasts_S20000x5_S100000 : S20000x5.ShapeCasts S100000
  shapeCasts_S5_S1x5 : S5.ShapeCasts S1x5
  bcast_S1x5_S20000x5_0_1 : S1x5.BroadcastsInDim S20000x5 (![0, 1] : Fin 2 → Fin S20000x5.rank)
  bcast_S_S100000 : S_.BroadcastsInDim S100000 (![] : Fin 0 → Fin S100000.rank)
  bcast_S100000_S100000x1_0 : S100000.BroadcastsInDim S100000x1 (![0] : Fin 1 → Fin S100000x1.rank)
  slices_S320000x2_S320000x1_0_0 : S320000x2.Slices ![0, 0] S320000x1
  shapeCasts_S320000x1_S320000 : S320000x1.ShapeCasts S320000
  slices_S320000x2_S320000x1_0_1 : S320000x2.Slices ![0, 1] S320000x1
  concatenates_S320000_S100000_S320000_S100000_S120000_S960000_d0 : Shape.Concatenates [S320000, S100000, S320000, S100000, S120000] S960000 0
  bcast_S_S320000 : S_.BroadcastsInDim S320000 (![] : Fin 0 → Fin S320000.rank)
  bcast_S_S120000 : S_.BroadcastsInDim S120000 (![] : Fin 0 → Fin S120000.rank)
  bcast_S960000_S960000x1_0 : S960000.BroadcastsInDim S960000x1 (![0] : Fin 1 → Fin S960000x1.rank)
  bcast_S_S960000 : S_.BroadcastsInDim S960000 (![] : Fin 0 → Fin S960000.rank)
  shapeCasts_S16_S1x16 : S16.ShapeCasts S1x16
  shapeCasts_S2000x500_S2000x500 : S2000x500.ShapeCasts S2000x500
  bcast_S960000x1_S960000x256_0_1 : S960000x1.BroadcastsInDim S960000x256 (![0, 1] : Fin 2 → Fin S960000x256.rank)
  bcast_S_S120000x256 : S_.BroadcastsInDim S120000x256 (![] : Fin 0 → Fin S120000x256.rank)
  bcast_S1x256_S120000x256_0_1 : S1x256.BroadcastsInDim S120000x256 (![0, 1] : Fin 2 → Fin S120000x256.rank)
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S960000x1_S960000x16_0_1 : S960000x1.BroadcastsInDim S960000x16 (![0, 1] : Fin 2 → Fin S960000x16.rank)
  bcast_S_S120000x16 : S_.BroadcastsInDim S120000x16 (![] : Fin 0 → Fin S120000x16.rank)
  bcast_S16_S1x16_1 : S16.BroadcastsInDim S1x16 (![1] : Fin 1 → Fin S1x16.rank)
  bcast_S1x16_S120000x16_0_1 : S1x16.BroadcastsInDim S120000x16 (![0, 1] : Fin 2 → Fin S120000x16.rank)
  dot_S2000x500_S500x256_S2000x256_1_0_0_1_n_n_wf : DotDims.WF S2000x500 S500x256 S2000x256 [1] [0] [0] [1] [] []
  gather_S20000x256_S660000x1_S660000x256_1_0_n_n_0_1_1256_wf : GatherDims.WF S20000x256 S660000x1 S660000x256 [1] [0] [] [0] [] 1 ![1, 256]
  scatter_S20000x256_S660000x1_S660000x256_1_0_0_1_wf : ScatterDims.WF S20000x256 S660000x1 S660000x256 [1] [0] [0] 1
  dot_S2000x256_S256x64_S2000x64_1_0_0_1_n_n_wf : DotDims.WF S2000x256 S256x64 S2000x64 [1] [0] [0] [1] [] []
  gather_S20000x64_S660000x1_S660000x64_1_0_n_n_0_1_164_wf : GatherDims.WF S20000x64 S660000x1 S660000x64 [1] [0] [] [0] [] 1 ![1, 64]
  scatter_S20000x64_S660000x1_S660000x64_1_0_0_1_wf : ScatterDims.WF S20000x64 S660000x1 S660000x64 [1] [0] [0] 1
  dot_S20000x64_S64x1_S20000x1_1_0_0_1_n_n_wf : DotDims.WF S20000x64 S64x1 S20000x1 [1] [0] [0] [1] [] []
  dot_S2000x64_S64x256_S2000x256_1_0_0_1_n_n_wf : DotDims.WF S2000x64 S64x256 S2000x256 [1] [0] [0] [1] [] []
  dot_S2000x256_S256x2048_S2000x2048_1_0_0_1_n_n_wf : DotDims.WF S2000x256 S256x2048 S2000x2048 [1] [0] [0] [1] [] []
  dot_S400x2048_S2048x2500_S400x2500_1_0_0_1_n_n_wf : DotDims.WF S400x2048 S2048x2500 S400x2500 [1] [0] [0] [1] [] []
  gather_S20000_S100000x1_S100000_n_0_n_n_0_1_1_wf : GatherDims.WF S20000 S100000x1 S100000 [] [0] [] [0] [] 1 ![1]
  scatter_S120000_S960000x1_S960000_n_0_0_1_wf : ScatterDims.WF S120000 S960000x1 S960000 [] [0] [0] 1
  gather_S120000_S960000x1_S960000_n_0_n_n_0_1_1_wf : GatherDims.WF S120000 S960000x1 S960000 [] [0] [] [0] [] 1 ![1]
  gather_S120000x256_S960000x1_S960000x256_1_0_n_n_0_1_1256_wf : GatherDims.WF S120000x256 S960000x1 S960000x256 [1] [0] [] [0] [] 1 ![1, 256]
  scatter_S120000x256_S960000x1_S960000x256_1_0_0_1_wf : ScatterDims.WF S120000x256 S960000x1 S960000x256 [1] [0] [0] 1
  dot_S2000x256_S256x16_S2000x16_1_0_0_1_n_n_wf : DotDims.WF S2000x256 S256x16 S2000x16 [1] [0] [0] [1] [] []
  gather_S120000x16_S960000x1_S960000x16_1_0_n_n_0_1_116_wf : GatherDims.WF S120000x16 S960000x1 S960000x16 [1] [0] [] [0] [] 1 ![1, 16]
  scatter_S120000x16_S960000x1_S960000x16_1_0_0_1_wf : ScatterDims.WF S120000x16 S960000x1 S960000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S20000x500.size a
  hwx0_0 : ∀ i : grid0.Coords, EltTy.bits .f32 = 32 ∨ (Rect.block (s := S20000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x256.size a ≤ S500x256.size a
  hwx0_1 : ∀ i : grid0.Coords, EltTy.bits .bf16 = 32 ∨ (Rect.block (s := S500x256) S500x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S20000x64.size a
  hwx1_3 : ∀ i : grid1.Coords, EltTy.bits .f32 = 32 ∨ (Rect.block (s := S20000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S20000x64.size a
  hwx2_0 : ∀ i : grid2.Coords, EltTy.bits .f32 = 32 ∨ (Rect.block (s := S20000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .bf16 = 32 ∨ (Rect.block (s := S64x256) S64x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .bf16 = 32 ∨ (Rect.block (s := S20000x256) S2000x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S256x2048.size a
  hwx3_1 : ∀ i : grid3.Coords, EltTy.bits .bf16 = 32 ∨ (Rect.block (s := S256x2048) S256x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2048.size a ≤ S20000x2048.size a
  hwx3_3 : ∀ i : grid3.Coords, EltTy.bits .bf16 = 32 ∨ (Rect.block (s := S20000x2048) S2000x2048.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x2048.size a ≤ S20000x2048.size a
  hwx4_0 : ∀ i : grid4.Coords, EltTy.bits .bf16 = 32 ∨ (Rect.block (s := S20000x2048) S400x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2500.size a ≤ S2048x2500.size a
  hwx4_1 : ∀ i : grid4.Coords, EltTy.bits .bf16 = 32 ∨ (Rect.block (s := S2048x2500) S2048x2500.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2500.size a ≤ S1x2500.size a
  hwx4_2 : ∀ i : grid4.Coords, EltTy.bits .f32 = 32 ∨ (Rect.block (s := S1x2500) S1x2500.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x2500.size a ≤ S20000x2500.size a
  hwx4_3 : ∀ i : grid4.Coords, EltTy.bits .f32 = 32 ∨ (Rect.block (s := S20000x2500) S400x2500.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x500.size a ≤ S120000x500.size a
  hwx5_0 : ∀ i : grid5.Coords, EltTy.bits .f32 = 32 ∨ (Rect.block (s := S120000x500) S2000x500.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S500x256.size a ≤ S500x256.size a
  hwx5_1 : ∀ i : grid5.Coords, EltTy.bits .bf16 = 32 ∨ (Rect.block (s := S500x256) S500x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S120000x256.size a
  hwx5_3 : ∀ i : grid5.Coords, EltTy.bits .f32 = 32 ∨ (Rect.block (s := S120000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S120000x256.size a
  hwx6_0 : ∀ i : grid6.Coords, EltTy.bits .f32 = 32 ∨ (Rect.block (s := S120000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x16.size a ≤ S256x16.size a
  hwx6_1 : ∀ i : grid6.Coords, EltTy.bits .bf16 = 32 ∨ (Rect.block (s := S256x16) S256x16.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x16.size a ≤ S120000x16.size a
  hwx6_3 : ∀ i : grid6.Coords, EltTy.bits .f32 = 32 ∨ (Rect.block (s := S120000x16) S2000x16.size (cc6_transform_3 i) (hinb6_3 i)).WholeWords (EltTy.packing .f32)

variable [Facts₀]

def dot_S2000x500_S500x256_S2000x256_1_0_0_1_n_n : DotDims S2000x500 S500x256 S2000x256 where
  lhsContracting := [1]
  rhsContracting := [0]
  lhsNonContracting := [0]
  rhsNonContracting := [1]
  lhsBatch := []
  rhsBatch := []
  wf := dot_S2000x500_S500x256_S2000x256_1_0_0_1_n_n_wf
def gather_S20000x256_S660000x1_S660000x256_1_0_n_n_0_1_1256 : GatherDims S20000x256 S660000x1 S660000x256 where
  offsetDims := [1]
  collapsedSliceDims := [0]
  operandBatchingDims := []
  startIndicesBatchingDims := []
  startIndexMap := [0]
  indexVectorDim := 1
  sliceSizes := ![1, 256]
  wf := gather_S20000x256_S660000x1_S660000x256_1_0_n_n_0_1_1256_wf
def scatter_S20000x256_S660000x1_S660000x256_1_0_0_1 : ScatterDims S20000x256 S660000x1 S660000x256 where
  updateWindowDims := [1]
  insertedWindowDims := [0]
  scatterDimsToOperandDims := [0]
  indexVectorDim := 1
  wf := scatter_S20000x256_S660000x1_S660000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S20000x64_S660000x1_S660000x64_1_0_n_n_0_1_164 : GatherDims S20000x64 S660000x1 S660000x64 where
  offsetDims := [1]
  collapsedSliceDims := [0]
  operandBatchingDims := []
  startIndicesBatchingDims := []
  startIndexMap := [0]
  indexVectorDim := 1
  sliceSizes := ![1, 64]
  wf := gather_S20000x64_S660000x1_S660000x64_1_0_n_n_0_1_164_wf
def scatter_S20000x64_S660000x1_S660000x64_1_0_0_1 : ScatterDims S20000x64 S660000x1 S660000x64 where
  updateWindowDims := [1]
  insertedWindowDims := [0]
  scatterDimsToOperandDims := [0]
  indexVectorDim := 1
  wf := scatter_S20000x64_S660000x1_S660000x64_1_0_0_1_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x2048_S2000x2048_1_0_0_1_n_n : DotDims S2000x256 S256x2048 S2000x2048 where
  lhsContracting := [1]
  rhsContracting := [0]
  lhsNonContracting := [0]
  rhsNonContracting := [1]
  lhsBatch := []
  rhsBatch := []
  wf := dot_S2000x256_S256x2048_S2000x2048_1_0_0_1_n_n_wf
def dot_S400x2048_S2048x2500_S400x2500_1_0_0_1_n_n : DotDims S400x2048 S2048x2500 S400x2500 where
  lhsContracting := [1]
  rhsContracting := [0]
  lhsNonContracting := [0]
  rhsNonContracting := [1]
  lhsBatch := []
  rhsBatch := []
  wf := dot_S400x2048_S2048x2500_S400x2500_1_0_0_1_n_n_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def scatter_S120000_S960000x1_S960000_n_0_0_1 : ScatterDims S120000 S960000x1 S960000 where
  updateWindowDims := []
  insertedWindowDims := [0]
  scatterDimsToOperandDims := [0]
  indexVectorDim := 1
  wf := scatter_S120000_S960000x1_S960000_n_0_0_1_wf
def gather_S120000_S960000x1_S960000_n_0_n_n_0_1_1 : GatherDims S120000 S960000x1 S960000 where
  offsetDims := []
  collapsedSliceDims := [0]
  operandBatchingDims := []
  startIndicesBatchingDims := []
  startIndexMap := [0]
  indexVectorDim := 1
  sliceSizes := ![1]
  wf := gather_S120000_S960000x1_S960000_n_0_n_n_0_1_1_wf
def gather_S120000x256_S960000x1_S960000x256_1_0_n_n_0_1_1256 : GatherDims S120000x256 S960000x1 S960000x256 where
  offsetDims := [1]
  collapsedSliceDims := [0]
  operandBatchingDims := []
  startIndicesBatchingDims := []
  startIndexMap := [0]
  indexVectorDim := 1
  sliceSizes := ![1, 256]
  wf := gather_S120000x256_S960000x1_S960000x256_1_0_n_n_0_1_1256_wf
def scatter_S120000x256_S960000x1_S960000x256_1_0_0_1 : ScatterDims S120000x256 S960000x1 S960000x256 where
  updateWindowDims := [1]
  insertedWindowDims := [0]
  scatterDimsToOperandDims := [0]
  indexVectorDim := 1
  wf := scatter_S120000x256_S960000x1_S960000x256_1_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S120000x16_S960000x1_S960000x16_1_0_n_n_0_1_116 : GatherDims S120000x16 S960000x1 S960000x16 where
  offsetDims := [1]
  collapsedSliceDims := [0]
  operandBatchingDims := []
  startIndicesBatchingDims := []
  startIndexMap := [0]
  indexVectorDim := 1
  sliceSizes := ![1, 16]
  wf := gather_S120000x16_S960000x1_S960000x16_1_0_n_n_0_1_116_wf
def scatter_S120000x16_S960000x1_S960000x16_1_0_0_1 : ScatterDims S120000x16 S960000x1 S960000x16 where
  updateWindowDims := [1]
  insertedWindowDims := [0]
  scatterDimsToOperandDims := [0]
  indexVectorDim := 1
  wf := scatter_S120000x16_S960000x1_S960000x16_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S500x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S256x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S2000x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S400x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2048x2500.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x2500.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S400x2500.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v59) S2000x500.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S500x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v133) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S256x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v9) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S2000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S20000x500 : Shape := ⟨2, ![20000, 500]⟩
abbrev S320000x2 : Shape := ⟨2, ![320000, 2]⟩
abbrev S660000 : Shape := ⟨1, ![660000]⟩
abbrev S20000x64 : Shape := ⟨2, ![20000, 64]⟩
abbrev S500x256 : Shape := ⟨2, ![500, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x256 : Shape := ⟨2, ![64, 256]⟩
abbrev S256x2048 : Shape := ⟨2, ![256, 2048]⟩
abbrev S2048 : Shape := ⟨1, ![2048]⟩
abbrev S2048x2500 : Shape := ⟨2, ![2048, 2500]⟩
abbrev S2500 : Shape := ⟨1, ![2500]⟩
abbrev S256x16 : Shape := ⟨2, ![256, 16]⟩
abbrev S16 : Shape := ⟨1, ![16]⟩
abbrev S20000x256 : Shape := ⟨2, ![20000, 256]⟩
abbrev S660000x1 : Shape := ⟨2, ![660000, 1]⟩
abbrev S_ : Shape := ⟨0, ![]⟩
abbrev S660000x256 : Shape := ⟨2, ![660000, 256]⟩
abbrev S1x256 : Shape := ⟨2, ![1, 256]⟩
abbrev S660000x64 : Shape := ⟨2, ![660000, 64]⟩
abbrev S1x64 : Shape := ⟨2, ![1, 64]⟩
abbrev S20000x1 : Shape := ⟨2, ![20000, 1]⟩
abbrev S1x1 : Shape := ⟨2, ![1, 1]⟩
abbrev S20000x2048 : Shape := ⟨2, ![20000, 2048]⟩
abbrev S1x2048 : Shape := ⟨2, ![1, 2048]⟩
abbrev S20000x2500 : Shape := ⟨2, ![20000, 2500]⟩
abbrev S1x2500 : Shape := ⟨2, ![1, 2500]⟩
abbrev S100000x500 : Shape := ⟨2, ![100000, 500]⟩
abbrev S120000x500 : Shape := ⟨2, ![120000, 500]⟩
abbrev S20000 : Shape := ⟨1, ![20000]⟩
abbrev S20000x5 : Shape := ⟨2, ![20000, 5]⟩
abbrev S100000 : Shape := ⟨1, ![100000]⟩
abbrev S5 : Shape := ⟨1, ![5]⟩
abbrev S1x5 : Shape := ⟨2, ![1, 5]⟩
abbrev S100000x1 : Shape := ⟨2, ![100000, 1]⟩
abbrev S120000 : Shape := ⟨1, ![120000]⟩
abbrev S320000x1 : Shape := ⟨2, ![320000, 1]⟩
abbrev S320000 : Shape := ⟨1, ![320000]⟩
abbrev S960000 : Shape := ⟨1, ![960000]⟩
abbrev S960000x1 : Shape := ⟨2, ![960000, 1]⟩
abbrev S120000x256 : Shape := ⟨2, ![120000, 256]⟩
abbrev S960000x256 : Shape := ⟨2, ![960000, 256]⟩
abbrev S120000x16 : Shape := ⟨2, ![120000, 16]⟩
abbrev S960000x16 : Shape := ⟨2, ![960000, 16]⟩
abbrev S1x16 : Shape := ⟨2, ![1, 16]⟩

abbrev nBuf : Space → Nat
  | .hbm => 218
  | .vmem => 0
  | .smem => 0
  | _ => 0

abbrev hbmTy0_0 (i : Nat) : BufTy := match i % 128 with
  | 0 => ⟨S20000x500, .f32⟩
  | 1 => ⟨S320000x2, .i32⟩
  | 2 => ⟨S660000, .i32⟩
  | 3 => ⟨S660000, .i32⟩
  | 4 => ⟨S660000, .f32⟩
  | 5 => ⟨S20000x64, .f32⟩
  | 6 => ⟨S500x256, .f32⟩
  | 7 => ⟨S256, .f32⟩
  | 8 => ⟨S256x64, .f32⟩
  | 9 => ⟨S64, .f32⟩
  | 10 => ⟨S64x1, .f32⟩
  | 11 => ⟨S1, .f32⟩
  | 12 => ⟨S64x256, .f32⟩
  | 13 => ⟨S256, .f32⟩
  | 14 => ⟨S256x2048, .f32⟩
  | 15 => ⟨S2048, .f32⟩
  | 16 => ⟨S2048x2500, .f32⟩
  | 17 => ⟨S2500, .f32⟩
  | 18 => ⟨S500x256, .f32⟩
  | 19 => ⟨S256, .f32⟩
  | 20 => ⟨S256x16, .f32⟩
  | 21 => ⟨S16, .f32⟩
  | 22 => ⟨S20000x256, .f32⟩
  | 23 => ⟨S660000x1, .f32⟩
  | 24 => ⟨S_, .i32⟩
  | 25 => ⟨S660000, .i32⟩
  | 26 => ⟨S660000, .i1⟩
  | 27 => ⟨S_, .i32⟩
  | 28 => ⟨S660000, .i32⟩
  | 29 => ⟨S660000, .i32⟩
  | 30 => ⟨S660000, .i32⟩
  | 31 => ⟨S660000x1, .i32⟩
  | 32 => ⟨S660000x256, .f32⟩
  | 33 => ⟨S660000x256, .f32⟩
  | 34 => ⟨S660000x256, .f32⟩
  | 35 => ⟨S_, .f32⟩
  | 36 => ⟨S20000x256, .f32⟩
  | 37 => ⟨S660000x1, .i32⟩
  | 38 => ⟨S20000x256, .f32⟩
  | 39 => ⟨S1x256, .f32⟩
  | 40 => ⟨S20000x256, .f32⟩
  | 41 => ⟨S20000x256, .f32⟩
  | 42 => ⟨S_, .f32⟩
  | 43 => ⟨S20000x256, .f32⟩
  | 44 => ⟨S20000x256, .f32⟩
  | 45 => ⟨S20000x64, .f32⟩
  | 46 => ⟨S660000x1, .f32⟩
  | 47 => ⟨S_, .i32⟩
  | 48 => ⟨S660000, .i32⟩
  | 49 => ⟨S660000, .i1⟩
  | 50 => ⟨S_, .i32⟩
  | 51 => ⟨S660000, .i32⟩
  | 52 => ⟨S660000, .i32⟩
  | 53 => ⟨S660000, .i32⟩
  | 54 => ⟨S660000x1, .i32⟩
  | 55 => ⟨S660000x64, .f32⟩
  | 56 => ⟨S660000x64, .f32⟩
  | 57 => ⟨S660000x64, .f32⟩
  | 58 => ⟨S_, .f32⟩
  | 59 => ⟨S20000x64, .f32⟩
  | 60 => ⟨S660000x1, .i32⟩
  | 61 => ⟨S20000x64, .f32⟩
  | 62 => ⟨S1x64, .f32⟩
  | 63 => ⟨S20000x64, .f32⟩
  | 64 => ⟨S20000x64, .f32⟩
  | 65 => ⟨S_, .f32⟩
  | 66 => ⟨S20000x64, .f32⟩
  | 67 => ⟨S20000x64, .f32⟩
  | 68 => ⟨S20000x1, .f32⟩
  | 69 => ⟨S1x1, .f32⟩
  | 70 => ⟨S20000x1, .f32⟩
  | 71 => ⟨S20000x1, .f32⟩
  | 72 => ⟨S_, .f32⟩
  | 73 => ⟨S20000x1, .f32⟩
  | 74 => ⟨S20000x1, .f32⟩
  | 75 => ⟨S20000x64, .f32⟩
  | 76 => ⟨S20000x256, .f32⟩
  | 77 => ⟨S1x256, .f32⟩
  | 78 => ⟨S20000x256, .f32⟩
  | 79 => ⟨S20000x256, .f32⟩
  | 80 => ⟨S_, .f32⟩
  | 81 => ⟨S20000x256, .f32⟩
  | 82 => ⟨S20000x256, .f32⟩
  | 83 => ⟨S20000x2048, .f32⟩
  | 84 => ⟨S1x2048, .f32⟩
  | 85 => ⟨S20000x2048, .f32⟩
  | 86 => ⟨S20000x2048, .f32⟩
  | 87 => ⟨S_, .f32⟩
  | 88 => ⟨S20000x2048, .f32⟩
  | 89 => ⟨S20000x2048, .f32⟩
  | 90 => ⟨S20000x2500, .f32⟩
  | 91 => ⟨S1x2500, .f32⟩
  | 92 => ⟨S20000x2500, .f32⟩
  | 93 => ⟨S20000x2500, .f32⟩
  | 94 => ⟨S20000x2500, .f32⟩
  | 95 => ⟨S100000x500, .f32⟩
  | 96 => ⟨S120000x500, .f32⟩
  | 97 => ⟨S20000, .f32⟩
  | 98 => ⟨S20000, .i32⟩
  | 99 => ⟨S_, .i32⟩
  | 100 => ⟨S_, .i32⟩
  | 101 => ⟨S_, .i32⟩
  | 102 => ⟨S20000, .i32⟩
  | 103 => ⟨S20000, .i32⟩
  | 104 => ⟨S_, .i32⟩
  | 105 => ⟨S20000, .i32⟩
  | 106 => ⟨S20000, .i32⟩
  | 107 => ⟨S20000, .i32⟩
  | 108 => ⟨S20000x5, .i32⟩
  | 109 => ⟨S100000, .i32⟩
  | 110 => ⟨S5, .i32⟩
  | 111 => ⟨S1x5, .i32⟩
  | 112 => ⟨S20000x5, .i32⟩
  | 113 => ⟨S100000, .i32⟩
  | 114 => ⟨S_, .i32⟩
  | 115 => ⟨S100000, .i32⟩
  | 116 => ⟨S100000, .i32⟩
  | 117 => ⟨S_, .i32⟩
  | 118 => ⟨S100000, .i32⟩
  | 119 => ⟨S100000, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S20000x500, .f32⟩

abbrev hbmTy0_1 (i : Nat) : BufTy := match i % 128 with
  | 0 => ⟨S100000x1, .i32⟩
  | 1 => ⟨S100000, .i32⟩
  | 2 => ⟨S100000, .i1⟩
  | 3 => ⟨S100000, .f32⟩
  | 4 => ⟨S120000, .i32⟩
  | 5 => ⟨S320000x1, .i32⟩
  | 6 => ⟨S320000, .i32⟩
  | 7 => ⟨S320000x1, .i32⟩
  | 8 => ⟨S320000, .i32⟩
  | 9 => ⟨S960000, .i32⟩
  | 10 => ⟨S320000x1, .i32⟩
  | 11 => ⟨S320000, .i32⟩
  | 12 => ⟨S320000x1, .i32⟩
  | 13 => ⟨S320000, .i32⟩
  | 14 => ⟨S960000, .i32⟩
  | 15 => ⟨S_, .f32⟩
  | 16 => ⟨S320000, .f32⟩
  | 17 => ⟨S_, .f32⟩
  | 18 => ⟨S120000, .f32⟩
  | 19 => ⟨S960000, .f32⟩
  | 20 => ⟨S_, .f32⟩
  | 21 => ⟨S120000, .f32⟩
  | 22 => ⟨S960000x1, .i32⟩
  | 23 => ⟨S120000, .f32⟩
  | 24 => ⟨S_, .f32⟩
  | 25 => ⟨S120000, .f32⟩
  | 26 => ⟨S120000, .i1⟩
  | 27 => ⟨S_, .f32⟩
  | 28 => ⟨S120000, .f32⟩
  | 29 => ⟨S120000, .f32⟩
  | 30 => ⟨S_, .f32⟩
  | 31 => ⟨S_, .f32⟩
  | 32 => ⟨S120000, .f32⟩
  | 33 => ⟨S120000, .f32⟩
  | 34 => ⟨S_, .i32⟩
  | 35 => ⟨S960000, .i32⟩
  | 36 => ⟨S960000, .i1⟩
  | 37 => ⟨S_, .i32⟩
  | 38 => ⟨S960000, .i32⟩
  | 39 => ⟨S960000, .i32⟩
  | 40 => ⟨S960000, .i32⟩
  | 41 => ⟨S960000x1, .i32⟩
  | 42 => ⟨S960000, .f32⟩
  | 43 => ⟨S960000, .f32⟩
  | 44 => ⟨S120000x256, .f32⟩
  | 45 => ⟨S960000x1, .f32⟩
  | 46 => ⟨S_, .i32⟩
  | 47 => ⟨S960000, .i32⟩
  | 48 => ⟨S960000, .i1⟩
  | 49 => ⟨S_, .i32⟩
  | 50 => ⟨S960000, .i32⟩
  | 51 => ⟨S960000, .i32⟩
  | 52 => ⟨S960000, .i32⟩
  | 53 => ⟨S960000x1, .i32⟩
  | 54 => ⟨S960000x256, .f32⟩
  | 55 => ⟨S960000x256, .f32⟩
  | 56 => ⟨S960000x256, .f32⟩
  | 57 => ⟨S_, .f32⟩
  | 58 => ⟨S120000x256, .f32⟩
  | 59 => ⟨S960000x1, .i32⟩
  | 60 => ⟨S120000x256, .f32⟩
  | 61 => ⟨S1x256, .f32⟩
  | 62 => ⟨S120000x256, .f32⟩
  | 63 => ⟨S120000x256, .f32⟩
  | 64 => ⟨S_, .f32⟩
  | 65 => ⟨S120000x256, .f32⟩
  | 66 => ⟨S120000x256, .f32⟩
  | 67 => ⟨S120000x16, .f32⟩
  | 68 => ⟨S960000x1, .f32⟩
  | 69 => ⟨S_, .i32⟩
  | 70 => ⟨S960000, .i32⟩
  | 71 => ⟨S960000, .i1⟩
  | 72 => ⟨S_, .i32⟩
  | 73 => ⟨S960000, .i32⟩
  | 74 => ⟨S960000, .i32⟩
  | 75 => ⟨S960000, .i32⟩
  | 76 => ⟨S960000x1, .i32⟩
  | 77 => ⟨S960000x16, .f32⟩
  | 78 => ⟨S960000x16, .f32⟩
  | 79 => ⟨S960000x16, .f32⟩
  | 80 => ⟨S_, .f32⟩
  | 81 => ⟨S120000x16, .f32⟩
  | 82 => ⟨S960000x1, .i32⟩
  | 83 => ⟨S120000x16, .f32⟩
  | 84 => ⟨S1x16, .f32⟩
  | 85 => ⟨S120000x16, .f32⟩
  | 86 => ⟨S120000x16, .f32⟩
  | 87 => ⟨S_, .f32⟩
  | 88 => ⟨S120000x16, .f32⟩
  | 89 => ⟨S120000x16, .f32⟩
  | _ => ⟨S20000x500, .f32⟩

abbrev hbmTy (i : Nat) : BufTy := match i / 128 with
  | 0 => hbmTy0_0 i
  | 1 => hbmTy0_1 i
  | _ => ⟨S20000x500, .f32⟩

abbrev bufTy : (tb : Table) → Fin (tcTables nBuf tb) → BufTy
  | .hbm, ⟨i, _⟩ => hbmTy i
  | _, _ => ⟨S20000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call0_cst : Ref sig .tc := ⟨.hbm, 42, rfl⟩
abbrev main_call0_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_1 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call1_cst : Ref sig .tc := ⟨.hbm, 65, rfl⟩
abbrev main_call1_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call2_cst : Ref sig .tc := ⟨.hbm, 72, rfl⟩
abbrev main_call2_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call3_cst : Ref sig .tc := ⟨.hbm, 80, rfl⟩
abbrev main_call3_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call4_cst : Ref sig .tc := ⟨.hbm, 87, rfl⟩
abbrev main_call4_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_4 : Ref sig .tc := ⟨.hbm, 99, rfl⟩
abbrev main_c_5 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_6 : Ref sig .tc := ⟨.hbm, 114, rfl⟩
abbrev main_v69 : Ref sig .tc := ⟨.hbm, 115, rfl⟩
abbrev main_v70 : Ref sig .tc := ⟨.hbm, 116, rfl⟩
abbrev main_c_7 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_8 : Ref sig .tc := ⟨.hbm, 121, rfl⟩
abbrev main_v74 : Ref sig .tc := ⟨.hbm, 122, rfl⟩
abbrev main_v75 : Ref sig .tc := ⟨.hbm, 123, rfl⟩
abbrev main_c_9 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_10 : Ref sig .tc := ⟨.hbm, 143, rfl⟩
abbrev main_v94 : Ref sig .tc := ⟨.hbm, 144, rfl⟩
abbrev main_cst_11 : Ref sig .tc := ⟨.hbm, 145, rfl⟩
abbrev main_v95 : Ref sig .tc := ⟨.hbm, 146, rfl⟩
abbrev main_v96 : Ref sig .tc := ⟨.hbm, 147, rfl⟩
abbrev main_cst_12 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_13 : Ref sig .tc := ⟨.hbm, 152, rfl⟩
abbrev main_v100 : Ref sig .tc := ⟨.hbm, 153, rfl⟩
abbrev main_v101 : Ref sig .tc := ⟨.hbm, 154, rfl⟩
abbrev main_cst_14 : Ref sig .tc := ⟨.hbm, 155, rfl⟩
abbrev main_v102 : Ref sig .tc := ⟨.hbm, 156, rfl⟩
abbrev main_v103 : Ref sig .tc := ⟨.hbm, 157, rfl⟩
abbrev main_cst_15 : Ref sig .tc := ⟨.hbm, 158, rfl⟩
abbrev main_call6_v0 : Ref sig .tc := ⟨.hbm, 159, rfl⟩
abbrev main_call6_v1 : Ref sig .tc := ⟨.hbm, 160, rfl⟩
abbrev main_v104 : Ref sig .tc := ⟨.hbm, 161, rfl⟩
abbrev main_c_16 : Ref sig .tc := ⟨.hbm, 162, rfl⟩
abbrev main_v105 : Ref sig .tc := ⟨.hbm, 163, rfl⟩
abbrev main_v106 : Ref sig .tc := ⟨.hbm, 164, rfl⟩
abbrev main_c_17 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_c_18 : Ref sig .tc := ⟨.hbm, 174, rfl⟩
abbrev main_v115 : Ref sig .tc := ⟨.hbm, 175, rfl⟩
abbrev main_v116 : Ref sig .tc := ⟨.hbm, 176, rfl⟩
abbrev main_c_19 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_20 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_call7_cst : Ref sig .tc := ⟨.hbm, 192, rfl⟩
abbrev main_call7_v0 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_21 : Ref sig .tc := ⟨.hbm, 197, rfl⟩
abbrev main_v133 : Ref sig .tc := ⟨.hbm, 198, rfl⟩
abbrev main_v134 : Ref sig .tc := ⟨.hbm, 199, rfl⟩
abbrev main_c_22 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_23 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_call8_cst : Ref sig .tc := ⟨.hbm, 215, rfl⟩
abbrev main_call8_v0 : Ref sig .tc := ⟨.hbm, 216, rfl⟩
abbrev main_v148 : Ref sig .tc := ⟨.hbm, 217, rfl⟩

abbrev nD : Nat := 1
abbrev τ : Topo := Topo.v7x

variable {F : FTy → Type} [FloatOps F]

class Facts₀ : Prop where
  bcast_S660000_S660000x1_0 : S660000.BroadcastsInDim S660000x1 (![0] : Fin 1 → Fin S660000x1.rank)
  bcast_S_S660000 : S_.BroadcastsInDim S660000 (![] : Fin 0 → Fin S660000.rank)
  bcast_S660000x1_S660000x256_0_1 : S660000x1.BroadcastsInDim S660000x256 (![0, 1] : Fin 2 → Fin S660000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S660000x1_S660000x64_0_1 : S660000x1.BroadcastsInDim S660000x64 (![0, 1] : Fin 2 → Fin S660000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  bcast_S2048_S1x2048_1 : S2048.BroadcastsInDim S1x2048 (![1] : Fin 1 → Fin S1x2048.rank)
  bcast_S1x2048_S20000x2048_0_1 : S1x2048.BroadcastsInDim S20000x2048 (![0, 1] : Fin 2 → Fin S20000x2048.rank)
  bcast_S_S20000x2048 : S_.BroadcastsInDim S20000x2048 (![] : Fin 0 → Fin S20000x2048.rank)
  bcast_S2500_S1x2500_1 : S2500.BroadcastsInDim S1x2500 (![1] : Fin 1 → Fin S1x2500.rank)
  bcast_S1x2500_S20000x2500_0_1 : S1x2500.BroadcastsInDim S20000x2500 (![0, 1] : Fin 2 → Fin S20000x2500.rank)
  shapeCasts_S20000x2500_S100000x500 : S20000x2500.ShapeCasts S100000x500
  concatenates_S20000x500_S100000x500_S120000x500_d0 : Shape.Concatenates [S20000x500, S100000x500] S120000x500 0
  shapeCasts_S20000x1_S20000 : S20000x1.ShapeCasts S20000
  bcast_S_S20000 : S_.BroadcastsInDim S20000 (![] : Fin 0 → Fin S20000.rank)
  bcast_S20000_S20000x5_0 : S20000.BroadcastsInDim S20000x5 (![0] : Fin 1 → Fin S20000x5.rank)
  shapeCasts_S20000x5_S100000 : S20000x5.ShapeCasts S100000
  shapeCasts_S5_S1x5 : S5.ShapeCasts S1x5
  bcast_S1x5_S20000x5_0_1 : S1x5.BroadcastsInDim S20000x5 (![0, 1] : Fin 2 → Fin S20000x5.rank)
  bcast_S_S100000 : S_.BroadcastsInDim S100000 (![] : Fin 0 → Fin S100000.rank)
  bcast_S100000_S100000x1_0 : S100000.BroadcastsInDim S100000x1 (![0] : Fin 1 → Fin S100000x1.rank)
  slices_S320000x2_S320000x1_0_0 : S320000x2.Slices ![0, 0] S320000x1
  shapeCasts_S320000x1_S320000 : S320000x1.ShapeCasts S320000
  slices_S320000x2_S320000x1_0_1 : S320000x2.Slices ![0, 1] S320000x1
  concatenates_S320000_S100000_S320000_S100000_S120000_S960000_d0 : Shape.Concatenates [S320000, S100000, S320000, S100000, S120000] S960000 0
  bcast_S_S320000 : S_.BroadcastsInDim S320000 (![] : Fin 0 → Fin S320000.rank)
  bcast_S_S120000 : S_.BroadcastsInDim S120000 (![] : Fin 0 → Fin S120000.rank)
  bcast_S960000_S960000x1_0 : S960000.BroadcastsInDim S960000x1 (![0] : Fin 1 → Fin S960000x1.rank)
  bcast_S_S960000 : S_.BroadcastsInDim S960000 (![] : Fin 0 → Fin S960000.rank)
  bcast_S960000x1_S960000x256_0_1 : S960000x1.BroadcastsInDim S960000x256 (![0, 1] : Fin 2 → Fin S960000x256.rank)
  bcast_S_S120000x256 : S_.BroadcastsInDim S120000x256 (![] : Fin 0 → Fin S120000x256.rank)
  bcast_S1x256_S120000x256_0_1 : S1x256.BroadcastsInDim S120000x256 (![0, 1] : Fin 2 → Fin S120000x256.rank)
  bcast_S960000x1_S960000x16_0_1 : S960000x1.BroadcastsInDim S960000x16 (![0, 1] : Fin 2 → Fin S960000x16.rank)
  bcast_S_S120000x16 : S_.BroadcastsInDim S120000x16 (![] : Fin 0 → Fin S120000x16.rank)
  bcast_S16_S1x16_1 : S16.BroadcastsInDim S1x16 (![1] : Fin 1 → Fin S1x16.rank)
  bcast_S1x16_S120000x16_0_1 : S1x16.BroadcastsInDim S120000x16 (![0, 1] : Fin 2 → Fin S120000x16.rank)
  dot_S20000x500_S500x256_S20000x256_1_0_0_1_n_n_wf : DotDims.WF S20000x500 S500x256 S20000x256 [1] [0] [0] [1] [] []
  gather_S20000x256_S660000x1_S660000x256_1_0_n_n_0_1_1256_wf : GatherDims.WF S20000x256 S660000x1 S660000x256 [1] [0] [] [0] [] 1 ![1, 256]
  scatter_S20000x256_S660000x1_S660000x256_1_0_0_1_wf : ScatterDims.WF S20000x256 S660000x1 S660000x256 [1] [0] [0] 1
  dot_S20000x256_S256x64_S20000x64_1_0_0_1_n_n_wf : DotDims.WF S20000x256 S256x64 S20000x64 [1] [0] [0] [1] [] []
  gather_S20000x64_S660000x1_S660000x64_1_0_n_n_0_1_164_wf : GatherDims.WF S20000x64 S660000x1 S660000x64 [1] [0] [] [0] [] 1 ![1, 64]
  scatter_S20000x64_S660000x1_S660000x64_1_0_0_1_wf : ScatterDims.WF S20000x64 S660000x1 S660000x64 [1] [0] [0] 1
  dot_S20000x64_S64x1_S20000x1_1_0_0_1_n_n_wf : DotDims.WF S20000x64 S64x1 S20000x1 [1] [0] [0] [1] [] []
  dot_S20000x64_S64x256_S20000x256_1_0_0_1_n_n_wf : DotDims.WF S20000x64 S64x256 S20000x256 [1] [0] [0] [1] [] []
  dot_S20000x256_S256x2048_S20000x2048_1_0_0_1_n_n_wf : DotDims.WF S20000x256 S256x2048 S20000x2048 [1] [0] [0] [1] [] []
  dot_S20000x2048_S2048x2500_S20000x2500_1_0_0_1_n_n_wf : DotDims.WF S20000x2048 S2048x2500 S20000x2500 [1] [0] [0] [1] [] []
  gather_S20000_S100000x1_S100000_n_0_n_n_0_1_1_wf : GatherDims.WF S20000 S100000x1 S100000 [] [0] [] [0] [] 1 ![1]
  scatter_S120000_S960000x1_S960000_n_0_0_1_wf : ScatterDims.WF S120000 S960000x1 S960000 [] [0] [0] 1
  gather_S120000_S960000x1_S960000_n_0_n_n_0_1_1_wf : GatherDims.WF S120000 S960000x1 S960000 [] [0] [] [0] [] 1 ![1]
  dot_S120000x500_S500x256_S120000x256_1_0_0_1_n_n_wf : DotDims.WF S120000x500 S500x256 S120000x256 [1] [0] [0] [1] [] []
  gather_S120000x256_S960000x1_S960000x256_1_0_n_n_0_1_1256_wf : GatherDims.WF S120000x256 S960000x1 S960000x256 [1] [0] [] [0] [] 1 ![1, 256]
  scatter_S120000x256_S960000x1_S960000x256_1_0_0_1_wf : ScatterDims.WF S120000x256 S960000x1 S960000x256 [1] [0] [0] 1
  dot_S120000x256_S256x16_S120000x16_1_0_0_1_n_n_wf : DotDims.WF S120000x256 S256x16 S120000x16 [1] [0] [0] [1] [] []
  gather_S120000x16_S960000x1_S960000x16_1_0_n_n_0_1_116_wf : GatherDims.WF S120000x16 S960000x1 S960000x16 [1] [0] [] [0] [] 1 ![1, 16]
  scatter_S120000x16_S960000x1_S960000x16_1_0_0_1_wf : ScatterDims.WF S120000x16 S960000x1 S960000x16 [1] [0] [0] 1

variable [Facts₀]

def dot_S20000x500_S500x256_S20000x256_1_0_0_1_n_n : DotDims S20000x500 S500x256 S20000x256 where
  lhsContracting := [1]
  rhsContracting := [0]
  lhsNonContracting := [0]
  rhsNonContracting := [1]
  lhsBatch := []
  rhsBatch := []
  wf := dot_S20000x500_S500x256_S20000x256_1_0_0_1_n_n_wf
def gather_S20000x256_S660000x1_S660000x256_1_0_n_n_0_1_1256 : GatherDims S20000x256 S660000x1 S660000x256 where
  offsetDims := [1]
  collapsedSliceDims := [0]
  operandBatchingDims := []
  startIndicesBatchingDims := []
  startIndexMap := [0]
  indexVectorDim := 1
  sliceSizes := ![1, 256]
  wf := gather_S20000x256_S660000x1_S660000x256_1_0_n_n_0_1_1256_wf
def scatter_S20000x256_S660000x1_S660000x256_1_0_0_1 : ScatterDims S20000x256 S660000x1 S660000x256 where
  updateWindowDims := [1]
  insertedWindowDims := [0]
  scatterDimsToOperandDims := [0]
  indexVectorDim := 1
  wf := scatter_S20000x256_S660000x1_S660000x256_1_0_0_1_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf
def gather_S20000x64_S660000x1_S660000x64_1_0_n_n_0_1_164 : GatherDims S20000x64 S660000x1 S660000x64 where
  offsetDims := [1]
  collapsedSliceDims := [0]
  operandBatchingDims := []
  startIndicesBatchingDims := []
  startIndexMap := [0]
  indexVectorDim := 1
  sliceSizes := ![1, 64]
  wf := gather_S20000x64_S660000x1_S660000x64_1_0_n_n_0_1_164_wf
def scatter_S20000x64_S660000x1_S660000x64_1_0_0_1 : ScatterDims S20000x64 S660000x1 S660000x64 where
  updateWindowDims := [1]
  insertedWindowDims := [0]
  scatterDimsToOperandDims := [0]
  indexVectorDim := 1
  wf := scatter_S20000x64_S660000x1_S660000x64_1_0_0_1_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S20000x256_S256x2048_S20000x2048_1_0_0_1_n_n : DotDims S20000x256 S256x2048 S20000x2048 where
  lhsContracting := [1]
  rhsContracting := [0]
  lhsNonContracting := [0]
  rhsNonContracting := [1]
  lhsBatch := []
  rhsBatch := []
  wf := dot_S20000x256_S256x2048_S20000x2048_1_0_0_1_n_n_wf
def dot_S20000x2048_S2048x2500_S20000x2500_1_0_0_1_n_n : DotDims S20000x2048 S2048x2500 S20000x2500 where
  lhsContracting := [1]
  rhsContracting := [0]
  lhsNonContracting := [0]
  rhsNonContracting := [1]
  lhsBatch := []
  rhsBatch := []
  wf := dot_S20000x2048_S2048x2500_S20000x2500_1_0_0_1_n_n_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def scatter_S120000_S960000x1_S960000_n_0_0_1 : ScatterDims S120000 S960000x1 S960000 where
  updateWindowDims := []
  insertedWindowDims := [0]
  scatterDimsToOperandDims := [0]
  indexVectorDim := 1
  wf := scatter_S120000_S960000x1_S960000_n_0_0_1_wf
def gather_S120000_S960000x1_S960000_n_0_n_n_0_1_1 : GatherDims S120000 S960000x1 S960000 where
  offsetDims := []
  collapsedSliceDims := [0]
  operandBatchingDims := []
  startIndicesBatchingDims := []
  startIndexMap := [0]
  indexVectorDim := 1
  sliceSizes := ![1]
  wf := gather_S120000_S960000x1_S960000_n_0_n_n_0_1_1_wf
def dot_S120000x500_S500x256_S120000x256_1_0_0_1_n_n : DotDims S120000x500 S500x256 S120000x256 where
  lhsContracting := [1]
  rhsContracting := [0]
  lhsNonContracting := [0]
  rhsNonContracting := [1]
  lhsBatch := []
  rhsBatch := []
  wf := dot_S120000x500_S500x256_S120000x256_1_0_0_1_n_n_wf
def gather_S120000x256_S960000x1_S960000x256_1_0_n_n_0_1_1256 : GatherDims S120000x256 S960000x1 S960000x256 where
  offsetDims := [1]
  collapsedSliceDims := [0]
  operandBatchingDims := []
  startIndicesBatchingDims := []
  startIndexMap := [0]
  indexVectorDim := 1
  sliceSizes := ![1, 256]
  wf := gather_S120000x256_S960000x1_S960000x256_1_0_n_n_0_1_1256_wf
def scatter_S120000x256_S960000x1_S960000x256_1_0_0_1 : ScatterDims S120000x256 S960000x1 S960000x256 where
  updateWindowDims := [1]
  insertedWindowDims := [0]
  scatterDimsToOperandDims := [0]
  indexVectorDim := 1
  wf := scatter_S120000x256_S960000x1_S960000x256_1_0_0_1_wf
def dot_S120000x256_S256x16_S120000x16_1_0_0_1_n_n : DotDims S120000x256 S256x16 S120000x16 where
  lhsContracting := [1]
  rhsContracting := [0]
  lhsNonContracting := [0]
  rhsNonContracting := [1]
  lhsBatch := []
  rhsBatch := []
  wf := dot_S120000x256_S256x16_S120000x16_1_0_0_1_n_n_wf
def gather_S120000x16_S960000x1_S960000x16_1_0_n_n_0_1_116 : GatherDims S120000x16 S960000x1 S960000x16 where
  offsetDims := [1]
  collapsedSliceDims := [0]
  operandBatchingDims := []
  startIndicesBatchingDims := []
  startIndexMap := [0]
  indexVectorDim := 1
  sliceSizes := ![1, 16]
  wf := gather_S120000x16_S960000x1_S960000x16_1_0_n_n_0_1_116_wf
def scatter_S120000x16_S960000x1_S960000x16_1_0_0_1 : ScatterDims S120000x16 S960000x1 S960000x16 where
  updateWindowDims := [1]
  insertedWindowDims := [0]
  scatterDimsToOperandDims := [0]
  indexVectorDim := 1
  wf := scatter_S120000x16_S960000x1_S960000x16_1_0_0_1_wf

class Facts : Prop extends Facts₀ where

variable [Facts]
-- ==== Proof.K.R0Defs.lean ====
/-
  The first encoder layer's product (rows of the node features times the first encoder weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rx0 : Rect S2000x500 := Rect.unit (s := S2000x500) ![0, 0] S2000x500.size inb_S2000x500_S2000x500_0_0
abbrev rw0 : Rect S500x256 := Rect.unit (s := S500x256) ![0, 0] S500x256.size inb_S500x256_S500x256_0_0
abbrev rb0 : Rect S1x256 := Rect.unit (s := S1x256) ![0, 0] S1x256.size inb_S1x256_S1x256_0_0
abbrev ro0 : Rect S2000x256 := Rect.unit (s := S2000x256) ![0, 0] S2000x256.size inb_S2000x256_S2000x256_0_0

/-- The output window's buffer after the body: its one store, of the product-plus-row value of the three loaded blocks. -/
def out0_3 (x0 : Vec F S2000x500 .f32) (x1 : Vec F S500x256 .bf16) (x2 : Vec F S1x256 .f32) : Vec F S2000x256 .f32 :=
  View.canon [⟨ro0, k0_pay1 (View.ld x0 rx0) (View.ld x1 rw0) (View.ld x2 rb0)⟩]

/-- The one store covers the buffer. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-- The pipeline's data on core `c`: the arrays as found; after the body at point `t` each input buffer still holds its
    block and the output buffer holds the store's value; the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.R1Defs.lean ====
/-
  The second encoder layer's product (rows of the hidden features times the second encoder weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rx1 : Rect S2000x256 := Rect.unit (s := S2000x256) ![0, 0] S2000x256.size inb_S2000x256_S2000x256_0_0
abbrev rw1 : Rect S256x64 := Rect.unit (s := S256x64) ![0, 0] S256x64.size inb_S256x64_S256x64_0_0
abbrev rb1 : Rect S1x64 := Rect.unit (s := S1x64) ![0, 0] S1x64.size inb_S1x64_S1x64_0_0
abbrev ro1 : Rect S2000x64 := Rect.unit (s := S2000x64) ![0, 0] S2000x64.size inb_S2000x64_S2000x64_0_0

/-- The output window's buffer after the body: its one store, of the product-plus-row value of the three loaded blocks. -/
def out1_3 (x0 : Vec F S2000x256 .f32) (x1 : Vec F S256x64 .bf16) (x2 : Vec F S1x64 .f32) : Vec F S2000x64 .f32 :=
  View.canon [⟨ro1, k1_pay1 (View.ld x0 rx1) (View.ld x1 rw1) (View.ld x2 rb1)⟩]

/-- The one store covers the buffer. -/
theorem cover1_3 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

/-- The pipeline's data on core `c`: the arrays as found; after the body at point `t` each input buffer still holds its
    block and the output buffer holds the store's value; the scoped rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.R2Defs.lean ====
/-
  The generator's first layer (rows of the noised latent code times its weight, plus the bias row, clamped below at zero), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rx2 : Rect S2000x64 := Rect.unit (s := S2000x64) ![0, 0] S2000x64.size inb_S2000x64_S2000x64_0_0
abbrev rw2 : Rect S64x256 := Rect.unit (s := S64x256) ![0, 0] S64x256.size inb_S64x256_S64x256_0_0
abbrev rb2 : Rect S1x256 := Rect.unit (s := S1x256) ![0, 0] S1x256.size inb_S1x256_S1x256_0_0
abbrev ro2 : Rect S2000x256 := Rect.unit (s := S2000x256) ![0, 0] S2000x256.size inb_S2000x256_S2000x256_0_0

/-- The output window's buffer after the body: its one store, of the product-plus-row value of the three loaded blocks. -/
def out2_3 (x0 : Vec F S2000x64 .f32) (x1 : Vec F S64x256 .bf16) (x2 : Vec F S1x256 .f32) : Vec F S2000x256 .bf16 :=
  View.canon [⟨ro2, k2_pay1 (View.ld x0 rx2) (View.ld x1 rw2) (View.ld x2 rb2)⟩]

/-- The one store covers the buffer. -/
theorem cover2_3 (p0 : Vec F S2000x256 .bf16) (y : S2000x256.Idx) :
    ∃ pc ∈ ([⟨ro2, p0⟩] : List (View.Piece (Elt F) S2000x256 .bf16)), y ∈ pc.1.set :=
  View.cover_of_tiled [⟨ro2, p0⟩] S2000x256.size (by rfl) y

/-- The pipeline's data on core `c`: the arrays as found; after the body at point `t` each input buffer still holds its
    block and the output buffer holds the store's value; the scoped rest untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.R3Defs.lean ====
/-
  The generator's second layer (rows of the first layer's output times its weight, plus the bias row, clamped below at zero), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev rx3 : Rect S2000x256 := Rect.unit (s := S2000x256) ![0, 0] S2000x256.size inb_S2000x256_S2000x256_0_0
abbrev rw3 : Rect S256x2048 := Rect.unit (s := S256x2048) ![0, 0] S256x2048.size inb_S256x2048_S256x2048_0_0
abbrev rb3 : Rect S1x2048 := Rect.unit (s := S1x2048) ![0, 0] S1x2048.size inb_S1x2048_S1x2048_0_0
abbrev ro3 : Rect S2000x2048 := Rect.unit (s := S2000x2048) ![0, 0] S2000x2048.size inb_S2000x2048_S2000x2048_0_0

/-- The output window's buffer after the body: its one store, of the product-plus-row value of the three loaded blocks. -/
def out3_3 (x0 : Vec F S2000x256 .bf16) (x1 : Vec F S256x2048 .bf16) (x2 : Vec F S1x2048 .f32) : Vec F S2000x2048 .bf16 :=
  View.canon [⟨ro3, k3_pay1 (View.ld x0 rx3) (View.ld x1 rw3) (View.ld x2 rb3)⟩]

/-- The one store covers the buffer. -/
theorem cover3_3 (p0 : Vec F S2000x2048 .bf16) (y : S2000x2048.Idx) :
    ∃ pc ∈ ([⟨ro3, p0⟩] : List (View.Piece (Elt F) S2000x2048 .bf16)), y ∈ pc.1.set :=
  View.cover_of_tiled [⟨ro3, p0⟩] S2000x2048.size (by rfl) y

/-- The pipeline's data on core `c`: the arrays as found; after the body at point `t` each input buffer still holds its
    block and the output buffer holds the store's value; the scoped rest untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.Kernel.Hand

end
-- ==== Proof.K.R4Defs.lean ====
/-
  The generator's last layer (rows of the second layer's output times its weight, plus the bias row, through tanh), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev rx4 : Rect S400x2048 := Rect.unit (s := S400x2048) ![0, 0] S400x2048.size inb_S400x2048_S400x2048_0_0
abbrev rw4 : Rect S2048x2500 := Rect.unit (s := S2048x2500) ![0, 0] S2048x2500.size inb_S2048x2500_S2048x2500_0_0
abbrev rb4 : Rect S1x2500 := Rect.unit (s := S1x2500) ![0, 0] S1x2500.size inb_S1x2500_S1x2500_0_0
abbrev ro4 : Rect S400x2500 := Rect.unit (s := S400x2500) ![0, 0] S400x2500.size inb_S400x2500_S400x2500_0_0

/-- The output window's buffer after the body: its one store, of the product-plus-row value of the three loaded blocks. -/
def out4_3 (x0 : Vec F S400x2048 .bf16) (x1 : Vec F S2048x2500 .bf16) (x2 : Vec F S1x2500 .f32) : Vec F S400x2500 .f32 :=
  View.canon [⟨ro4, k4_pay1 (View.ld x0 rx4) (View.ld x1 rw4) (View.ld x2 rb4)⟩]

/-- The one store covers the buffer. -/
theorem cover4_3 (p0 : Vec F S400x2500 .f32) (y : S400x2500.Idx) :
    ∃ pc ∈ ([⟨ro4, p0⟩] : List (View.Piece (Elt F) S400x2500 .f32)), y ∈ pc.1.set :=
  View.cover_of_tiled [⟨ro4, p0⟩] S400x2500.size (by rfl) y

/-- The pipeline's data on core `c`: the arrays as found; after the body at point `t` each input buffer still holds its
    block and the output buffer holds the store's value; the scoped rest untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

end Cert.Kernel.Hand

end
-- ==== Proof.K.R5Defs.lean ====
/-
  The first classifier layer's product (rows of the mended feature matrix times its weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev rx5 : Rect S2000x500 := Rect.unit (s := S2000x500) ![0, 0] S2000x500.size inb_S2000x500_S2000x500_0_0
abbrev rw5 : Rect S500x256 := Rect.unit (s := S500x256) ![0, 0] S500x256.size inb_S500x256_S500x256_0_0
abbrev rb5 : Rect S1x256 := Rect.unit (s := S1x256) ![0, 0] S1x256.size inb_S1x256_S1x256_0_0
abbrev ro5 : Rect S2000x256 := Rect.unit (s := S2000x256) ![0, 0] S2000x256.size inb_S2000x256_S2000x256_0_0

/-- The output window's buffer after the body: its one store, of the product-plus-row value of the three loaded blocks. -/
def out5_3 (x0 : Vec F S2000x500 .f32) (x1 : Vec F S500x256 .bf16) (x2 : Vec F S1x256 .f32) : Vec F S2000x256 .f32 :=
  View.canon [⟨ro5, k5_pay1 (View.ld x0 rx5) (View.ld x1 rw5) (View.ld x2 rb5)⟩]

/-- The one store covers the buffer. -/
theorem cover5_3 (p0 : Vec F S2000x256 .f32) (y : S2000x256.Idx) :
    ∃ pc ∈ ([⟨ro5, p0⟩] : List (View.Piece (Elt F) S2000x256 .f32)), y ∈ pc.1.set :=
  View.cover_of_tiled [⟨ro5, p0⟩] S2000x256.size (by rfl) y

/-- The pipeline's data on core `c`: the arrays as found; after the body at point `t` each input buffer still holds its
    block and the output buffer holds the store's value; the scoped rest untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.Kernel.Hand

end
-- ==== Proof.K.R6Defs.lean ====
/-
  The second classifier layer's product (rows of the classifier's hidden features times its weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole-buffer rectangles the body loads and stores through. -/
abbrev rx6 : Rect S2000x256 := Rect.unit (s := S2000x256) ![0, 0] S2000x256.size inb_S2000x256_S2000x256_0_0
abbrev rw6 : Rect S256x16 := Rect.unit (s := S256x16) ![0, 0] S256x16.size inb_S256x16_S256x16_0_0
abbrev rb6 : Rect S1x16 := Rect.unit (s := S1x16) ![0, 0] S1x16.size inb_S1x16_S1x16_0_0
abbrev ro6 : Rect S2000x16 := Rect.unit (s := S2000x16) ![0, 0] S2000x16.size inb_S2000x16_S2000x16_0_0

/-- The output window's buffer after the body: its one store, of the product-plus-row value of the three loaded blocks. -/
def out6_3 (x0 : Vec F S2000x256 .f32) (x1 : Vec F S256x16 .bf16) (x2 : Vec F S1x16 .f32) : Vec F S2000x16 .f32 :=
  View.canon [⟨ro6, k6_pay1 (View.ld x0 rx6) (View.ld x1 rw6) (View.ld x2 rb6)⟩]

/-- The one store covers the buffer. -/
theorem cover6_3 (p0 : Vec F S2000x16 .f32) (y : S2000x16.Idx) :
    ∃ pc ∈ ([⟨ro6, p0⟩] : List (View.Piece (Elt F) S2000x16 .f32)), y ∈ pc.1.set :=
  View.cover_of_tiled [⟨ro6, p0⟩] S2000x16.size (by rfl) y

/-- The pipeline's data on core `c`: the arrays as found; after the body at point `t` each input buffer still holds its
    block and the output buffer holds the store's value; the scoped rest untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

end Cert.Kernel.Hand

end
-- ==== Proof.K.Fold.lean ====
/-
  The contents of the TensorCore's buffers at each boundary between two items of the kernel program's main function, as a
  fold from the launch memory: a stretch of host operations applies them; a dense layer's launch leaves its input arrays
  as they were and its output array at what the write-backs of all grid points leave; nothing else changes.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.Gen.Kernel.Regions
import proofs.«123903_j63771674411482_1_alg».proof.Proof.K.R0Defs
import proofs.«123903_j63771674411482_1_alg».proof.Proof.K.R1Defs
import proofs.«123903_j63771674411482_1_alg».proof.Proof.K.R2Defs
import proofs.«123903_j63771674411482_1_alg».proof.Proof.K.R3Defs
import proofs.«123903_j63771674411482_1_alg».proof.Proof.K.R4Defs
import proofs.«123903_j63771674411482_1_alg».proof.Proof.K.R5Defs
import proofs.«123903_j63771674411482_1_alg».proof.Proof.K.R6Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After launch 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input array of launch 0 is left as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- After the stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the stretch `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- After launch 1: its arrays at what the pipeline leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- An input array of launch 1 is left as entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (V4 m) c).arrAt_in w hw _).trans (A_eq1 (V4 m) c w))
/-- After the stretch `hostOps2`. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b
/-- After the stretch `hostOps2_1`. -/
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b
/-- After the stretch `hostOps2_2`. -/
abbrev W8 : Dev nD → Valuation τ sig (Elt F) := fun c => StableHlo.after hostOps2_2 (W7 m c)
abbrev V8 : (c : Dev nD) → (b : Ref sig .tc) → Buf (Elt F) ((c : Thread nD τ).loc b) := fun c b => W8 m c b
/-- After the stretch `hostOps2_3`. -/
abbrev W9 : Dev nD → Valuation τ sig (Elt F) := fun c => StableHlo.after hostOps2_3 (W8 m c)
abbrev V9 : (c : Dev nD) → (b : Ref sig .tc) → Buf (Elt F) ((c : Thread nD τ).loc b) := fun c b => W9 m c b
/-- After the stretch `hostOps2_4`. -/
abbrev W10 : Dev nD → Valuation τ sig (Elt F) := fun c => StableHlo.after hostOps2_4 (W9 m c)
abbrev V10 : (c : Dev nD) → (b : Ref sig .tc) → Buf (Elt F) ((c : Thread nD τ).loc b) := fun c b => W10 m c b
/-- After launch 2: its arrays at what the pipeline leaves, every other buffer as entered. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
abbrev V11 : (c : Dev nD) → (b : Ref sig .tc) → Buf (Elt F) ((c : Thread nD τ).loc b) := fun c b => W11 m c b
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)
/-- An input array of launch 2 is left as entered. -/
theorem W11_in (c : Dev nD) (w : Fin cfg2.W) (hw : (cfg2.win w).isOut = false) :
    W11 m c (Proc.devRef .tc (Pipeline.arrRef spec2 w)) = W10 m c (Proc.devRef .tc (Pipeline.arrRef spec2 w)) :=
  (W11_arr m c w).trans (((dat2 (V10 m) c).arrAt_in w hw _).trans (A_eq2 (V10 m) c w))
/-- After launch 3: its arrays at what the pipeline leaves, every other buffer as entered. -/
def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)
/-- An input array of launch 3 is left as entered. -/
theorem W12_in (c : Dev nD) (w : Fin cfg3.W) (hw : (cfg3.win w).isOut = false) :
    W12 m c (Proc.devRef .tc (Pipeline.arrRef spec3 w)) = W11 m c (Proc.devRef .tc (Pipeline.arrRef spec3 w)) :=
  (W12_arr m c w).trans (((dat3 (V11 m) c).arrAt_in w hw _).trans (A_eq3 (V11 m) c w))
/-- After launch 4: its arrays at what the pipeline leaves, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- An input array of launch 4 is left as entered. -/
theorem W13_in (c : Dev nD) (w : Fin cfg4.W) (hw : (cfg4.win w).isOut = false) :
    W13 m c (Proc.devRef .tc (Pipeline.arrRef spec4 w)) = W12 m c (Proc.devRef .tc (Pipeline.arrRef spec4 w)) :=
  (W13_arr m c w).trans (((dat4 (V12 m) c).arrAt_in w hw _).trans (A_eq4 (V12 m) c w))
/-- After the stretch `hostOps5`. -/
abbrev W14 : Dev nD → Valuation τ sig (Elt F) := fun c => StableHlo.after hostOps5 (W13 m c)
abbrev V14 : (c : Dev nD) → (b : Ref sig .tc) → Buf (Elt F) ((c : Thread nD τ).loc b) := fun c b => W14 m c b
/-- After the stretch `hostOps5_1`. -/
abbrev W15 : Dev nD → Valuation τ sig (Elt F) := fun c => StableHlo.after hostOps5_1 (W14 m c)
abbrev V15 : (c : Dev nD) → (b : Ref sig .tc) → Buf (Elt F) ((c : Thread nD τ).loc b) := fun c b => W15 m c b
/-- After the stretch `hostOps5_2`. -/
abbrev W16 : Dev nD → Valuation τ sig (Elt F) := fun c => StableHlo.after hostOps5_2 (W15 m c)
abbrev V16 : (c : Dev nD) → (b : Ref sig .tc) → Buf (Elt F) ((c : Thread nD τ).loc b) := fun c b => W16 m c b
/-- After the stretch `hostOps5_3`. -/
abbrev W17 : Dev nD → Valuation τ sig (Elt F) := fun c => StableHlo.after hostOps5_3 (W16 m c)
abbrev V17 : (c : Dev nD) → (b : Ref sig .tc) → Buf (Elt F) ((c : Thread nD τ).loc b) := fun c b => W17 m c b
/-- After the stretch `hostOps5_4`. -/
abbrev W18 : Dev nD → Valuation τ sig (Elt F) := fun c => StableHlo.after hostOps5_4 (W17 m c)
abbrev V18 : (c : Dev nD) → (b : Ref sig .tc) → Buf (Elt F) ((c : Thread nD τ).loc b) := fun c b => W18 m c b
/-- After launch 5: its arrays at what the pipeline leaves, every other buffer as entered. -/
def W19 (c : Dev nD) : Valuation τ sig (Elt F) :=
  Pipeline.withArrays spec5 c (W18 m c) fun w => (dat5 (V18 m) c).arrAt w cfg5.N
theorem W19_arr (c : Dev nD) (w : Fin cfg5.W) :
    W19 m c (Proc.devRef .tc (Pipeline.arrRef spec5 w)) = (dat5 (V18 m) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m c (Proc.devRef .tc b) = W18 m c (Proc.devRef .tc b) := by
  unfold W19; exact Pipeline.withArrays_of_ne spec5 c _ _ b hb
abbrev V19 : (c : Dev nD) → (b : Ref sig .tc) → Buf (Elt F) ((c : Thread nD τ).loc b) := fun c b => W19 m c b
theorem hF5 (c : Dev nD) (w : Fin cfg5.W) : (dat5 (V18 m) c).arrAt w cfg5.N = V19 m c (Pipeline.arrRef spec5 w) :=
  (W19_arr m c w).symm
theorem hrest5 (c : Dev nD) : ∀ b, b ∉ Finset.univ.image (Pipeline.arrRef spec5) → V19 m c b = V18 m c b :=
  fun b hb => W19_of_ne m c b fun w e => hb (Finset.mem_image.mpr ⟨w, Finset.mem_univ _, e⟩)
/-- An input array of launch 5 is left as entered. -/
theorem W19_in (c : Dev nD) (w : Fin cfg5.W) (hw : (cfg5.win w).isOut = false) :
    W19 m c (Proc.devRef .tc (Pipeline.arrRef spec5 w)) = W18 m c (Proc.devRef .tc (Pipeline.arrRef spec5 w)) :=
  (W19_arr m c w).trans (((dat5 (V18 m) c).arrAt_in w hw _).trans (A_eq5 (V18 m) c w))
/-- After the stretch `hostOps6`. -/
abbrev W20 : Dev nD → Valuation τ sig (Elt F) := fun c => StableHlo.after hostOps6 (W19 m c)
abbrev V20 : (c : Dev nD) → (b : Ref sig .tc) → Buf (Elt F) ((c : Thread nD τ).loc b) := fun c b => W20 m c b
/-- After the stretch `hostOps6_1`. -/
abbrev W21 : Dev nD → Valuation τ sig (Elt F) := fun c => StableHlo.after hostOps6_1 (W20 m c)
abbrev V21 : (c : Dev nD) → (b : Ref sig .tc) → Buf (Elt F) ((c : Thread nD τ).loc b) := fun c b => W21 m c b
/-- After launch 6: its arrays at what the pipeline leaves, every other buffer as entered. -/
def W22 (c : Dev nD) : Valuation τ sig (Elt F) :=
  Pipeline.withArrays spec6 c (W21 m c) fun w => (dat6 (V21 m) c).arrAt w cfg6.N
theorem W22_arr (c : Dev nD) (w : Fin cfg6.W) :
    W22 m c (Proc.devRef .tc (Pipeline.arrRef spec6 w)) = (dat6 (V21 m) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m c (Proc.devRef .tc b) = W21 m c (Proc.devRef .tc b) := by
  unfold W22; exact Pipeline.withArrays_of_ne spec6 c _ _ b hb
abbrev V22 : (c : Dev nD) → (b : Ref sig .tc) → Buf (Elt F) ((c : Thread nD τ).loc b) := fun c b => W22 m c b
theorem hF6 (c : Dev nD) (w : Fin cfg6.W) : (dat6 (V21 m) c).arrAt w cfg6.N = V22 m c (Pipeline.arrRef spec6 w) :=
  (W22_arr m c w).symm
theorem hrest6 (c : Dev nD) : ∀ b, b ∉ Finset.univ.image (Pipeline.arrRef spec6) → V22 m c b = V21 m c b :=
  fun b hb => W22_of_ne m c b fun w e => hb (Finset.mem_image.mpr ⟨w, Finset.mem_univ _, e⟩)
/-- An input array of launch 6 is left as entered. -/
theorem W22_in (c : Dev nD) (w : Fin cfg6.W) (hw : (cfg6.win w).isOut = false) :
    W22 m c (Proc.devRef .tc (Pipeline.arrRef spec6 w)) = W21 m c (Proc.devRef .tc (Pipeline.arrRef spec6 w)) :=
  (W22_arr m c w).trans (((dat6 (V21 m) c).arrAt_in w hw _).trans (A_eq6 (V21 m) c w))
/-- After the stretch `hostOps7`. -/
abbrev W23 : Dev nD → Valuation τ sig (Elt F) := fun c => StableHlo.after hostOps7 (W22 m c)
abbrev V23 : (c : Dev nD) → (b : Ref sig .tc) → Buf (Elt F) ((c : Thread nD τ).loc b) := fun c b => W23 m c b
/-- After the stretch `hostOps7_1`. -/
abbrev W24 : Dev nD → Valuation τ sig (Elt F) := fun c => StableHlo.after hostOps7_1 (W23 m c)
abbrev V24 : (c : Dev nD) → (b : Ref sig .tc) → Buf (Elt F) ((c : Thread nD τ).loc b) := fun c b => W24 m c b

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v10) : W2 m c r = W1 m c r := by
  by_cases hw : ∃ w, Pipeline.arrRef spec0 w = r
  · obtain ⟨w, rfl⟩ := hw
    match w with
    | ⟨0, _⟩ => exact W2_in m c 0 rfl
    | ⟨1, _⟩ => exact W2_in m c 1 rfl
    | ⟨2, _⟩ => exact W2_in m c 2 rfl
    | ⟨3, _⟩ => exact absurd rfl h
  · exact W2_of_ne m c r fun w e => hw ⟨w, e⟩
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ≠ main_v28) : W5 m c r = W4 m c r := by
  by_cases hw : ∃ w, Pipeline.arrRef spec1 w = r
  · obtain ⟨w, rfl⟩ := hw
    match w with
    | ⟨0, _⟩ => exact W5_in m c 0 rfl
    | ⟨1, _⟩ => exact W5_in m c 1 rfl
    | ⟨2, _⟩ => exact W5_in m c 2 rfl
    | ⟨3, _⟩ => exact absurd rfl h
  · exact W5_of_ne m c r fun w e => hw ⟨w, e⟩
theorem W6_of (c : Dev nD) (r : Ref sig .tc) (h : r ∉ hostOps2_W) : W6 m c r = W5 m c r :=
  StableHlo.after_of_writes_sub hostOps2 _ hostOps2_writes h
theorem W7_of (c : Dev nD) (r : Ref sig .tc) (h : r ∉ hostOps2_1_W) : W7 m c r = W6 m c r :=
  StableHlo.after_of_writes_sub hostOps2_1 _ hostOps2_1_writes h
theorem W8_of (c : Dev nD) (r : Ref sig .tc) (h : r ∉ hostOps2_2_W) : W8 m c r = W7 m c r :=
  StableHlo.after_of_writes_sub hostOps2_2 _ hostOps2_2_writes h
theorem W9_of (c : Dev nD) (r : Ref sig .tc) (h : r ∉ hostOps2_3_W) : W9 m c r = W8 m c r :=
  StableHlo.after_of_writes_sub hostOps2_3 _ hostOps2_3_writes h
theorem W10_of (c : Dev nD) (r : Ref sig .tc) (h : r ∉ hostOps2_4_W) : W10 m c r = W9 m c r :=
  StableHlo.after_of_writes_sub hostOps2_4 _ hostOps2_4_writes h
theorem W11_of (c : Dev nD) (r : Ref sig .tc) (h : r ≠ main_v55) : W11 m c r = W10 m c r := by
  by_cases hw : ∃ w, Pipeline.arrRef spec2 w = r
  · obtain ⟨w, rfl⟩ := hw
    match w with
    | ⟨0, _⟩ => exact W11_in m c 0 rfl
    | ⟨1, _⟩ => exact W11_in m c 1 rfl
    | ⟨2, _⟩ => exact W11_in m c 2 rfl
    | ⟨3, _⟩ => exact absurd rfl h
  · exact W11_of_ne m c r fun w e => hw ⟨w, e⟩
theorem W12_of (c : Dev nD) (r : Ref sig .tc) (h : r ≠ main_v56) : W12 m c r = W11 m c r := by
  by_cases hw : ∃ w, Pipeline.arrRef spec3 w = r
  · obtain ⟨w, rfl⟩ := hw
    match w with
    | ⟨0, _⟩ => exact W12_in m c 0 rfl
    | ⟨1, _⟩ => exact W12_in m c 1 rfl
    | ⟨2, _⟩ => exact W12_in m c 2 rfl
    | ⟨3, _⟩ => exact absurd rfl h
  · exact W12_of_ne m c r fun w e => hw ⟨w, e⟩
theorem W13_of (c : Dev nD) (r : Ref sig .tc) (h : r ≠ main_v57) : W13 m c r = W12 m c r := by
  by_cases hw : ∃ w, Pipeline.arrRef spec4 w = r
  · obtain ⟨w, rfl⟩ := hw
    match w with
    | ⟨0, _⟩ => exact W13_in m c 0 rfl
    | ⟨1, _⟩ => exact W13_in m c 1 rfl
    | ⟨2, _⟩ => exact W13_in m c 2 rfl
    | ⟨3, _⟩ => exact absurd rfl h
  · exact W13_of_ne m c r fun w e => hw ⟨w, e⟩
theorem W14_of (c : Dev nD) (r : Ref sig .tc) (h : r ∉ hostOps5_W) : W14 m c r = W13 m c r :=
  StableHlo.after_of_writes_sub hostOps5 _ hostOps5_writes h
theorem W15_of (c : Dev nD) (r : Ref sig .tc) (h : r ∉ hostOps5_1_W) : W15 m c r = W14 m c r :=
  StableHlo.after_of_writes_sub hostOps5_1 _ hostOps5_1_writes h
theorem W16_of (c : Dev nD) (r : Ref sig .tc) (h : r ∉ hostOps5_2_W) : W16 m c r = W15 m c r :=
  StableHlo.after_of_writes_sub hostOps5_2 _ hostOps5_2_writes h
theorem W17_of (c : Dev nD) (r : Ref sig .tc) (h : r ∉ hostOps5_3_W) : W17 m c r = W16 m c r :=
  StableHlo.after_of_writes_sub hostOps5_3 _ hostOps5_3_writes h
theorem W18_of (c : Dev nD) (r : Ref sig .tc) (h : r ∉ hostOps5_4_W) : W18 m c r = W17 m c r :=
  StableHlo.after_of_writes_sub hostOps5_4 _ hostOps5_4_writes h
theorem W19_of (c : Dev nD) (r : Ref sig .tc) (h : r ≠ main_v116) : W19 m c r = W18 m c r := by
  by_cases hw : ∃ w, Pipeline.arrRef spec5 w = r
  · obtain ⟨w, rfl⟩ := hw
    match w with
    | ⟨0, _⟩ => exact W19_in m c 0 rfl
    | ⟨1, _⟩ => exact W19_in m c 1 rfl
    | ⟨2, _⟩ => exact W19_in m c 2 rfl
    | ⟨3, _⟩ => exact absurd rfl h
  · exact W19_of_ne m c r fun w e => hw ⟨w, e⟩
theorem W20_of (c : Dev nD) (r : Ref sig .tc) (h : r ∉ hostOps6_W) : W20 m c r = W19 m c r :=
  StableHlo.after_of_writes_sub hostOps6 _ hostOps6_writes h
theorem W21_of (c : Dev nD) (r : Ref sig .tc) (h : r ∉ hostOps6_1_W) : W21 m c r = W20 m c r :=
  StableHlo.after_of_writes_sub hostOps6_1 _ hostOps6_1_writes h
theorem W22_of (c : Dev nD) (r : Ref sig .tc) (h : r ≠ main_v134) : W22 m c r = W21 m c r := by
  by_cases hw : ∃ w, Pipeline.arrRef spec6 w = r
  · obtain ⟨w, rfl⟩ := hw
    match w with
    | ⟨0, _⟩ => exact W22_in m c 0 rfl
    | ⟨1, _⟩ => exact W22_in m c 1 rfl
    | ⟨2, _⟩ => exact W22_in m c 2 rfl
    | ⟨3, _⟩ => exact absurd rfl h
  · exact W22_of_ne m c r fun w e => hw ⟨w, e⟩
theorem W23_of (c : Dev nD) (r : Ref sig .tc) (h : r ∉ hostOps7_W) : W23 m c r = W22 m c r :=
  StableHlo.after_of_writes_sub hostOps7 _ hostOps7_writes h
theorem W24_of (c : Dev nD) (r : Ref sig .tc) (h : r ∉ hostOps7_1_W) : W24 m c r = W23 m c r :=
  StableHlo.after_of_writes_sub hostOps7_1 _ hostOps7_1_writes h

end Cert.Kernel.Hand

end
-- ==== Proof.K.R0Body.lean ====
/-
  The body of the first encoder layer's product (rows of the node features times the first encoder weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

set_option maxHeartbeats 1000000 in
/-- The body on whole staging buffers. -/
theorem sound_kernel0 (c : Dev nD) (E : Set ℕ) (i : grid0.Coords)
    (arg1 : Memref sig .tc .vmem S2000x500 .f32) (harg1 : arg1.IsWhole) (arg2 : Memref sig .tc .vmem S500x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x500 .f32) (x1 : Vec F S500x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the run above applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
/-
  The body of the second encoder layer's product (rows of the hidden features times the second encoder weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

set_option maxHeartbeats 1000000 in
/-- The body on whole staging buffers. -/
theorem sound_kernel1 (c : Dev nD) (E : Set ℕ) (i : grid1.Coords)
    (arg1 : Memref sig .tc .vmem S2000x256 .f32) (harg1 : arg1.IsWhole) (arg2 : Memref sig .tc .vmem S256x64 .bf16) (harg2 : arg2.IsWhole)
    (arg3 : Memref sig .tc .vmem S1x64 .f32) (harg3 : arg3.IsWhole) (arg4 : Memref sig .tc .vmem S2000x64 .f32) (harg4 : arg4.IsWhole)
    (x0 : Vec F S2000x256 .f32) (x1 : Vec F S256x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the run above applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Body.lean ====
/-
  The body of the generator's first layer (rows of the noised latent code times its weight, plus the bias row, clamped below at zero) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

set_option maxHeartbeats 1000000 in
/-- The body on whole staging buffers. -/
theorem sound_kernel2 (c : Dev nD) (E : Set ℕ) (i : grid2.Coords)
    (arg1 : Memref sig .tc .vmem S2000x64 .f32) (harg1 : arg1.IsWhole) (arg2 : Memref sig .tc .vmem S64x256 .bf16) (harg2 : arg2.IsWhole)
    (arg3 : Memref sig .tc .vmem S1x256 .f32) (harg3 : arg3.IsWhole) (arg4 : Memref sig .tc .vmem S2000x256 .bf16) (harg4 : arg4.IsWhole)
    (x0 : Vec F S2000x64 .f32) (x1 : Vec F S64x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the run above applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Body.lean ====
/-
  The body of the generator's second layer (rows of the first layer's output times its weight, plus the bias row, clamped below at zero) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

set_option maxHeartbeats 1000000 in
/-- The body on whole staging buffers. -/
theorem sound_kernel3 (c : Dev nD) (E : Set ℕ) (i : grid3.Coords)
    (arg1 : Memref sig .tc .vmem S2000x256 .bf16) (harg1 : arg1.IsWhole) (arg2 : Memref sig .tc .vmem S256x2048 .bf16) (harg2 : arg2.IsWhole)
    (arg3 : Memref sig .tc .vmem S1x2048 .f32) (harg3 : arg3.IsWhole) (arg4 : Memref sig .tc .vmem S2000x2048 .bf16) (harg4 : arg4.IsWhole)
    (x0 : Vec F S2000x256 .bf16) (x1 : Vec F S256x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the run above applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Body.lean ====
/-
  The body of the generator's last layer (rows of the second layer's output times its weight, plus the bias row, through tanh) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

set_option maxHeartbeats 1000000 in
/-- The body on whole staging buffers. -/
theorem sound_kernel4 (c : Dev nD) (E : Set ℕ) (i : grid4.Coords)
    (arg1 : Memref sig .tc .vmem S400x2048 .bf16) (harg1 : arg1.IsWhole) (arg2 : Memref sig .tc .vmem S2048x2500 .bf16) (harg2 : arg2.IsWhole)
    (arg3 : Memref sig .tc .vmem S1x2500 .f32) (harg3 : arg3.IsWhole) (arg4 : Memref sig .tc .vmem S400x2500 .f32) (harg4 : arg4.IsWhole)
    (x0 : Vec F S400x2048 .bf16) (x1 : Vec F S2048x2500 .bf16) (x2 : Vec F S1x2500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the run above applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5Body.lean ====
/-
  The body of the first classifier layer's product (rows of the mended feature matrix times its weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

set_option maxHeartbeats 1000000 in
/-- The body on whole staging buffers. -/
theorem sound_kernel5 (c : Dev nD) (E : Set ℕ) (i : grid5.Coords)
    (arg1 : Memref sig .tc .vmem S2000x500 .f32) (harg1 : arg1.IsWhole) (arg2 : Memref sig .tc .vmem S500x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x500 .f32) (x1 : Vec F S500x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so the run above applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6Body.lean ====
/-
  The body of the second classifier layer's product (rows of the classifier's hidden features times its weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.R6Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

set_option maxHeartbeats 1000000 in
/-- The body on whole staging buffers. -/
theorem sound_kernel6 (c : Dev nD) (E : Set ℕ) (i : grid6.Coords)
    (arg1 : Memref sig .tc .vmem S2000x256 .f32) (harg1 : arg1.IsWhole) (arg2 : Memref sig .tc .vmem S256x16 .bf16) (harg2 : arg2.IsWhole)
    (arg3 : Memref sig .tc .vmem S1x16 .f32) (harg3 : arg3.IsWhole) (arg4 : Memref sig .tc .vmem S2000x16 .f32) (harg4 : arg4.IsWhole)
    (x0 : Vec F S2000x256 .f32) (x1 : Vec F S256x16 .bf16) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so the run above applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
/-
  The kernel program's main function as a run: host stretches and the seven dense layers' launches in order, each entered
  from the buffer contents the fold names and left at the next; every weakly fair execution from a memory with zero
  counters terminates without a fault, and every unscoped buffer ends at the fold's last contents.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.Fold
import proofs.«123903_j63771674411482_1_alg».proof.Proof.K.R0Body
import proofs.«123903_j63771674411482_1_alg».proof.Proof.K.R1Body
import proofs.«123903_j63771674411482_1_alg».proof.Proof.K.R2Body
import proofs.«123903_j63771674411482_1_alg».proof.Proof.K.R3Body
import proofs.«123903_j63771674411482_1_alg».proof.Proof.K.R4Body
import proofs.«123903_j63771674411482_1_alg».proof.Proof.K.R5Body
import proofs.«123903_j63771674411482_1_alg».proof.Proof.K.R6Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every launch's data, each at the contents its launch is entered from. -/
def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V10 m) c
  | ⟨3, _⟩ => fun c => dat3 (V11 m) c
  | ⟨4, _⟩ => fun c => dat4 (V12 m) c
  | ⟨5, _⟩ => fun c => dat5 (V18 m) c
  | ⟨6, _⟩ => fun c => dat6 (V21 m) c

/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W24 m c) ∗ ∃ r, prngReg c r)

set_option backward.isDefEq.respectTransparency.types false in
/-- Launch 0: entered from every unscoped buffer at `W1`, left at `W2`. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W4`, left at `W5`. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ Lz lvz 1 fun _ _ => rfl
  pre c := iprop(StableHlo.held (c : Thread nD τ) (Pipeline.ucRefs τ sig) (W4 m c) ∗ Rd c)
  post c := iprop(StableHlo.held (c : Thread nD τ) (Pipeline.ucRefs τ sig) (W5 m c) ∗ Rd c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W10`, left at `W11`. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ Lz lvz 2 fun _ _ => rfl
  pre c := iprop(StableHlo.held (c : Thread nD τ) (Pipeline.ucRefs τ sig) (W10 m c) ∗ Rd c)
  post c := iprop(StableHlo.held (c : Thread nD τ) (Pipeline.ucRefs τ sig) (W11 m c) ∗ Rd c)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W11`, left at `W12`. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (V11 m) c).loose
  hwaits := Pipeline.hwaits_of_owed_zero _ _ _ _ Lz lvz 3 fun _ _ => rfl
  pre c := iprop(StableHlo.held (c : Thread nD τ) (Pipeline.ucRefs τ sig) (W11 m c) ∗ Rd c)
  post c := iprop(StableHlo.held (c : Thread nD τ) (Pipeline.ucRefs τ sig) (W12 m c) ∗ Rd c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V11 m c) (V12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W12`, left at `W13`. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ Lz lvz 4 fun _ _ => rfl
  pre c := iprop(StableHlo.held (c : Thread nD τ) (Pipeline.ucRefs τ sig) (W12 m c) ∗ Rd c)
  post c := iprop(StableHlo.held (c : Thread nD τ) (Pipeline.ucRefs τ sig) (W13 m c) ∗ Rd c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `W18`, left at `W19`. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (V18 m) c).loose
  hwaits := Pipeline.hwaits_of_owed_zero _ _ _ _ Lz lvz 5 fun _ _ => rfl
  pre c := iprop(StableHlo.held (c : Thread nD τ) (Pipeline.ucRefs τ sig) (W18 m c) ∗ Rd c)
  post c := iprop(StableHlo.held (c : Thread nD τ) (Pipeline.ucRefs τ sig) (W19 m c) ∗ Rd c)
  X c := iprop(∃ r, prngReg c r)
  Y c := iprop(∃ r, prngReg c r)
  Z c := Pipeline.unscopedRest (Ix := Unit) (Name := ℕ) (U := UR sig nD τ) (Lvl := ℕ) spec5 c (V18 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V18 m c) (V19 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: entered from every unscoped buffer at `W21`, left at `W22`. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (V21 m) c).loose
  hwaits := Pipeline.hwaits_of_owed_zero _ _ _ _ Lz lvz 6 fun _ _ => rfl
  pre c := iprop(StableHlo.held (c : Thread nD τ) (Pipeline.ucRefs τ sig) (W21 m c) ∗ Rd c)
  post c := iprop(StableHlo.held (c : Thread nD τ) (Pipeline.ucRefs τ sig) (W22 m c) ∗ Rd c)
  X c := iprop(∃ r, prngReg c r)
  Y c := iprop(∃ r, prngReg c r)
  Z c := Pipeline.unscopedRest (Ix := Unit) (Name := ℕ) (U := UR sig nD τ) (Lvl := ℕ) spec6 c (V21 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V21 m c) (V22 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The items of the main function in order. -/
abbrev segs : List (Pipeline.Seg (pcfgs (F := F)) adm (pdats m) () defs₀ Variants.none Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .host (hseg hostOps2_2 hostOps2_2_sub hostOps2_2_fresh (W7 m)),
    .host (hseg hostOps2_3 hostOps2_3_sub hostOps2_3_fresh (W8 m)),
    .host (hseg hostOps2_4 hostOps2_4_sub hostOps2_4_fresh (W9 m)),
    .region (reg2 m),
    .region (reg3 m),
    .region (reg4 m),
    .host (hseg hostOps5 hostOps5_sub hostOps5_fresh (W13 m)),
    .host (hseg hostOps5_1 hostOps5_1_sub hostOps5_1_fresh (W14 m)),
    .host (hseg hostOps5_2 hostOps5_2_sub hostOps5_2_fresh (W15 m)),
    .host (hseg hostOps5_3 hostOps5_3_sub hostOps5_3_fresh (W16 m)),
    .host (hseg hostOps5_4 hostOps5_4_sub hostOps5_4_fresh (W17 m)),
    .region (reg5 m),
    .host (hseg hostOps6 hostOps6_sub hostOps6_fresh (W19 m)),
    .host (hseg hostOps6_1 hostOps6_1_sub hostOps6_1_fresh (W20 m)),
    .region (reg6 m),
    .host (hseg hostOps7 hostOps7_sub hostOps7_fresh (W22 m)),
    .host (hseg hostOps7_1 hostOps7_1_sub hostOps7_1_fresh (W23 m)) ]

theorem main_run (c : Dev nD) : main (F := F) c = Pipeline.Seg.run (segs m) := (main_chain c).trans (by chain_rfl)

set_option backward.isDefEq.respectTransparency.types false in
/-- Every weakly fair execution of the main function from `m` with zero counters terminates without a fault, and every
    unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W24 m c) ∗ Rd c)
        ⊢ iprop(Tend m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨⟨Hh, -⟩, HSI⟩
      unfold StableHlo.held
      imodintro
      iapply (pointsTo_read_all (Pipeline.ucRefs τ sig) (fun b => (((c : Thread nD τ)).1, b)) (W24 m c) s')
      isplitl [Hh] <;> iassumption)
    (hQ := fun s h c => h c)

end Cert.Kernel.Hand

end
-- ==== Proof.K.Frame.lean ====
/-
  The frame of the kernel program: no item of its main function writes an argument array (a host stretch writes only its own
  results, a launch only its output array), so each argument's buffer, followed back through the fold, holds its launch
  contents at the end of every execution.
-/
import proofs.«123903_j63771674411482_1_alg».proof.Proof.Gen.Kernel.Launch
import proofs.«123903_j63771674411482_1_alg».proof.Proof.Gen.Kernel.Skeleton
import proofs.«123903_j63771674411482_1_alg».proof.Proof.Gen.Kernel.Points
import proofs.«123903_j63771674411482_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W24_keep (c : Dev nD) (r : Ref sig .tc)
    (h1 : r ∉ hostOps0_W)
    (h2 : r ≠ main_v10)
    (h3 : r ∉ hostOps1_W)
    (h4 : r ∉ hostOps1_1_W)
    (h5 : r ≠ main_v28)
    (h6 : r ∉ hostOps2_W)
    (h7 : r ∉ hostOps2_1_W)
    (h8 : r ∉ hostOps2_2_W)
    (h9 : r ∉ hostOps2_3_W)
    (h10 : r ∉ hostOps2_4_W)
    (h11 : r ≠ main_v55)
    (h12 : r ≠ main_v56)
    (h13 : r ≠ main_v57)
    (h14 : r ∉ hostOps5_W)
    (h15 : r ∉ hostOps5_1_W)
    (h16 : r ∉ hostOps5_2_W)
    (h17 : r ∉ hostOps5_3_W)
    (h18 : r ∉ hostOps5_4_W)
    (h19 : r ≠ main_v116)
    (h20 : r ∉ hostOps6_W)
    (h21 : r ∉ hostOps6_1_W)
    (h22 : r ≠ main_v134)
    (h23 : r ∉ hostOps7_W)
    (h24 : r ∉ hostOps7_1_W) :
    W24 m c r = m ((c : Thread nD τ).loc r) :=
  (W24_of m c r h24).trans <|
  (W23_of m c r h23).trans <|
  (W22_of m c r h22).trans <|
  (W21_of m c r h21).trans <|
  (W20_of m c r h20).trans <|
  (W19_of m c r h19).trans <|
  (W18_of m c r h18).trans <|
  (W17_of m c r h17).trans <|
  (W16_of m c r h16).trans <|
  (W15_of m c r h15).trans <|
  (W14_of m c r h14).trans <|
  (W13_of m c r h13).trans <|
  (W12_of m c r h12).trans <|
  (W11_of m c r h11).trans <|
  (W10_of m c r h10).trans <|
  (W9_of m c r h9).trans <|
  (W8_of m c r h8).trans <|
  (W7_of m c r h7).trans <|
  (W6_of m c r h6).trans <|
  (W5_of m c r h5).trans <|
  (W4_of m c r h4).trans <|
  (W3_of m c r h3).trans <|
  (W2_of m c r h2).trans <|
  (W1_of m c r h1).trans <|
  rfl

theorem W24_main_arg0 (c : Dev nD) : W24 m c main_arg0 = m ((c : Thread nD τ).loc main_arg0) :=
  W24_keep m c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg1 (c : Dev nD) : W24 m c main_arg1 = m ((c : Thread nD τ).loc main_arg1) :=
  W24_keep m c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg2 (c : Dev nD) : W24 m c main_arg2 = m ((c : Thread nD τ).loc main_arg2) :=
  W24_keep m c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg3 (c : Dev nD) : W24 m c main_arg3 = m ((c : Thread nD τ).loc main_arg3) :=
  W24_keep m c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg4 (c : Dev nD) : W24 m c main_arg4 = m ((c : Thread nD τ).loc main_arg4) :=
  W24_keep m c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg5 (c : Dev nD) : W24 m c main_arg5 = m ((c : Thread nD τ).loc main_arg5) :=
  W24_keep m c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg6 (c : Dev nD) : W24 m c main_arg6 = m ((c : Thread nD τ).loc main_arg6) :=
  W24_keep m c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg7 (c : Dev nD) : W24 m c main_arg7 = m ((c : Thread nD τ).loc main_arg7) :=
  W24_keep m c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg8 (c : Dev nD) : W24 m c main_arg8 = m ((c : Thread nD τ).loc main_arg8) :=
  W24_keep m c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg9 (c : Dev nD) : W24 m c main_arg9 = m ((c : Thread nD τ).loc main_arg9) :=
  W24_keep m c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg10 (c : Dev nD) : W24 m c main_arg10 = m ((c : Thread nD τ).loc main_arg10) :=
  W24_keep m c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg11 (c : Dev nD) : W24 m c main_arg11 = m ((c : Thread nD τ).loc main_arg11) :=
  W24_keep m c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg12 (c : Dev nD) : W24 m c main_arg12 = m ((c : Thread nD τ).loc main_arg12) :=
  W24_keep m c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg13 (c : Dev nD) : W24 m c main_arg13 = m ((c : Thread nD τ).loc main_arg13) :=
  W24_keep m c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg14 (c : Dev nD) : W24 m c main_arg14 = m ((c : Thread nD τ).loc main_arg14) :=
  W24_keep m c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg15 (c : Dev nD) : W24 m c main_arg15 = m ((c : Thread nD τ).loc main_arg15) :=
  W24_keep m c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg16 (c : Dev nD) : W24 m c main_arg16 = m ((c : Thread nD τ).loc main_arg16) :=
  W24_keep m c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg17 (c : Dev nD) : W24 m c main_arg17 = m ((c : Thread nD τ).loc main_arg17) :=
  W24_keep m c main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg18 (c : Dev nD) : W24 m c main_arg18 = m ((c : Thread nD τ).loc main_arg18) :=
  W24_keep m c main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg19 (c : Dev nD) : W24 m c main_arg19 = m ((c : Thread nD τ).loc main_arg19) :=
  W24_keep m c main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg20 (c : Dev nD) : W24 m c main_arg20 = m ((c : Thread nD τ).loc main_arg20) :=
  W24_keep m c main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg21 (c : Dev nD) : W24 m c main_arg21 = m ((c : Thread nD τ).loc main_arg21) :=
  W24_keep m c main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide)

/-- Every weakly fair execution of the main function terminates without a fault with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (W24_main_arg0 m c),
      (h c _ (mem_uc main_arg1 (by decide))).trans (W24_main_arg1 m c),
      (h c _ (mem_uc main_arg2 (by decide))).trans (W24_main_arg2 m c),
      (h c _ (mem_uc main_arg3 (by decide))).trans (W24_main_arg3 m c),
      (h c _ (mem_uc main_arg4 (by decide))).trans (W24_main_arg4 m c),
      (h c _ (mem_uc main_arg5 (by decide))).trans (W24_main_arg5 m c),
      (h c _ (mem_uc main_arg6 (by decide))).trans (W24_main_arg6 m c),
      (h c _ (mem_uc main_arg7 (by decide))).trans (W24_main_arg7 m c),
      (h c _ (mem_uc main_arg8 (by decide))).trans (W24_main_arg8 m c),
      (h c _ (mem_uc main_arg9 (by decide))).trans (W24_main_arg9 m c),
      (h c _ (mem_uc main_arg10 (by decide))).trans (W24_main_arg10 m c),
      (h c _ (mem_uc main_arg11 (by decide))).trans (W24_main_arg11 m c),
      (h c _ (mem_uc main_arg12 (by decide))).trans (W24_main_arg12 m c),
      (h c _ (mem_uc main_arg13 (by decide))).trans (W24_main_arg13 m c),
      (h c _ (mem_uc main_arg14 (by decide))).trans (W24_main_arg14 m c),
      (h c _ (mem_uc main_arg15 (by decide))).trans (W24_main_arg15 m c),
      (h c _ (mem_uc main_arg16 (by decide))).trans (W24_main_arg16 m c),
      (h c _ (mem_uc main_arg17 (by decide))).trans (W24_main_arg17 m c),
      (h c _ (mem_uc main_arg18 (by decide))).trans (W24_main_arg18 m c),
      (h c _ (mem_uc main_arg19 (by decide))).trans (W24_main_arg19 m c),
      (h c _ (mem_uc main_arg20 (by decide))).trans (W24_main_arg20 m c),
      (h c _ (mem_uc main_arg21 (by decide))).trans (W24_main_arg21 m c)⟩)
    (run_all m ρ)

/-- The same run with the three result buffers named: each ends at the fold's last contents. -/
theorem run_named : θ_run defs (onTc (τ := τ) (main (F := F))) ⟨m, fun _ => 0, ρ⟩ (fun r => ∀ c : Dev nD,
      r.2.mem ((c.tc : Thread nD τ).loc main_v50) = W24 m c main_v50
      ∧ r.2.mem ((c.tc : Thread nD τ).loc main_v57) = W24 m c main_v57
      ∧ r.2.mem ((c.tc : Thread nD τ).loc main_v151) = W24 m c main_v151
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v50 (by decide)), h c _ (mem_uc main_v57 (by decide)), h c _ (mem_uc main_v151 (by decide)),
      (h c _ (mem_uc main_arg0 (by decide))).trans (W24_main_arg0 m c),
      (h c _ (mem_uc main_arg1 (by decide))).trans (W24_main_arg1 m c),
      (h c _ (mem_uc main_arg2 (by decide))).trans (W24_main_arg2 m c),
      (h c _ (mem_uc main_arg3 (by decide))).trans (W24_main_arg3 m c),
      (h c _ (mem_uc main_arg4 (by decide))).trans (W24_main_arg4 m c),
      (h c _ (mem_uc main_arg5 (by decide))).trans (W24_main_arg5 m c),
      (h c _ (mem_uc main_arg6 (by decide))).trans (W24_main_arg6 m c),
      (h c _ (mem_uc main_arg7 (by decide))).trans (W24_main_arg7 m c),
      (h c _ (mem_uc main_arg8 (by decide))).trans (W24_main_arg8 m c),
      (h c _ (mem_uc main_arg9 (by decide))).trans (W24_main_arg9 m c),
      (h c _ (mem_uc main_arg10 (by decide))).trans (W24_main_arg10 m c),
      (h c _ (mem_uc main_arg11 (by decide))).trans (W24_main_arg11 m c),
      (h c _ (mem_uc main_arg12 (by decide))).trans (W24_main_arg12 m c),
      (h c _ (mem_uc main_arg13 (by decide))).trans (W24_main_arg13 m c),
      (h c _ (mem_uc main_arg14 (by decide))).trans (W24_main_arg14 m c),
      (h c _ (mem_uc main_arg15 (by decide))).trans (W24_main_arg15 m c),
      (h c _ (mem_uc main_arg16 (by decide))).trans (W24_main_arg16 m c),
      (h c _ (mem_uc main_arg17 (by decide))).trans (W24_main_arg17 m c),
      (h c _ (mem_uc main_arg18 (by decide))).trans (W24_main_arg18 m c),
      (h c _ (mem_uc main_arg19 (by decide))).trans (W24_main_arg19 m c),
      (h c _ (mem_uc main_arg20 (by decide))).trans (W24_main_arg20 m c),
      (h c _ (mem_uc main_arg21 (by decide))).trans (W24_main_arg21 m c)⟩)
    (run_all m ρ)

end Cert.Kernel.Hand

end
-- ==== Proof.KI.R0Defs.lean ====
/-
  The first encoder layer's product (rows of the node features times the first encoder weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rx0 : Rect S2000x500 := Rect.unit (s := S2000x500) ![0, 0] S2000x500.size inb_S2000x500_S2000x500_0_0
abbrev rw0 : Rect S500x256 := Rect.unit (s := S500x256) ![0, 0] S500x256.size inb_S500x256_S500x256_0_0
abbrev rb0 : Rect S1x256 := Rect.unit (s := S1x256) ![0, 0] S1x256.size inb_S1x256_S1x256_0_0
abbrev ro0 : Rect S2000x256 := Rect.unit (s := S2000x256) ![0, 0] S2000x256.size inb_S2000x256_S2000x256_0_0

/-- The output window's buffer after the body: its one store, of the product-plus-row value of the three loaded blocks. -/
def out0_3 (x0 : Vec F S2000x500 .f32) (x1 : Vec F S500x256 .bf16) (x2 : Vec F S1x256 .f32) : Vec F S2000x256 .f32 :=
  View.canon [⟨ro0, k0_pay1 (View.ld x0 rx0) (View.ld x1 rw0) (View.ld x2 rb0)⟩]

/-- The one store covers the buffer. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-- The pipeline's data on core `c`: the arrays as found; after the body at point `t` each input buffer still holds its
    block and the output buffer holds the store's value; the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.R1Defs.lean ====
/-
  The second encoder layer's product (rows of the hidden features times the second encoder weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rx1 : Rect S2000x256 := Rect.unit (s := S2000x256) ![0, 0] S2000x256.size inb_S2000x256_S2000x256_0_0
abbrev rw1 : Rect S256x64 := Rect.unit (s := S256x64) ![0, 0] S256x64.size inb_S256x64_S256x64_0_0
abbrev rb1 : Rect S1x64 := Rect.unit (s := S1x64) ![0, 0] S1x64.size inb_S1x64_S1x64_0_0
abbrev ro1 : Rect S2000x64 := Rect.unit (s := S2000x64) ![0, 0] S2000x64.size inb_S2000x64_S2000x64_0_0

/-- The output window's buffer after the body: its one store, of the product-plus-row value of the three loaded blocks. -/
def out1_3 (x0 : Vec F S2000x256 .f32) (x1 : Vec F S256x64 .bf16) (x2 : Vec F S1x64 .f32) : Vec F S2000x64 .f32 :=
  View.canon [⟨ro1, k1_pay1 (View.ld x0 rx1) (View.ld x1 rw1) (View.ld x2 rb1)⟩]

/-- The one store covers the buffer. -/
theorem cover1_3 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

/-- The pipeline's data on core `c`: the arrays as found; after the body at point `t` each input buffer still holds its
    block and the output buffer holds the store's value; the scoped rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.R2Defs.lean ====
/-
  The generator's first layer (rows of the noised latent code times its weight, plus the bias row, clamped below at zero), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rx2 : Rect S2000x64 := Rect.unit (s := S2000x64) ![0, 0] S2000x64.size inb_S2000x64_S2000x64_0_0
abbrev rw2 : Rect S64x256 := Rect.unit (s := S64x256) ![0, 0] S64x256.size inb_S64x256_S64x256_0_0
abbrev rb2 : Rect S1x256 := Rect.unit (s := S1x256) ![0, 0] S1x256.size inb_S1x256_S1x256_0_0
abbrev ro2 : Rect S2000x256 := Rect.unit (s := S2000x256) ![0, 0] S2000x256.size inb_S2000x256_S2000x256_0_0

/-- The output window's buffer after the body: its one store, of the product-plus-row value of the three loaded blocks. -/
def out2_3 (x0 : Vec F S2000x64 .f32) (x1 : Vec F S64x256 .bf16) (x2 : Vec F S1x256 .f32) : Vec F S2000x256 .bf16 :=
  View.canon [⟨ro2, k2_pay1 (View.ld x0 rx2) (View.ld x1 rw2) (View.ld x2 rb2)⟩]

/-- The one store covers the buffer. -/
theorem cover2_3 (p0 : Vec F S2000x256 .bf16) (y : S2000x256.Idx) :
    ∃ pc ∈ ([⟨ro2, p0⟩] : List (View.Piece (Elt F) S2000x256 .bf16)), y ∈ pc.1.set :=
  View.cover_of_tiled [⟨ro2, p0⟩] S2000x256.size (by rfl) y

/-- The pipeline's data on core `c`: the arrays as found; after the body at point `t` each input buffer still holds its
    block and the output buffer holds the store's value; the scoped rest untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.R3Defs.lean ====
/-
  The generator's second layer (rows of the first layer's output times its weight, plus the bias row, clamped below at zero), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev rx3 : Rect S2000x256 := Rect.unit (s := S2000x256) ![0, 0] S2000x256.size inb_S2000x256_S2000x256_0_0
abbrev rw3 : Rect S256x2048 := Rect.unit (s := S256x2048) ![0, 0] S256x2048.size inb_S256x2048_S256x2048_0_0
abbrev rb3 : Rect S1x2048 := Rect.unit (s := S1x2048) ![0, 0] S1x2048.size inb_S1x2048_S1x2048_0_0
abbrev ro3 : Rect S2000x2048 := Rect.unit (s := S2000x2048) ![0, 0] S2000x2048.size inb_S2000x2048_S2000x2048_0_0

/-- The output window's buffer after the body: its one store, of the product-plus-row value of the three loaded blocks. -/
def out3_3 (x0 : Vec F S2000x256 .bf16) (x1 : Vec F S256x2048 .bf16) (x2 : Vec F S1x2048 .f32) : Vec F S2000x2048 .bf16 :=
  View.canon [⟨ro3, k3_pay1 (View.ld x0 rx3) (View.ld x1 rw3) (View.ld x2 rb3)⟩]

/-- The one store covers the buffer. -/
theorem cover3_3 (p0 : Vec F S2000x2048 .bf16) (y : S2000x2048.Idx) :
    ∃ pc ∈ ([⟨ro3, p0⟩] : List (View.Piece (Elt F) S2000x2048 .bf16)), y ∈ pc.1.set :=
  View.cover_of_tiled [⟨ro3, p0⟩] S2000x2048.size (by rfl) y

/-- The pipeline's data on core `c`: the arrays as found; after the body at point `t` each input buffer still holds its
    block and the output buffer holds the store's value; the scoped rest untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.KernelIdeal.Hand

end
-- ==== Proof.KI.R4Defs.lean ====
/-
  The generator's last layer (rows of the second layer's output times its weight, plus the bias row, through tanh), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev rx4 : Rect S400x2048 := Rect.unit (s := S400x2048) ![0, 0] S400x2048.size inb_S400x2048_S400x2048_0_0
abbrev rw4 : Rect S2048x2500 := Rect.unit (s := S2048x2500) ![0, 0] S2048x2500.size inb_S2048x2500_S2048x2500_0_0
abbrev rb4 : Rect S1x2500 := Rect.unit (s := S1x2500) ![0, 0] S1x2500.size inb_S1x2500_S1x2500_0_0
abbrev ro4 : Rect S400x2500 := Rect.unit (s := S400x2500) ![0, 0] S400x2500.size inb_S400x2500_S400x2500_0_0

/-- The output window's buffer after the body: its one store, of the product-plus-row value of the three loaded blocks. -/
def out4_3 (x0 : Vec F S400x2048 .bf16) (x1 : Vec F S2048x2500 .bf16) (x2 : Vec F S1x2500 .f32) : Vec F S400x2500 .f32 :=
  View.canon [⟨ro4, k4_pay1 (View.ld x0 rx4) (View.ld x1 rw4) (View.ld x2 rb4)⟩]

/-- The one store covers the buffer. -/
theorem cover4_3 (p0 : Vec F S400x2500 .f32) (y : S400x2500.Idx) :
    ∃ pc ∈ ([⟨ro4, p0⟩] : List (View.Piece (Elt F) S400x2500 .f32)), y ∈ pc.1.set :=
  View.cover_of_tiled [⟨ro4, p0⟩] S400x2500.size (by rfl) y

/-- The pipeline's data on core `c`: the arrays as found; after the body at point `t` each input buffer still holds its
    block and the output buffer holds the store's value; the scoped rest untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

end Cert.KernelIdeal.Hand

end
-- ==== Proof.KI.R5Defs.lean ====
/-
  The first classifier layer's product (rows of the mended feature matrix times its weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev rx5 : Rect S2000x500 := Rect.unit (s := S2000x500) ![0, 0] S2000x500.size inb_S2000x500_S2000x500_0_0
abbrev rw5 : Rect S500x256 := Rect.unit (s := S500x256) ![0, 0] S500x256.size inb_S500x256_S500x256_0_0
abbrev rb5 : Rect S1x256 := Rect.unit (s := S1x256) ![0, 0] S1x256.size inb_S1x256_S1x256_0_0
abbrev ro5 : Rect S2000x256 := Rect.unit (s := S2000x256) ![0, 0] S2000x256.size inb_S2000x256_S2000x256_0_0

/-- The output window's buffer after the body: its one store, of the product-plus-row value of the three loaded blocks. -/
def out5_3 (x0 : Vec F S2000x500 .f32) (x1 : Vec F S500x256 .bf16) (x2 : Vec F S1x256 .f32) : Vec F S2000x256 .f32 :=
  View.canon [⟨ro5, k5_pay1 (View.ld x0 rx5) (View.ld x1 rw5) (View.ld x2 rb5)⟩]

/-- The one store covers the buffer. -/
theorem cover5_3 (p0 : Vec F S2000x256 .f32) (y : S2000x256.Idx) :
    ∃ pc ∈ ([⟨ro5, p0⟩] : List (View.Piece (Elt F) S2000x256 .f32)), y ∈ pc.1.set :=
  View.cover_of_tiled [⟨ro5, p0⟩] S2000x256.size (by rfl) y

/-- The pipeline's data on core `c`: the arrays as found; after the body at point `t` each input buffer still holds its
    block and the output buffer holds the store's value; the scoped rest untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.KernelIdeal.Hand

end
-- ==== Proof.KI.R6Defs.lean ====
/-
  The second classifier layer's product (rows of the classifier's hidden features times its weight, a zero row added), as data:
  what each window's block is at a grid point, read off the arrays the launch finds (a parameter `V`); what one call of
  the body leaves in the output window's buffer — the one store's value, a function of the three blocks it loaded —;
  and the family (arrays, contents after each point) the pipeline library asks for.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole-buffer rectangles the body loads and stores through. -/
abbrev rx6 : Rect S2000x256 := Rect.unit (s := S2000x256) ![0, 0] S2000x256.size inb_S2000x256_S2000x256_0_0
abbrev rw6 : Rect S256x16 := Rect.unit (s := S256x16) ![0, 0] S256x16.size inb_S256x16_S256x16_0_0
abbrev rb6 : Rect S1x16 := Rect.unit (s := S1x16) ![0, 0] S1x16.size inb_S1x16_S1x16_0_0
abbrev ro6 : Rect S2000x16 := Rect.unit (s := S2000x16) ![0, 0] S2000x16.size inb_S2000x16_S2000x16_0_0

/-- The output window's buffer after the body: its one store, of the product-plus-row value of the three loaded blocks. -/
def out6_3 (x0 : Vec F S2000x256 .f32) (x1 : Vec F S256x16 .bf16) (x2 : Vec F S1x16 .f32) : Vec F S2000x16 .f32 :=
  View.canon [⟨ro6, k6_pay1 (View.ld x0 rx6) (View.ld x1 rw6) (View.ld x2 rb6)⟩]

/-- The one store covers the buffer. -/
theorem cover6_3 (p0 : Vec F S2000x16 .f32) (y : S2000x16.Idx) :
    ∃ pc ∈ ([⟨ro6, p0⟩] : List (View.Piece (Elt F) S2000x16 .f32)), y ∈ pc.1.set :=
  View.cover_of_tiled [⟨ro6, p0⟩] S2000x16.size (by rfl) y

/-- The pipeline's data on core `c`: the arrays as found; after the body at point `t` each input buffer still holds its
    block and the output buffer holds the store's value; the scoped rest untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

end Cert.KernelIdeal.Hand

end
-- ==== Proof.KI.Fold.lean ====
/-
  The contents of the TensorCore's buffers at each boundary between two items of the kernel program's main function, as a
  fold from the launch memory: a stretch of host operations applies them; a dense layer's launch leaves its input arrays
  as they were and its output array at what the write-backs of all grid points leave; nothing else changes.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.Gen.KernelIdeal.Regions
import proofs.«123903_j63771674411482_1_alg».proof.Proof.KI.R0Defs
import proofs.«123903_j63771674411482_1_alg».proof.Proof.KI.R1Defs
import proofs.«123903_j63771674411482_1_alg».proof.Proof.KI.R2Defs
import proofs.«123903_j63771674411482_1_alg».proof.Proof.KI.R3Defs
import proofs.«123903_j63771674411482_1_alg».proof.Proof.KI.R4Defs
import proofs.«123903_j63771674411482_1_alg».proof.Proof.KI.R5Defs
import proofs.«123903_j63771674411482_1_alg».proof.Proof.KI.R6Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After launch 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input array of launch 0 is left as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- After the stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the stretch `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- After launch 1: its arrays at what the pipeline leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- An input array of launch 1 is left as entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (V4 m) c).arrAt_in w hw _).trans (A_eq1 (V4 m) c w))
/-- After the stretch `hostOps2`. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b
/-- After the stretch `hostOps2_1`. -/
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b
/-- After the stretch `hostOps2_2`. -/
abbrev W8 : Dev nD → Valuation τ sig (Elt F) := fun c => StableHlo.after hostOps2_2 (W7 m c)
abbrev V8 : (c : Dev nD) → (b : Ref sig .tc) → Buf (Elt F) ((c : Thread nD τ).loc b) := fun c b => W8 m c b
/-- After the stretch `hostOps2_3`. -/
abbrev W9 : Dev nD → Valuation τ sig (Elt F) := fun c => StableHlo.after hostOps2_3 (W8 m c)
abbrev V9 : (c : Dev nD) → (b : Ref sig .tc) → Buf (Elt F) ((c : Thread nD τ).loc b) := fun c b => W9 m c b
/-- After the stretch `hostOps2_4`. -/
abbrev W10 : Dev nD → Valuation τ sig (Elt F) := fun c => StableHlo.after hostOps2_4 (W9 m c)
abbrev V10 : (c : Dev nD) → (b : Ref sig .tc) → Buf (Elt F) ((c : Thread nD τ).loc b) := fun c b => W10 m c b
/-- After launch 2: its arrays at what the pipeline leaves, every other buffer as entered. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
abbrev V11 : (c : Dev nD) → (b : Ref sig .tc) → Buf (Elt F) ((c : Thread nD τ).loc b) := fun c b => W11 m c b
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)
/-- An input array of launch 2 is left as entered. -/
theorem W11_in (c : Dev nD) (w : Fin cfg2.W) (hw : (cfg2.win w).isOut = false) :
    W11 m c (Proc.devRef .tc (Pipeline.arrRef spec2 w)) = W10 m c (Proc.devRef .tc (Pipeline.arrRef spec2 w)) :=
  (W11_arr m c w).trans (((dat2 (V10 m) c).arrAt_in w hw _).trans (A_eq2 (V10 m) c w))
/-- After launch 3: its arrays at what the pipeline leaves, every other buffer as entered. -/
def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)
/-- An input array of launch 3 is left as entered. -/
theorem W12_in (c : Dev nD) (w : Fin cfg3.W) (hw : (cfg3.win w).isOut = false) :
    W12 m c (Proc.devRef .tc (Pipeline.arrRef spec3 w)) = W11 m c (Proc.devRef .tc (Pipeline.arrRef spec3 w)) :=
  (W12_arr m c w).trans (((dat3 (V11 m) c).arrAt_in w hw _).trans (A_eq3 (V11 m) c w))
/-- After launch 4: its arrays at what the pipeline leaves, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- An input array of launch 4 is left as entered. -/
theorem W13_in (c : Dev nD) (w : Fin cfg4.W) (hw : (cfg4.win w).isOut = false) :
    W13 m c (Proc.devRef .tc (Pipeline.arrRef spec4 w)) = W12 m c (Proc.devRef .tc (Pipeline.arrRef spec4 w)) :=
  (W13_arr m c w).trans (((dat4 (V12 m) c).arrAt_in w hw _).trans (A_eq4 (V12 m) c w))
/-- After the stretch `hostOps5`. -/
abbrev W14 : Dev nD → Valuation τ sig (Elt F) := fun c => StableHlo.after hostOps5 (W13 m c)
abbrev V14 : (c : Dev nD) → (b : Ref sig .tc) → Buf (Elt F) ((c : Thread nD τ).loc b) := fun c b => W14 m c b
/-- After the stretch `hostOps5_1`. -/
abbrev W15 : Dev nD → Valuation τ sig (Elt F) := fun c => StableHlo.after hostOps5_1 (W14 m c)
abbrev V15 : (c : Dev nD) → (b : Ref sig .tc) → Buf (Elt F) ((c : Thread nD τ).loc b) := fun c b => W15 m c b
/-- After the stretch `hostOps5_2`. -/
abbrev W16 : Dev nD → Valuation τ sig (Elt F) := fun c => StableHlo.after hostOps5_2 (W15 m c)
abbrev V16 : (c : Dev nD) → (b : Ref sig .tc) → Buf (Elt F) ((c : Thread nD τ).loc b) := fun c b => W16 m c b
/-- After the stretch `hostOps5_3`. -/
abbrev W17 : Dev nD → Valuation τ sig (Elt F) := fun c => StableHlo.after hostOps5_3 (W16 m c)
abbrev V17 : (c : Dev nD) → (b : Ref sig .tc) → Buf (Elt F) ((c : Thread nD τ).loc b) := fun c b => W17 m c b
/-- After the stretch `hostOps5_4`. -/
abbrev W18 : Dev nD → Valuation τ sig (Elt F) := fun c => StableHlo.after hostOps5_4 (W17 m c)
abbrev V18 : (c : Dev nD) → (b : Ref sig .tc) → Buf (Elt F) ((c : Thread nD τ).loc b) := fun c b => W18 m c b
/-- After launch 5: its arrays at what the pipeline leaves, every other buffer as entered. -/
def W19 (c : Dev nD) : Valuation τ sig (Elt F) :=
  Pipeline.withArrays spec5 c (W18 m c) fun w => (dat5 (V18 m) c).arrAt w cfg5.N
theorem W19_arr (c : Dev nD) (w : Fin cfg5.W) :
    W19 m c (Proc.devRef .tc (Pipeline.arrRef spec5 w)) = (dat5 (V18 m) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m c (Proc.devRef .tc b) = W18 m c (Proc.devRef .tc b) := by
  unfold W19; exact Pipeline.withArrays_of_ne spec5 c _ _ b hb
abbrev V19 : (c : Dev nD) → (b : Ref sig .tc) → Buf (Elt F) ((c : Thread nD τ).loc b) := fun c b => W19 m c b
theorem hF5 (c : Dev nD) (w : Fin cfg5.W) : (dat5 (V18 m) c).arrAt w cfg5.N = V19 m c (Pipeline.arrRef spec5 w) :=
  (W19_arr m c w).symm
theorem hrest5 (c : Dev nD) : ∀ b, b ∉ Finset.univ.image (Pipeline.arrRef spec5) → V19 m c b = V18 m c b :=
  fun b hb => W19_of_ne m c b fun w e => hb (Finset.mem_image.mpr ⟨w, Finset.mem_univ _, e⟩)
/-- An input array of launch 5 is left as entered. -/
theorem W19_in (c : Dev nD) (w : Fin cfg5.W) (hw : (cfg5.win w).isOut = false) :
    W19 m c (Proc.devRef .tc (Pipeline.arrRef spec5 w)) = W18 m c (Proc.devRef .tc (Pipeline.arrRef spec5 w)) :=
  (W19_arr m c w).trans (((dat5 (V18 m) c).arrAt_in w hw _).trans (A_eq5 (V18 m) c w))
/-- After the stretch `hostOps6`. -/
abbrev W20 : Dev nD → Valuation τ sig (Elt F) := fun c => StableHlo.after hostOps6 (W19 m c)
abbrev V20 : (c : Dev nD) → (b : Ref sig .tc) → Buf (Elt F) ((c : Thread nD τ).loc b) := fun c b => W20 m c b
/-- After the stretch `hostOps6_1`. -/
abbrev W21 : Dev nD → Valuation τ sig (Elt F) := fun c => StableHlo.after hostOps6_1 (W20 m c)
abbrev V21 : (c : Dev nD) → (b : Ref sig .tc) → Buf (Elt F) ((c : Thread nD τ).loc b) := fun c b => W21 m c b
/-- After launch 6: its arrays at what the pipeline leaves, every other buffer as entered. -/
def W22 (c : Dev nD) : Valuation τ sig (Elt F) :=
  Pipeline.withArrays spec6 c (W21 m c) fun w => (dat6 (V21 m) c).arrAt w cfg6.N
theorem W22_arr (c : Dev nD) (w : Fin cfg6.W) :
    W22 m c (Proc.devRef .tc (Pipeline.arrRef spec6 w)) = (dat6 (V21 m) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m c (Proc.devRef .tc b) = W21 m c (Proc.devRef .tc b) := by
  unfold W22; exact Pipeline.withArrays_of_ne spec6 c _ _ b hb
abbrev V22 : (c : Dev nD) → (b : Ref sig .tc) → Buf (Elt F) ((c : Thread nD τ).loc b) := fun c b => W22 m c b
theorem hF6 (c : Dev nD) (w : Fin cfg6.W) : (dat6 (V21 m) c).arrAt w cfg6.N = V22 m c (Pipeline.arrRef spec6 w) :=
  (W22_arr m c w).symm
theorem hrest6 (c : Dev nD) : ∀ b, b ∉ Finset.univ.image (Pipeline.arrRef spec6) → V22 m c b = V21 m c b :=
  fun b hb => W22_of_ne m c b fun w e => hb (Finset.mem_image.mpr ⟨w, Finset.mem_univ _, e⟩)
/-- An input array of launch 6 is left as entered. -/
theorem W22_in (c : Dev nD) (w : Fin cfg6.W) (hw : (cfg6.win w).isOut = false) :
    W22 m c (Proc.devRef .tc (Pipeline.arrRef spec6 w)) = W21 m c (Proc.devRef .tc (Pipeline.arrRef spec6 w)) :=
  (W22_arr m c w).trans (((dat6 (V21 m) c).arrAt_in w hw _).trans (A_eq6 (V21 m) c w))
/-- After the stretch `hostOps7`. -/
abbrev W23 : Dev nD → Valuation τ sig (Elt F) := fun c => StableHlo.after hostOps7 (W22 m c)
abbrev V23 : (c : Dev nD) → (b : Ref sig .tc) → Buf (Elt F) ((c : Thread nD τ).loc b) := fun c b => W23 m c b
/-- After the stretch `hostOps7_1`. -/
abbrev W24 : Dev nD → Valuation τ sig (Elt F) := fun c => StableHlo.after hostOps7_1 (W23 m c)
abbrev V24 : (c : Dev nD) → (b : Ref sig .tc) → Buf (Elt F) ((c : Thread nD τ).loc b) := fun c b => W24 m c b

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v10) : W2 m c r = W1 m c r := by
  by_cases hw : ∃ w, Pipeline.arrRef spec0 w = r
  · obtain ⟨w, rfl⟩ := hw
    match w with
    | ⟨0, _⟩ => exact W2_in m c 0 rfl
    | ⟨1, _⟩ => exact W2_in m c 1 rfl
    | ⟨2, _⟩ => exact W2_in m c 2 rfl
    | ⟨3, _⟩ => exact absurd rfl h
  · exact W2_of_ne m c r fun w e => hw ⟨w, e⟩
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ≠ main_v28) : W5 m c r = W4 m c r := by
  by_cases hw : ∃ w, Pipeline.arrRef spec1 w = r
  · obtain ⟨w, rfl⟩ := hw
    match w with
    | ⟨0, _⟩ => exact W5_in m c 0 rfl
    | ⟨1, _⟩ => exact W5_in m c 1 rfl
    | ⟨2, _⟩ => exact W5_in m c 2 rfl
    | ⟨3, _⟩ => exact absurd rfl h
  · exact W5_of_ne m c r fun w e => hw ⟨w, e⟩
theorem W6_of (c : Dev nD) (r : Ref sig .tc) (h : r ∉ hostOps2_W) : W6 m c r = W5 m c r :=
  StableHlo.after_of_writes_sub hostOps2 _ hostOps2_writes h
theorem W7_of (c : Dev nD) (r : Ref sig .tc) (h : r ∉ hostOps2_1_W) : W7 m c r = W6 m c r :=
  StableHlo.after_of_writes_sub hostOps2_1 _ hostOps2_1_writes h
theorem W8_of (c : Dev nD) (r : Ref sig .tc) (h : r ∉ hostOps2_2_W) : W8 m c r = W7 m c r :=
  StableHlo.after_of_writes_sub hostOps2_2 _ hostOps2_2_writes h
theorem W9_of (c : Dev nD) (r : Ref sig .tc) (h : r ∉ hostOps2_3_W) : W9 m c r = W8 m c r :=
  StableHlo.after_of_writes_sub hostOps2_3 _ hostOps2_3_writes h
theorem W10_of (c : Dev nD) (r : Ref sig .tc) (h : r ∉ hostOps2_4_W) : W10 m c r = W9 m c r :=
  StableHlo.after_of_writes_sub hostOps2_4 _ hostOps2_4_writes h
theorem W11_of (c : Dev nD) (r : Ref sig .tc) (h : r ≠ main_v55) : W11 m c r = W10 m c r := by
  by_cases hw : ∃ w, Pipeline.arrRef spec2 w = r
  · obtain ⟨w, rfl⟩ := hw
    match w with
    | ⟨0, _⟩ => exact W11_in m c 0 rfl
    | ⟨1, _⟩ => exact W11_in m c 1 rfl
    | ⟨2, _⟩ => exact W11_in m c 2 rfl
    | ⟨3, _⟩ => exact absurd rfl h
  · exact W11_of_ne m c r fun w e => hw ⟨w, e⟩
theorem W12_of (c : Dev nD) (r : Ref sig .tc) (h : r ≠ main_v56) : W12 m c r = W11 m c r := by
  by_cases hw : ∃ w, Pipeline.arrRef spec3 w = r
  · obtain ⟨w, rfl⟩ := hw
    match w with
    | ⟨0, _⟩ => exact W12_in m c 0 rfl
    | ⟨1, _⟩ => exact W12_in m c 1 rfl
    | ⟨2, _⟩ => exact W12_in m c 2 rfl
    | ⟨3, _⟩ => exact absurd rfl h
  · exact W12_of_ne m c r fun w e => hw ⟨w, e⟩
theorem W13_of (c : Dev nD) (r : Ref sig .tc) (h : r ≠ main_v57) : W13 m c r = W12 m c r := by
  by_cases hw : ∃ w, Pipeline.arrRef spec4 w = r
  · obtain ⟨w, rfl⟩ := hw
    match w with
    | ⟨0, _⟩ => exact W13_in m c 0 rfl
    | ⟨1, _⟩ => exact W13_in m c 1 rfl
    | ⟨2, _⟩ => exact W13_in m c 2 rfl
    | ⟨3, _⟩ => exact absurd rfl h
  · exact W13_of_ne m c r fun w e => hw ⟨w, e⟩
theorem W14_of (c : Dev nD) (r : Ref sig .tc) (h : r ∉ hostOps5_W) : W14 m c r = W13 m c r :=
  StableHlo.after_of_writes_sub hostOps5 _ hostOps5_writes h
theorem W15_of (c : Dev nD) (r : Ref sig .tc) (h : r ∉ hostOps5_1_W) : W15 m c r = W14 m c r :=
  StableHlo.after_of_writes_sub hostOps5_1 _ hostOps5_1_writes h
theorem W16_of (c : Dev nD) (r : Ref sig .tc) (h : r ∉ hostOps5_2_W) : W16 m c r = W15 m c r :=
  StableHlo.after_of_writes_sub hostOps5_2 _ hostOps5_2_writes h
theorem W17_of (c : Dev nD) (r : Ref sig .tc) (h : r ∉ hostOps5_3_W) : W17 m c r = W16 m c r :=
  StableHlo.after_of_writes_sub hostOps5_3 _ hostOps5_3_writes h
theorem W18_of (c : Dev nD) (r : Ref sig .tc) (h : r ∉ hostOps5_4_W) : W18 m c r = W17 m c r :=
  StableHlo.after_of_writes_sub hostOps5_4 _ hostOps5_4_writes h
theorem W19_of (c : Dev nD) (r : Ref sig .tc) (h : r ≠ main_v116) : W19 m c r = W18 m c r := by
  by_cases hw : ∃ w, Pipeline.arrRef spec5 w = r
  · obtain ⟨w, rfl⟩ := hw
    match w with
    | ⟨0, _⟩ => exact W19_in m c 0 rfl
    | ⟨1, _⟩ => exact W19_in m c 1 rfl
    | ⟨2, _⟩ => exact W19_in m c 2 rfl
    | ⟨3, _⟩ => exact absurd rfl h
  · exact W19_of_ne m c r fun w e => hw ⟨w, e⟩
theorem W20_of (c : Dev nD) (r : Ref sig .tc) (h : r ∉ hostOps6_W) : W20 m c r = W19 m c r :=
  StableHlo.after_of_writes_sub hostOps6 _ hostOps6_writes h
theorem W21_of (c : Dev nD) (r : Ref sig .tc) (h : r ∉ hostOps6_1_W) : W21 m c r = W20 m c r :=
  StableHlo.after_of_writes_sub hostOps6_1 _ hostOps6_1_writes h
theorem W22_of (c : Dev nD) (r : Ref sig .tc) (h : r ≠ main_v134) : W22 m c r = W21 m c r := by
  by_cases hw : ∃ w, Pipeline.arrRef spec6 w = r
  · obtain ⟨w, rfl⟩ := hw
    match w with
    | ⟨0, _⟩ => exact W22_in m c 0 rfl
    | ⟨1, _⟩ => exact W22_in m c 1 rfl
    | ⟨2, _⟩ => exact W22_in m c 2 rfl
    | ⟨3, _⟩ => exact absurd rfl h
  · exact W22_of_ne m c r fun w e => hw ⟨w, e⟩
theorem W23_of (c : Dev nD) (r : Ref sig .tc) (h : r ∉ hostOps7_W) : W23 m c r = W22 m c r :=
  StableHlo.after_of_writes_sub hostOps7 _ hostOps7_writes h
theorem W24_of (c : Dev nD) (r : Ref sig .tc) (h : r ∉ hostOps7_1_W) : W24 m c r = W23 m c r :=
  StableHlo.after_of_writes_sub hostOps7_1 _ hostOps7_1_writes h

end Cert.KernelIdeal.Hand

end
-- ==== Proof.KI.R0Body.lean ====
/-
  The body of the first encoder layer's product (rows of the node features times the first encoder weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

set_option maxHeartbeats 1000000 in
/-- The body on whole staging buffers. -/
theorem sound_kernel0 (c : Dev nD) (E : Set ℕ) (i : grid0.Coords)
    (arg1 : Memref sig .tc .vmem S2000x500 .f32) (harg1 : arg1.IsWhole) (arg2 : Memref sig .tc .vmem S500x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x500 .f32) (x1 : Vec F S500x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the run above applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Body.lean ====
/-
  The body of the second encoder layer's product (rows of the hidden features times the second encoder weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

set_option maxHeartbeats 1000000 in
/-- The body on whole staging buffers. -/
theorem sound_kernel1 (c : Dev nD) (E : Set ℕ) (i : grid1.Coords)
    (arg1 : Memref sig .tc .vmem S2000x256 .f32) (harg1 : arg1.IsWhole) (arg2 : Memref sig .tc .vmem S256x64 .bf16) (harg2 : arg2.IsWhole)
    (arg3 : Memref sig .tc .vmem S1x64 .f32) (harg3 : arg3.IsWhole) (arg4 : Memref sig .tc .vmem S2000x64 .f32) (harg4 : arg4.IsWhole)
    (x0 : Vec F S2000x256 .f32) (x1 : Vec F S256x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the run above applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Body.lean ====
/-
  The body of the generator's first layer (rows of the noised latent code times its weight, plus the bias row, clamped below at zero) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

set_option maxHeartbeats 1000000 in
/-- The body on whole staging buffers. -/
theorem sound_kernel2 (c : Dev nD) (E : Set ℕ) (i : grid2.Coords)
    (arg1 : Memref sig .tc .vmem S2000x64 .f32) (harg1 : arg1.IsWhole) (arg2 : Memref sig .tc .vmem S64x256 .bf16) (harg2 : arg2.IsWhole)
    (arg3 : Memref sig .tc .vmem S1x256 .f32) (harg3 : arg3.IsWhole) (arg4 : Memref sig .tc .vmem S2000x256 .bf16) (harg4 : arg4.IsWhole)
    (x0 : Vec F S2000x64 .f32) (x1 : Vec F S64x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the run above applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Body.lean ====
/-
  The body of the generator's second layer (rows of the first layer's output times its weight, plus the bias row, clamped below at zero) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

set_option maxHeartbeats 1000000 in
/-- The body on whole staging buffers. -/
theorem sound_kernel3 (c : Dev nD) (E : Set ℕ) (i : grid3.Coords)
    (arg1 : Memref sig .tc .vmem S2000x256 .bf16) (harg1 : arg1.IsWhole) (arg2 : Memref sig .tc .vmem S256x2048 .bf16) (harg2 : arg2.IsWhole)
    (arg3 : Memref sig .tc .vmem S1x2048 .f32) (harg3 : arg3.IsWhole) (arg4 : Memref sig .tc .vmem S2000x2048 .bf16) (harg4 : arg4.IsWhole)
    (x0 : Vec F S2000x256 .bf16) (x1 : Vec F S256x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the run above applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Body.lean ====
/-
  The body of the generator's last layer (rows of the second layer's output times its weight, plus the bias row, through tanh) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

set_option maxHeartbeats 1000000 in
/-- The body on whole staging buffers. -/
theorem sound_kernel4 (c : Dev nD) (E : Set ℕ) (i : grid4.Coords)
    (arg1 : Memref sig .tc .vmem S400x2048 .bf16) (harg1 : arg1.IsWhole) (arg2 : Memref sig .tc .vmem S2048x2500 .bf16) (harg2 : arg2.IsWhole)
    (arg3 : Memref sig .tc .vmem S1x2500 .f32) (harg3 : arg3.IsWhole) (arg4 : Memref sig .tc .vmem S400x2500 .f32) (harg4 : arg4.IsWhole)
    (x0 : Vec F S400x2048 .bf16) (x1 : Vec F S2048x2500 .bf16) (x2 : Vec F S1x2500 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the run above applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5Body.lean ====
/-
  The body of the first classifier layer's product (rows of the mended feature matrix times its weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

set_option maxHeartbeats 1000000 in
/-- The body on whole staging buffers. -/
theorem sound_kernel5 (c : Dev nD) (E : Set ℕ) (i : grid5.Coords)
    (arg1 : Memref sig .tc .vmem S2000x500 .f32) (harg1 : arg1.IsWhole) (arg2 : Memref sig .tc .vmem S500x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x500 .f32) (x1 : Vec F S500x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so the run above applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6Body.lean ====
/-
  The body of the second classifier layer's product (rows of the classifier's hidden features times its weight, a zero row added) runs: on whole staging buffers holding the three input blocks it terminates without a
  fault, leaves the inputs as they were and the output buffer at the store's value (the dead load of the output
  buffer reads whatever it holds); hence the pipeline library's obligation at every grid point.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.R6Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

set_option maxHeartbeats 1000000 in
/-- The body on whole staging buffers. -/
theorem sound_kernel6 (c : Dev nD) (E : Set ℕ) (i : grid6.Coords)
    (arg1 : Memref sig .tc .vmem S2000x256 .f32) (harg1 : arg1.IsWhole) (arg2 : Memref sig .tc .vmem S256x16 .bf16) (harg2 : arg2.IsWhole)
    (arg3 : Memref sig .tc .vmem S1x16 .f32) (harg3 : arg3.IsWhole) (arg4 : Memref sig .tc .vmem S2000x16 .f32) (harg4 : arg4.IsWhole)
    (x0 : Vec F S2000x256 .f32) (x1 : Vec F S256x16 .bf16) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so the run above applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/-
  The kernel program's main function as a run: host stretches and the seven dense layers' launches in order, each entered
  from the buffer contents the fold names and left at the next; every weakly fair execution from a memory with zero
  counters terminates without a fault, and every unscoped buffer ends at the fold's last contents.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.Fold
import proofs.«123903_j63771674411482_1_alg».proof.Proof.KI.R0Body
import proofs.«123903_j63771674411482_1_alg».proof.Proof.KI.R1Body
import proofs.«123903_j63771674411482_1_alg».proof.Proof.KI.R2Body
import proofs.«123903_j63771674411482_1_alg».proof.Proof.KI.R3Body
import proofs.«123903_j63771674411482_1_alg».proof.Proof.KI.R4Body
import proofs.«123903_j63771674411482_1_alg».proof.Proof.KI.R5Body
import proofs.«123903_j63771674411482_1_alg».proof.Proof.KI.R6Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every launch's data, each at the contents its launch is entered from. -/
def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V10 m) c
  | ⟨3, _⟩ => fun c => dat3 (V11 m) c
  | ⟨4, _⟩ => fun c => dat4 (V12 m) c
  | ⟨5, _⟩ => fun c => dat5 (V18 m) c
  | ⟨6, _⟩ => fun c => dat6 (V21 m) c

/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W24 m c) ∗ ∃ r, prngReg c r)

set_option backward.isDefEq.respectTransparency.types false in
/-- Launch 0: entered from every unscoped buffer at `W1`, left at `W2`. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W4`, left at `W5`. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ Lz lvz 1 fun _ _ => rfl
  pre c := iprop(StableHlo.held (c : Thread nD τ) (Pipeline.ucRefs τ sig) (W4 m c) ∗ Rd c)
  post c := iprop(StableHlo.held (c : Thread nD τ) (Pipeline.ucRefs τ sig) (W5 m c) ∗ Rd c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W10`, left at `W11`. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ Lz lvz 2 fun _ _ => rfl
  pre c := iprop(StableHlo.held (c : Thread nD τ) (Pipeline.ucRefs τ sig) (W10 m c) ∗ Rd c)
  post c := iprop(StableHlo.held (c : Thread nD τ) (Pipeline.ucRefs τ sig) (W11 m c) ∗ Rd c)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W11`, left at `W12`. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (V11 m) c).loose
  hwaits := Pipeline.hwaits_of_owed_zero _ _ _ _ Lz lvz 3 fun _ _ => rfl
  pre c := iprop(StableHlo.held (c : Thread nD τ) (Pipeline.ucRefs τ sig) (W11 m c) ∗ Rd c)
  post c := iprop(StableHlo.held (c : Thread nD τ) (Pipeline.ucRefs τ sig) (W12 m c) ∗ Rd c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V11 m c) (V12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W12`, left at `W13`. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ Lz lvz 4 fun _ _ => rfl
  pre c := iprop(StableHlo.held (c : Thread nD τ) (Pipeline.ucRefs τ sig) (W12 m c) ∗ Rd c)
  post c := iprop(StableHlo.held (c : Thread nD τ) (Pipeline.ucRefs τ sig) (W13 m c) ∗ Rd c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `W18`, left at `W19`. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (V18 m) c).loose
  hwaits := Pipeline.hwaits_of_owed_zero _ _ _ _ Lz lvz 5 fun _ _ => rfl
  pre c := iprop(StableHlo.held (c : Thread nD τ) (Pipeline.ucRefs τ sig) (W18 m c) ∗ Rd c)
  post c := iprop(StableHlo.held (c : Thread nD τ) (Pipeline.ucRefs τ sig) (W19 m c) ∗ Rd c)
  X c := iprop(∃ r, prngReg c r)
  Y c := iprop(∃ r, prngReg c r)
  Z c := Pipeline.unscopedRest (Ix := Unit) (Name := ℕ) (U := UR sig nD τ) (Lvl := ℕ) spec5 c (V18 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V18 m c) (V19 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: entered from every unscoped buffer at `W21`, left at `W22`. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (V21 m) c).loose
  hwaits := Pipeline.hwaits_of_owed_zero _ _ _ _ Lz lvz 6 fun _ _ => rfl
  pre c := iprop(StableHlo.held (c : Thread nD τ) (Pipeline.ucRefs τ sig) (W21 m c) ∗ Rd c)
  post c := iprop(StableHlo.held (c : Thread nD τ) (Pipeline.ucRefs τ sig) (W22 m c) ∗ Rd c)
  X c := iprop(∃ r, prngReg c r)
  Y c := iprop(∃ r, prngReg c r)
  Z c := Pipeline.unscopedRest (Ix := Unit) (Name := ℕ) (U := UR sig nD τ) (Lvl := ℕ) spec6 c (V21 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V21 m c) (V22 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The items of the main function in order. -/
abbrev segs : List (Pipeline.Seg (pcfgs (F := F)) adm (pdats m) () defs₀ Variants.none Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .host (hseg hostOps2_2 hostOps2_2_sub hostOps2_2_fresh (W7 m)),
    .host (hseg hostOps2_3 hostOps2_3_sub hostOps2_3_fresh (W8 m)),
    .host (hseg hostOps2_4 hostOps2_4_sub hostOps2_4_fresh (W9 m)),
    .region (reg2 m),
    .region (reg3 m),
    .region (reg4 m),
    .host (hseg hostOps5 hostOps5_sub hostOps5_fresh (W13 m)),
    .host (hseg hostOps5_1 hostOps5_1_sub hostOps5_1_fresh (W14 m)),
    .host (hseg hostOps5_2 hostOps5_2_sub hostOps5_2_fresh (W15 m)),
    .host (hseg hostOps5_3 hostOps5_3_sub hostOps5_3_fresh (W16 m)),
    .host (hseg hostOps5_4 hostOps5_4_sub hostOps5_4_fresh (W17 m)),
    .region (reg5 m),
    .host (hseg hostOps6 hostOps6_sub hostOps6_fresh (W19 m)),
    .host (hseg hostOps6_1 hostOps6_1_sub hostOps6_1_fresh (W20 m)),
    .region (reg6 m),
    .host (hseg hostOps7 hostOps7_sub hostOps7_fresh (W22 m)),
    .host (hseg hostOps7_1 hostOps7_1_sub hostOps7_1_fresh (W23 m)) ]

theorem main_run (c : Dev nD) : main (F := F) c = Pipeline.Seg.run (segs m) := (main_chain c).trans (by chain_rfl)

set_option backward.isDefEq.respectTransparency.types false in
/-- Every weakly fair execution of the main function from `m` with zero counters terminates without a fault, and every
    unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W24 m c) ∗ Rd c)
        ⊢ iprop(Tend m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨⟨Hh, -⟩, HSI⟩
      unfold StableHlo.held
      imodintro
      iapply (pointsTo_read_all (Pipeline.ucRefs τ sig) (fun b => (((c : Thread nD τ)).1, b)) (W24 m c) s')
      isplitl [Hh] <;> iassumption)
    (hQ := fun s h c => h c)

end Cert.KernelIdeal.Hand

end
-- ==== Proof.KI.Frame.lean ====
/-
  The frame of the kernel program: no item of its main function writes an argument array (a host stretch writes only its own
  results, a launch only its output array), so each argument's buffer, followed back through the fold, holds its launch
  contents at the end of every execution.
-/
import proofs.«123903_j63771674411482_1_alg».proof.Proof.Gen.KernelIdeal.Launch
import proofs.«123903_j63771674411482_1_alg».proof.Proof.Gen.KernelIdeal.Skeleton
import proofs.«123903_j63771674411482_1_alg».proof.Proof.Gen.KernelIdeal.Points
import proofs.«123903_j63771674411482_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W24_keep (c : Dev nD) (r : Ref sig .tc)
    (h1 : r ∉ hostOps0_W)
    (h2 : r ≠ main_v10)
    (h3 : r ∉ hostOps1_W)
    (h4 : r ∉ hostOps1_1_W)
    (h5 : r ≠ main_v28)
    (h6 : r ∉ hostOps2_W)
    (h7 : r ∉ hostOps2_1_W)
    (h8 : r ∉ hostOps2_2_W)
    (h9 : r ∉ hostOps2_3_W)
    (h10 : r ∉ hostOps2_4_W)
    (h11 : r ≠ main_v55)
    (h12 : r ≠ main_v56)
    (h13 : r ≠ main_v57)
    (h14 : r ∉ hostOps5_W)
    (h15 : r ∉ hostOps5_1_W)
    (h16 : r ∉ hostOps5_2_W)
    (h17 : r ∉ hostOps5_3_W)
    (h18 : r ∉ hostOps5_4_W)
    (h19 : r ≠ main_v116)
    (h20 : r ∉ hostOps6_W)
    (h21 : r ∉ hostOps6_1_W)
    (h22 : r ≠ main_v134)
    (h23 : r ∉ hostOps7_W)
    (h24 : r ∉ hostOps7_1_W) :
    W24 m c r = m ((c : Thread nD τ).loc r) :=
  (W24_of m c r h24).trans <|
  (W23_of m c r h23).trans <|
  (W22_of m c r h22).trans <|
  (W21_of m c r h21).trans <|
  (W20_of m c r h20).trans <|
  (W19_of m c r h19).trans <|
  (W18_of m c r h18).trans <|
  (W17_of m c r h17).trans <|
  (W16_of m c r h16).trans <|
  (W15_of m c r h15).trans <|
  (W14_of m c r h14).trans <|
  (W13_of m c r h13).trans <|
  (W12_of m c r h12).trans <|
  (W11_of m c r h11).trans <|
  (W10_of m c r h10).trans <|
  (W9_of m c r h9).trans <|
  (W8_of m c r h8).trans <|
  (W7_of m c r h7).trans <|
  (W6_of m c r h6).trans <|
  (W5_of m c r h5).trans <|
  (W4_of m c r h4).trans <|
  (W3_of m c r h3).trans <|
  (W2_of m c r h2).trans <|
  (W1_of m c r h1).trans <|
  rfl

theorem W24_main_arg0 (c : Dev nD) : W24 m c main_arg0 = m ((c : Thread nD τ).loc main_arg0) :=
  W24_keep m c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg1 (c : Dev nD) : W24 m c main_arg1 = m ((c : Thread nD τ).loc main_arg1) :=
  W24_keep m c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg2 (c : Dev nD) : W24 m c main_arg2 = m ((c : Thread nD τ).loc main_arg2) :=
  W24_keep m c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg3 (c : Dev nD) : W24 m c main_arg3 = m ((c : Thread nD τ).loc main_arg3) :=
  W24_keep m c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg4 (c : Dev nD) : W24 m c main_arg4 = m ((c : Thread nD τ).loc main_arg4) :=
  W24_keep m c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg5 (c : Dev nD) : W24 m c main_arg5 = m ((c : Thread nD τ).loc main_arg5) :=
  W24_keep m c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg6 (c : Dev nD) : W24 m c main_arg6 = m ((c : Thread nD τ).loc main_arg6) :=
  W24_keep m c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg7 (c : Dev nD) : W24 m c main_arg7 = m ((c : Thread nD τ).loc main_arg7) :=
  W24_keep m c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg8 (c : Dev nD) : W24 m c main_arg8 = m ((c : Thread nD τ).loc main_arg8) :=
  W24_keep m c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg9 (c : Dev nD) : W24 m c main_arg9 = m ((c : Thread nD τ).loc main_arg9) :=
  W24_keep m c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg10 (c : Dev nD) : W24 m c main_arg10 = m ((c : Thread nD τ).loc main_arg10) :=
  W24_keep m c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg11 (c : Dev nD) : W24 m c main_arg11 = m ((c : Thread nD τ).loc main_arg11) :=
  W24_keep m c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg12 (c : Dev nD) : W24 m c main_arg12 = m ((c : Thread nD τ).loc main_arg12) :=
  W24_keep m c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg13 (c : Dev nD) : W24 m c main_arg13 = m ((c : Thread nD τ).loc main_arg13) :=
  W24_keep m c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg14 (c : Dev nD) : W24 m c main_arg14 = m ((c : Thread nD τ).loc main_arg14) :=
  W24_keep m c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg15 (c : Dev nD) : W24 m c main_arg15 = m ((c : Thread nD τ).loc main_arg15) :=
  W24_keep m c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg16 (c : Dev nD) : W24 m c main_arg16 = m ((c : Thread nD τ).loc main_arg16) :=
  W24_keep m c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg17 (c : Dev nD) : W24 m c main_arg17 = m ((c : Thread nD τ).loc main_arg17) :=
  W24_keep m c main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg18 (c : Dev nD) : W24 m c main_arg18 = m ((c : Thread nD τ).loc main_arg18) :=
  W24_keep m c main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg19 (c : Dev nD) : W24 m c main_arg19 = m ((c : Thread nD τ).loc main_arg19) :=
  W24_keep m c main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg20 (c : Dev nD) : W24 m c main_arg20 = m ((c : Thread nD τ).loc main_arg20) :=
  W24_keep m c main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W24_main_arg21 (c : Dev nD) : W24 m c main_arg21 = m ((c : Thread nD τ).loc main_arg21) :=
  W24_keep m c main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide)

/-- Every weakly fair execution of the main function terminates without a fault with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (W24_main_arg0 m c),
      (h c _ (mem_uc main_arg1 (by decide))).trans (W24_main_arg1 m c),
      (h c _ (mem_uc main_arg2 (by decide))).trans (W24_main_arg2 m c),
      (h c _ (mem_uc main_arg3 (by decide))).trans (W24_main_arg3 m c),
      (h c _ (mem_uc main_arg4 (by decide))).trans (W24_main_arg4 m c),
      (h c _ (mem_uc main_arg5 (by decide))).trans (W24_main_arg5 m c),
      (h c _ (mem_uc main_arg6 (by decide))).trans (W24_main_arg6 m c),
      (h c _ (mem_uc main_arg7 (by decide))).trans (W24_main_arg7 m c),
      (h c _ (mem_uc main_arg8 (by decide))).trans (W24_main_arg8 m c),
      (h c _ (mem_uc main_arg9 (by decide))).trans (W24_main_arg9 m c),
      (h c _ (mem_uc main_arg10 (by decide))).trans (W24_main_arg10 m c),
      (h c _ (mem_uc main_arg11 (by decide))).trans (W24_main_arg11 m c),
      (h c _ (mem_uc main_arg12 (by decide))).trans (W24_main_arg12 m c),
      (h c _ (mem_uc main_arg13 (by decide))).trans (W24_main_arg13 m c),
      (h c _ (mem_uc main_arg14 (by decide))).trans (W24_main_arg14 m c),
      (h c _ (mem_uc main_arg15 (by decide))).trans (W24_main_arg15 m c),
      (h c _ (mem_uc main_arg16 (by decide))).trans (W24_main_arg16 m c),
      (h c _ (mem_uc main_arg17 (by decide))).trans (W24_main_arg17 m c),
      (h c _ (mem_uc main_arg18 (by decide))).trans (W24_main_arg18 m c),
      (h c _ (mem_uc main_arg19 (by decide))).trans (W24_main_arg19 m c),
      (h c _ (mem_uc main_arg20 (by decide))).trans (W24_main_arg20 m c),
      (h c _ (mem_uc main_arg21 (by decide))).trans (W24_main_arg21 m c)⟩)
    (run_all m ρ)

/-- The same run with the three result buffers named: each ends at the fold's last contents. -/
theorem run_named : θ_run defs (onTc (τ := τ) (main (F := F))) ⟨m, fun _ => 0, ρ⟩ (fun r => ∀ c : Dev nD,
      r.2.mem ((c.tc : Thread nD τ).loc main_v50) = W24 m c main_v50
      ∧ r.2.mem ((c.tc : Thread nD τ).loc main_v57) = W24 m c main_v57
      ∧ r.2.mem ((c.tc : Thread nD τ).loc main_v151) = W24 m c main_v151
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v50 (by decide)), h c _ (mem_uc main_v57 (by decide)), h c _ (mem_uc main_v151 (by decide)),
      (h c _ (mem_uc main_arg0 (by decide))).trans (W24_main_arg0 m c),
      (h c _ (mem_uc main_arg1 (by decide))).trans (W24_main_arg1 m c),
      (h c _ (mem_uc main_arg2 (by decide))).trans (W24_main_arg2 m c),
      (h c _ (mem_uc main_arg3 (by decide))).trans (W24_main_arg3 m c),
      (h c _ (mem_uc main_arg4 (by decide))).trans (W24_main_arg4 m c),
      (h c _ (mem_uc main_arg5 (by decide))).trans (W24_main_arg5 m c),
      (h c _ (mem_uc main_arg6 (by decide))).trans (W24_main_arg6 m c),
      (h c _ (mem_uc main_arg7 (by decide))).trans (W24_main_arg7 m c),
      (h c _ (mem_uc main_arg8 (by decide))).trans (W24_main_arg8 m c),
      (h c _ (mem_uc main_arg9 (by decide))).trans (W24_main_arg9 m c),
      (h c _ (mem_uc main_arg10 (by decide))).trans (W24_main_arg10 m c),
      (h c _ (mem_uc main_arg11 (by decide))).trans (W24_main_arg11 m c),
      (h c _ (mem_uc main_arg12 (by decide))).trans (W24_main_arg12 m c),
      (h c _ (mem_uc main_arg13 (by decide))).trans (W24_main_arg13 m c),
      (h c _ (mem_uc main_arg14 (by decide))).trans (W24_main_arg14 m c),
      (h c _ (mem_uc main_arg15 (by decide))).trans (W24_main_arg15 m c),
      (h c _ (mem_uc main_arg16 (by decide))).trans (W24_main_arg16 m c),
      (h c _ (mem_uc main_arg17 (by decide))).trans (W24_main_arg17 m c),
      (h c _ (mem_uc main_arg18 (by decide))).trans (W24_main_arg18 m c),
      (h c _ (mem_uc main_arg19 (by decide))).trans (W24_main_arg19 m c),
      (h c _ (mem_uc main_arg20 (by decide))).trans (W24_main_arg20 m c),
      (h c _ (mem_uc main_arg21 (by decide))).trans (W24_main_arg21 m c)⟩)
    (run_all m ρ)

end Cert.KernelIdeal.Hand

end
-- ==== Proof.Dense.lean ====
/-
  A dense layer as one function of its three arrays, over the extended reals: entry (p, q) of the result is the sum over j
  of x (p, j) · w (j, q), plus entry q of a one-row array r; optionally clamped below at zero, or passed through tanh.
  The kernel side (blocks of rows, one grid point each) and the reference side (one whole product, a broadcast bias)
  are both compared with these.
-/
import Idealize.ShloMosaic.Lib.ValueIdx
import Idealize.ShloMosaic.PureOps.Ideal

noncomputable section

namespace Cert.Dense

open Idealize.ShloMosaic Idealize.ShloMosaic.ValueIdx
open scoped BigOperators

variable {a k b : Nat}

/-- Rows of `x` times `w`, plus the row `r`. -/
def lin (x : (⟨2, ![a, k]⟩ : Shape).Idx → EReal) (w : (⟨2, ![k, b]⟩ : Shape).Idx → EReal)
    (r : (⟨2, ![1, b]⟩ : Shape).Idx → EReal) : (⟨2, ![a, b]⟩ : Shape).Idx → EReal :=
  fun i => (∑ j : Fin k, x (ix2 (n0 := a) (i 0) j) * w (ix2 (n1 := b) j (i 1))) + r (ix2 (n1 := b) (0 : Fin 1) (i 1))

theorem lin_apply (x : (⟨2, ![a, k]⟩ : Shape).Idx → EReal) (w : (⟨2, ![k, b]⟩ : Shape).Idx → EReal)
    (r : (⟨2, ![1, b]⟩ : Shape).Idx → EReal) (p : Fin a) (q : Fin b) :
    lin x w r (ix2 p q) = (∑ j : Fin k, x (ix2 p j) * w (ix2 j q)) + r (ix2 (0 : Fin 1) q) := rfl

/-- The same, clamped below at zero. -/
def linRelu (x : (⟨2, ![a, k]⟩ : Shape).Idx → EReal) (w : (⟨2, ![k, b]⟩ : Shape).Idx → EReal)
    (r : (⟨2, ![1, b]⟩ : Shape).Idx → EReal) : (⟨2, ![a, b]⟩ : Shape).Idx → EReal :=
  fun i => max (lin x w r i) 0

/-- The same, through the extended-real tanh of the exact model. -/
def linTanh (x : (⟨2, ![a, k]⟩ : Shape).Idx → EReal) (w : (⟨2, ![k, b]⟩ : Shape).Idx → EReal)
    (r : (⟨2, ![1, b]⟩ : Shape).Idx → EReal) : (⟨2, ![a, b]⟩ : Shape).Idx → EReal :=
  fun i => Ideal.tanh (lin x w r i)

end Cert.Dense

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KI.BridgeDense.lean ====
/-
  A dense layer's three spellings on the host, each equal to the one function of three arrays that the tiled
  product computes: (i) a plain product with nothing added — the weight first cut to the narrower float format,
  which is the identity on extended reals, and a row of zeros added, which changes nothing —; (ii) a product, a
  bias vector broadcast to a row and then down the rows and added, and a maximum against a zero array; (iii) the
  same sum passed through tanh. In (ii) and (iii) the bias arrives at the tiled product as the vector recast to a
  one-row array, which is the vector broadcast along the second axis. Over any extents.
-/
import proofs.«123903_j63771674411482_1_alg».proof.Proof.Dense
import proofs.«123903_j63771674411482_1_alg».proof.Proof.LibPlainDot
import proofs.«123903_j63771674411482_1_alg».proof.Proof.LibRowBroadcasts
import Idealize.ShloMosaic.PureOps.Ideal.Laws

noncomputable section

namespace Cert.DenseOnHost

open Cert.Dense Idealize.ShloMosaic Idealize.ShloMosaic.ValueIdx
open scoped BigOperators

variable {a k b : Nat}

/-- A zero constant broadcast to a one-row array is zero at every entry. -/
theorem zeroRow_apply (hb : (⟨0, ![]⟩ : Shape).BroadcastsInDim ⟨2, ![1, b]⟩ (![] : Fin 0 → Fin 2)) (j : (⟨2, ![1, b]⟩ : Shape).Idx) :
    broadcastInDim ⟨2, ![1, b]⟩ (![] : Fin 0 → Fin 2) hb (constant (F := Ideal) ⟨0, ![]⟩ .f32 0x00000000#32) j = 0 := by
  rw [broadcastInDim_apply _ hb _ j ix0 (fun ax => ax.elim0), constant_apply, Ideal.ofBits_zero_f32]

/-- A zero constant broadcast to a whole array is zero at every entry. -/
theorem zeroSplat_apply (hb : (⟨0, ![]⟩ : Shape).BroadcastsInDim ⟨2, ![a, b]⟩ (![] : Fin 0 → Fin 2)) (j : (⟨2, ![a, b]⟩ : Shape).Idx) :
    broadcastInDim ⟨2, ![a, b]⟩ (![] : Fin 0 → Fin 2) hb (constant (F := Ideal) ⟨0, ![]⟩ .f32 0x00000000#32) j = 0 := by
  rw [broadcastInDim_apply _ hb _ j ix0 (fun ax => ax.elim0), constant_apply, Ideal.ofBits_zero_f32]

variable (wf : DotDims.WF ⟨2, ![a, k]⟩ ⟨2, ![k, b]⟩ ⟨2, ![a, b]⟩ [1] [0] [0] [1] [] [])

/-- (i) Rows times the narrowed weight, a zero row added: the plain product. -/
theorem lin_zeroRow (x : FVec Ideal ⟨2, ![a, k]⟩ .f32) (w : FVec Ideal ⟨2, ![k, b]⟩ .f32) (hlt : FTy.bits .bf16 < FTy.bits .f32)
    (hb : (⟨0, ![]⟩ : Shape).BroadcastsInDim ⟨2, ![1, b]⟩ (![] : Fin 0 → Fin 2)) :
    lin x (truncf .bf16 w hlt) (broadcastInDim ⟨2, ![1, b]⟩ (![] : Fin 0 → Fin 2) hb (constant (F := Ideal) ⟨0, ![]⟩ .f32 0x00000000#32))
      = Host.dotGeneral (Cert.Lib.PlainDot.dims wf) none x w := by
  funext i
  obtain ⟨p, q, rfl⟩ : ∃ (p : Fin a) (q : Fin b), i = ix2 p q := ⟨i 0, i 1, eq_ix2 i⟩
  rw [lin_apply, zeroRow_apply, add_zero, Cert.Lib.PlainDot.dotGeneral_apply]
  rfl

/-- The sum under (ii) and (iii): the product plus the bias at the column, read at an entry. -/
theorem lin_bias_apply (x : FVec Ideal ⟨2, ![a, k]⟩ .f32) (w : FVec Ideal ⟨2, ![k, b]⟩ .f32) (hlt : FTy.bits .bf16 < FTy.bits .f32)
    (bias : FVec Ideal ⟨1, ![b]⟩ .f32) (hc : (⟨1, ![b]⟩ : Shape).ShapeCasts ⟨2, ![1, b]⟩)
    (hb1 : (⟨1, ![b]⟩ : Shape).BroadcastsInDim ⟨2, ![1, b]⟩ ![1])
    (hb2 : (⟨2, ![1, b]⟩ : Shape).BroadcastsInDim ⟨2, ![a, b]⟩ ![0, 1]) (p : Fin a) (q : Fin b) :
    lin x (truncf .bf16 w hlt) (shapeCast ⟨2, ![1, b]⟩ bias hc) (ix2 p q)
      = addf (Host.dotGeneral (Cert.Lib.PlainDot.dims wf) none x w)
          (broadcastInDim ⟨2, ![a, b]⟩ ![0, 1] hb2 (broadcastInDim ⟨2, ![1, b]⟩ ![1] hb1 bias)) (ix2 p q) := by
  rw [lin_apply, addf_apply, Cert.Lib.PlainDot.dotGeneral_apply, Cert.Lib.Rows.dimRow_apply,
    Cert.Lib.Rows.castRow_eq_dimRow bias hc hb1]
  rfl

/-- (ii) Clamped below at zero. -/
theorem linRelu_bias (x : FVec Ideal ⟨2, ![a, k]⟩ .f32) (w : FVec Ideal ⟨2, ![k, b]⟩ .f32) (hlt : FTy.bits .bf16 < FTy.bits .f32)
    (bias : FVec Ideal ⟨1, ![b]⟩ .f32) (hc : (⟨1, ![b]⟩ : Shape).ShapeCasts ⟨2, ![1, b]⟩)
    (hb1 : (⟨1, ![b]⟩ : Shape).BroadcastsInDim ⟨2, ![1, b]⟩ ![1])
    (hb2 : (⟨2, ![1, b]⟩ : Shape).BroadcastsInDim ⟨2, ![a, b]⟩ ![0, 1])
    (hb0 : (⟨0, ![]⟩ : Shape).BroadcastsInDim ⟨2, ![a, b]⟩ (![] : Fin 0 → Fin 2)) :
    linRelu x (truncf .bf16 w hlt) (shapeCast ⟨2, ![1, b]⟩ bias hc)
      = maximumf (addf (Host.dotGeneral (Cert.Lib.PlainDot.dims wf) none x w)
          (broadcastInDim ⟨2, ![a, b]⟩ ![0, 1] hb2 (broadcastInDim ⟨2, ![1, b]⟩ ![1] hb1 bias)))
          (broadcastInDim ⟨2, ![a, b]⟩ (![] : Fin 0 → Fin 2) hb0 (constant (F := Ideal) ⟨0, ![]⟩ .f32 0x00000000#32)) := by
  funext i
  obtain ⟨p, q, rfl⟩ : ∃ (p : Fin a) (q : Fin b), i = ix2 p q := ⟨i 0, i 1, eq_ix2 i⟩
  rw [maximumf_apply, zeroSplat_apply, ← lin_bias_apply wf x w hlt bias hc hb1 hb2 p q]
  rfl

/-- (iii) Through tanh. -/
theorem linTanh_bias (x : FVec Ideal ⟨2, ![a, k]⟩ .f32) (w : FVec Ideal ⟨2, ![k, b]⟩ .f32) (hlt : FTy.bits .bf16 < FTy.bits .f32)
    (bias : FVec Ideal ⟨1, ![b]⟩ .f32) (hc : (⟨1, ![b]⟩ : Shape).ShapeCasts ⟨2, ![1, b]⟩)
    (hb1 : (⟨1, ![b]⟩ : Shape).BroadcastsInDim ⟨2, ![1, b]⟩ ![1])
    (hb2 : (⟨2, ![1, b]⟩ : Shape).BroadcastsInDim ⟨2, ![a, b]⟩ ![0, 1]) :
    linTanh x (truncf .bf16 w hlt) (shapeCast ⟨2, ![1, b]⟩ bias hc)
      = Host.tanh (addf (Host.dotGeneral (Cert.Lib.PlainDot.dims wf) none x w)
          (broadcastInDim ⟨2, ![a, b]⟩ ![0, 1] hb2 (broadcastInDim ⟨2, ![1, b]⟩ ![1] hb1 bias))) := by
  funext i
  obtain ⟨p, q, rfl⟩ : ∃ (p : Fin a) (q : Fin b), i = ix2 p q := ⟨i 0, i 1, eq_ix2 i⟩
  show Ideal.tanh _ = Ideal.tanh _
  rw [← lin_bias_apply wf x w hlt bias hc hb1 hb2 p q]

end Cert.DenseOnHost

end
-- ==== Proof.KI.BridgeHyps.lean ====
/-
  What each of the seven launches leaves in its output array, stated as a proposition about any contents the launch may
  find: the dense function (rows times weight plus a one-row array; clamped at zero for the generator's first two layers,
  through tanh for its third) of the launch's three input arrays. The propositions are proved with the tiled bodies; the
  chain through the main function takes them as hypotheses.
-/
import proofs.«123903_j63771674411482_1_alg».proof.Proof.KI.Fold
import proofs.«123903_j63771674411482_1_alg».proof.Proof.Dense

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

/-- The first encoder layer: node features times the first weight. -/
abbrev LaunchVal0 : Prop := ∀ (V : (c : Dev nD) → (b : Ref sig .tc) → Buf (Elt Ideal) ((c : Thread nD τ).loc b)) (c : Dev nD),
    (dat0 (F := Ideal) V c).arrAt 3 cfg0.N = Cert.Dense.lin (a := 20000) (k := 500) (b := 256) (V c main_arg0) (V c main_v0) (V c main_v7)
/-- The second encoder layer. -/
abbrev LaunchVal1 : Prop := ∀ (V : (c : Dev nD) → (b : Ref sig .tc) → Buf (Elt Ideal) ((c : Thread nD τ).loc b)) (c : Dev nD),
    (dat1 (F := Ideal) V c).arrAt 3 cfg1.N = Cert.Dense.lin (a := 20000) (k := 256) (b := 64) (V c main_v27) (V c main_v1) (V c main_v8)
/-- The generator's first layer, clamped at zero. -/
abbrev LaunchVal2 : Prop := ∀ (V : (c : Dev nD) → (b : Ref sig .tc) → Buf (Elt Ideal) ((c : Thread nD τ).loc b)) (c : Dev nD),
    (dat2 (F := Ideal) V c).arrAt 3 cfg2.N = Cert.Dense.linRelu (a := 20000) (k := 64) (b := 256) (V c main_v51) (V c main_v2) (V c main_v52)
/-- The generator's second layer, clamped at zero. -/
abbrev LaunchVal3 : Prop := ∀ (V : (c : Dev nD) → (b : Ref sig .tc) → Buf (Elt Ideal) ((c : Thread nD τ).loc b)) (c : Dev nD),
    (dat3 (F := Ideal) V c).arrAt 3 cfg3.N = Cert.Dense.linRelu (a := 20000) (k := 256) (b := 2048) (V c main_v55) (V c main_v3) (V c main_v53)
/-- The generator's third layer, through tanh. -/
abbrev LaunchVal4 : Prop := ∀ (V : (c : Dev nD) → (b : Ref sig .tc) → Buf (Elt Ideal) ((c : Thread nD τ).loc b)) (c : Dev nD),
    (dat4 (F := Ideal) V c).arrAt 3 cfg4.N = Cert.Dense.linTanh (a := 20000) (k := 2048) (b := 2500) (V c main_v56) (V c main_v4) (V c main_v54)
/-- The classifier's first layer on the mended graph. -/
abbrev LaunchVal5 : Prop := ∀ (V : (c : Dev nD) → (b : Ref sig .tc) → Buf (Elt Ideal) ((c : Thread nD τ).loc b)) (c : Dev nD),
    (dat5 (F := Ideal) V c).arrAt 3 cfg5.N = Cert.Dense.lin (a := 120000) (k := 500) (b := 256) (V c main_v59) (V c main_v5) (V c main_v7)
/-- The classifier's second layer. -/
abbrev LaunchVal6 : Prop := ∀ (V : (c : Dev nD) → (b : Ref sig .tc) → Buf (Elt Ideal) ((c : Thread nD τ).loc b)) (c : Dev nD),
    (dat6 (F := Ideal) V c).arrAt 3 cfg6.N = Cert.Dense.lin (a := 120000) (k := 256) (b := 16) (V c main_v133) (V c main_v6) (V c main_v9)

end Cert.KernelIdeal.Hand

end
-- ==== Proof.KI.BridgeRead.lean ====
/-
  Reading a buffer after a line of host operations: unfold the line operation by operation; each operation's result at
  its own buffer is its function of its operands' contents, and at any other buffer what was there; an operand named by
  position in a literal family of buffers (the operands of a concatenation) is that family's entry. Rewriting passes are repeated
  until nothing changes; within a pass every repeated operand is visited once.
-/
import Idealize.ShloMosaic.Lib.StableHlo.Run
import Mathlib.Data.Fin.VecNotation

namespace Cert.KernelIdeal.Hand

open Idealize.ShloMosaic.StableHlo in
/-- Rewrites `after ops V (Proc.devRef .tc r)` for a literal list `ops` to the operations' composed term over `V` at the
    buffers the list reads and does not write. -/
macro "host_results" : tactic =>
  `(tactic| repeat (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Matrix.cons_val_zero, Matrix.cons_val_one, Matrix.cons_val]))

end Cert.KernelIdeal.Hand
-- ==== Proof.KI.BridgeKeep.lean ====
/-
  Buffers nothing writes after the first stretch of host operations keep, at every later boundary of the main function,
  the contents they have after that stretch; the arguments, which that stretch does not write either, keep their launch
  contents throughout.
-/
import proofs.«123903_j63771674411482_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable {F : FTy → Type} [FloatOps F]

variable (m : (ℓ : Loc nD τ sig) → Buf (Elt F) ℓ) (c : Dev nD)

/-- Every buffer some item of the main function after its first stretch writes. -/
abbrev later : List (Ref sig .tc) :=
  [main_v10] ++ hostOps1_W ++ hostOps1_1_W ++ [main_v28] ++ hostOps2_W ++ hostOps2_1_W ++ hostOps2_2_W ++ hostOps2_3_W ++ hostOps2_4_W ++ [main_v55] ++ [main_v56] ++ [main_v57] ++ hostOps5_W ++ hostOps5_1_W ++ hostOps5_2_W ++ hostOps5_3_W ++ hostOps5_4_W ++ [main_v116] ++ hostOps6_W ++ hostOps6_1_W ++ [main_v134] ++ hostOps7_W ++ hostOps7_1_W

private theorem nm {l l' : List (Ref sig .tc)} {r : Ref sig .tc} (h : r ∉ l') (hs : l ⊆ l') : r ∉ l := fun hm => h (hs hm)
private theorem ne_of {l' : List (Ref sig .tc)} {r y : Ref sig .tc} (h : r ∉ l') (hy : y ∈ l') : r ≠ y := fun e => h (e ▸ hy)

theorem W2_early (r : Ref sig .tc) (h : r ∉ later) : W2 m c r = W1 m c r :=
  (W2_of m c r (ne_of h (by decide))).trans (rfl)
theorem W3_early (r : Ref sig .tc) (h : r ∉ later) : W3 m c r = W1 m c r :=
  (W3_of m c r (nm h (by decide))).trans (W2_early m c r h)
theorem W4_early (r : Ref sig .tc) (h : r ∉ later) : W4 m c r = W1 m c r :=
  (W4_of m c r (nm h (by decide))).trans (W3_early m c r h)
theorem W5_early (r : Ref sig .tc) (h : r ∉ later) : W5 m c r = W1 m c r :=
  (W5_of m c r (ne_of h (by decide))).trans (W4_early m c r h)
theorem W6_early (r : Ref sig .tc) (h : r ∉ later) : W6 m c r = W1 m c r :=
  (W6_of m c r (nm h (by decide))).trans (W5_early m c r h)
theorem W7_early (r : Ref sig .tc) (h : r ∉ later) : W7 m c r = W1 m c r :=
  (W7_of m c r (nm h (by decide))).trans (W6_early m c r h)
theorem W8_early (r : Ref sig .tc) (h : r ∉ later) : W8 m c r = W1 m c r :=
  (W8_of m c r (nm h (by decide))).trans (W7_early m c r h)
theorem W9_early (r : Ref sig .tc) (h : r ∉ later) : W9 m c r = W1 m c r :=
  (W9_of m c r (nm h (by decide))).trans (W8_early m c r h)
theorem W10_early (r : Ref sig .tc) (h : r ∉ later) : W10 m c r = W1 m c r :=
  (W10_of m c r (nm h (by decide))).trans (W9_early m c r h)
theorem W11_early (r : Ref sig .tc) (h : r ∉ later) : W11 m c r = W1 m c r :=
  (W11_of m c r (ne_of h (by decide))).trans (W10_early m c r h)
theorem W12_early (r : Ref sig .tc) (h : r ∉ later) : W12 m c r = W1 m c r :=
  (W12_of m c r (ne_of h (by decide))).trans (W11_early m c r h)
theorem W13_early (r : Ref sig .tc) (h : r ∉ later) : W13 m c r = W1 m c r :=
  (W13_of m c r (ne_of h (by decide))).trans (W12_early m c r h)
theorem W14_early (r : Ref sig .tc) (h : r ∉ later) : W14 m c r = W1 m c r :=
  (W14_of m c r (nm h (by decide))).trans (W13_early m c r h)
theorem W15_early (r : Ref sig .tc) (h : r ∉ later) : W15 m c r = W1 m c r :=
  (W15_of m c r (nm h (by decide))).trans (W14_early m c r h)
theorem W16_early (r : Ref sig .tc) (h : r ∉ later) : W16 m c r = W1 m c r :=
  (W16_of m c r (nm h (by decide))).trans (W15_early m c r h)
theorem W17_early (r : Ref sig .tc) (h : r ∉ later) : W17 m c r = W1 m c r :=
  (W17_of m c r (nm h (by decide))).trans (W16_early m c r h)
theorem W18_early (r : Ref sig .tc) (h : r ∉ later) : W18 m c r = W1 m c r :=
  (W18_of m c r (nm h (by decide))).trans (W17_early m c r h)
theorem W19_early (r : Ref sig .tc) (h : r ∉ later) : W19 m c r = W1 m c r :=
  (W19_of m c r (ne_of h (by decide))).trans (W18_early m c r h)
theorem W20_early (r : Ref sig .tc) (h : r ∉ later) : W20 m c r = W1 m c r :=
  (W20_of m c r (nm h (by decide))).trans (W19_early m c r h)
theorem W21_early (r : Ref sig .tc) (h : r ∉ later) : W21 m c r = W1 m c r :=
  (W21_of m c r (nm h (by decide))).trans (W20_early m c r h)
theorem W22_early (r : Ref sig .tc) (h : r ∉ later) : W22 m c r = W1 m c r :=
  (W22_of m c r (ne_of h (by decide))).trans (W21_early m c r h)
theorem W23_early (r : Ref sig .tc) (h : r ∉ later) : W23 m c r = W1 m c r :=
  (W23_of m c r (nm h (by decide))).trans (W22_early m c r h)
theorem W24_early (r : Ref sig .tc) (h : r ∉ later) : W24 m c r = W1 m c r :=
  (W24_of m c r (nm h (by decide))).trans (W23_early m c r h)

/-- An argument, or any buffer no item writes, keeps its launch contents. -/
theorem W1_arg (r : Ref sig .tc) (h0 : r ∉ hostOps0_W) : W1 m c r = m ((c.tc : Thread nD τ).loc r) := W1_of m c r h0
theorem W2_arg (r : Ref sig .tc) (h0 : r ∉ hostOps0_W) (h : r ∉ later) : W2 m c r = m ((c.tc : Thread nD τ).loc r) :=
  (W2_early m c r h).trans (W1_of m c r h0)
theorem W3_arg (r : Ref sig .tc) (h0 : r ∉ hostOps0_W) (h : r ∉ later) : W3 m c r = m ((c.tc : Thread nD τ).loc r) :=
  (W3_early m c r h).trans (W1_of m c r h0)
theorem W4_arg (r : Ref sig .tc) (h0 : r ∉ hostOps0_W) (h : r ∉ later) : W4 m c r = m ((c.tc : Thread nD τ).loc r) :=
  (W4_early m c r h).trans (W1_of m c r h0)
theorem W5_arg (r : Ref sig .tc) (h0 : r ∉ hostOps0_W) (h : r ∉ later) : W5 m c r = m ((c.tc : Thread nD τ).loc r) :=
  (W5_early m c r h).trans (W1_of m c r h0)
theorem W6_arg (r : Ref sig .tc) (h0 : r ∉ hostOps0_W) (h : r ∉ later) : W6 m c r = m ((c.tc : Thread nD τ).loc r) :=
  (W6_early m c r h).trans (W1_of m c r h0)
theorem W7_arg (r : Ref sig .tc) (h0 : r ∉ hostOps0_W) (h : r ∉ later) : W7 m c r = m ((c.tc : Thread nD τ).loc r) :=
  (W7_early m c r h).trans (W1_of m c r h0)
theorem W8_arg (r : Ref sig .tc) (h0 : r ∉ hostOps0_W) (h : r ∉ later) : W8 m c r = m ((c.tc : Thread nD τ).loc r) :=
  (W8_early m c r h).trans (W1_of m c r h0)
theorem W9_arg (r : Ref sig .tc) (h0 : r ∉ hostOps0_W) (h : r ∉ later) : W9 m c r = m ((c.tc : Thread nD τ).loc r) :=
  (W9_early m c r h).trans (W1_of m c r h0)
theorem W10_arg (r : Ref sig .tc) (h0 : r ∉ hostOps0_W) (h : r ∉ later) : W10 m c r = m ((c.tc : Thread nD τ).loc r) :=
  (W10_early m c r h).trans (W1_of m c r h0)
theorem W11_arg (r : Ref sig .tc) (h0 : r ∉ hostOps0_W) (h : r ∉ later) : W11 m c r = m ((c.tc : Thread nD τ).loc r) :=
  (W11_early m c r h).trans (W1_of m c r h0)
theorem W12_arg (r : Ref sig .tc) (h0 : r ∉ hostOps0_W) (h : r ∉ later) : W12 m c r = m ((c.tc : Thread nD τ).loc r) :=
  (W12_early m c r h).trans (W1_of m c r h0)
theorem W13_arg (r : Ref sig .tc) (h0 : r ∉ hostOps0_W) (h : r ∉ later) : W13 m c r = m ((c.tc : Thread nD τ).loc r) :=
  (W13_early m c r h).trans (W1_of m c r h0)
theorem W14_arg (r : Ref sig .tc) (h0 : r ∉ hostOps0_W) (h : r ∉ later) : W14 m c r = m ((c.tc : Thread nD τ).loc r) :=
  (W14_early m c r h).trans (W1_of m c r h0)
theorem W15_arg (r : Ref sig .tc) (h0 : r ∉ hostOps0_W) (h : r ∉ later) : W15 m c r = m ((c.tc : Thread nD τ).loc r) :=
  (W15_early m c r h).trans (W1_of m c r h0)
theorem W16_arg (r : Ref sig .tc) (h0 : r ∉ hostOps0_W) (h : r ∉ later) : W16 m c r = m ((c.tc : Thread nD τ).loc r) :=
  (W16_early m c r h).trans (W1_of m c r h0)
theorem W17_arg (r : Ref sig .tc) (h0 : r ∉ hostOps0_W) (h : r ∉ later) : W17 m c r = m ((c.tc : Thread nD τ).loc r) :=
  (W17_early m c r h).trans (W1_of m c r h0)
theorem W18_arg (r : Ref sig .tc) (h0 : r ∉ hostOps0_W) (h : r ∉ later) : W18 m c r = m ((c.tc : Thread nD τ).loc r) :=
  (W18_early m c r h).trans (W1_of m c r h0)
theorem W19_arg (r : Ref sig .tc) (h0 : r ∉ hostOps0_W) (h : r ∉ later) : W19 m c r = m ((c.tc : Thread nD τ).loc r) :=
  (W19_early m c r h).trans (W1_of m c r h0)
theorem W20_arg (r : Ref sig .tc) (h0 : r ∉ hostOps0_W) (h : r ∉ later) : W20 m c r = m ((c.tc : Thread nD τ).loc r) :=
  (W20_early m c r h).trans (W1_of m c r h0)
theorem W21_arg (r : Ref sig .tc) (h0 : r ∉ hostOps0_W) (h : r ∉ later) : W21 m c r = m ((c.tc : Thread nD τ).loc r) :=
  (W21_early m c r h).trans (W1_of m c r h0)
theorem W22_arg (r : Ref sig .tc) (h0 : r ∉ hostOps0_W) (h : r ∉ later) : W22 m c r = m ((c.tc : Thread nD τ).loc r) :=
  (W22_early m c r h).trans (W1_of m c r h0)
theorem W23_arg (r : Ref sig .tc) (h0 : r ∉ hostOps0_W) (h : r ∉ later) : W23 m c r = m ((c.tc : Thread nD τ).loc r) :=
  (W23_early m c r h).trans (W1_of m c r h0)
theorem W24_arg (r : Ref sig .tc) (h0 : r ∉ hostOps0_W) (h : r ∉ later) : W24 m c r = m ((c.tc : Thread nD τ).loc r) :=
  (W24_early m c r h).trans (W1_of m c r h0)

end Cert.KernelIdeal.Hand

end
-- ==== Proof.KI.Bridge1.lean ====
/-
  The first two dense layers and the sparse product between them, followed from the launch memory: the first launch
  leaves the node features times the first weight (the weight cut to the narrower format and the added zero row change
  nothing over the extended reals), which is the reference's first product; the gather / scale / scatter-add, bias and
  clamp that follow are the same operations on both sides; the second launch leaves that array times the second weight.
-/
import proofs.«123903_j63771674411482_1_alg».proof.Proof.KI.Fold
import proofs.«123903_j63771674411482_1_alg».proof.Proof.RefRead
import proofs.«123903_j63771674411482_1_alg».proof.Proof.KI.BridgeDense
import proofs.«123903_j63771674411482_1_alg».proof.Proof.KI.BridgeRead
import proofs.«123903_j63771674411482_1_alg».proof.Proof.KI.BridgeKeep
import proofs.«123903_j63771674411482_1_alg».proof.Proof.KI.BridgeHyps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (c : Dev nD)

/-! ## The weights and zero rows, written once before the first launch -/

theorem W1_v0 : (W1 m c main_v0 : FVec Ideal S500x256 .bf16)
    = truncf (F := Ideal) (s := S500x256) (φ := .f32) .bf16 (m ((c.tc : Thread nD τ).loc main_arg6)) bitsLt_bf16_f32 := by
  show StableHlo.after hostOps0 (W0 m c) (Proc.devRef .tc main_v0) = _
  host_results <;> rfl
theorem W1_v1 : (W1 m c main_v1 : FVec Ideal S256x64 .bf16)
    = truncf (F := Ideal) (s := S256x64) (φ := .f32) .bf16 (m ((c.tc : Thread nD τ).loc main_arg8)) bitsLt_bf16_f32 := by
  show StableHlo.after hostOps0 (W0 m c) (Proc.devRef .tc main_v1) = _
  host_results <;> rfl
theorem W1_v7 : W1 m c main_v7 = broadcastInDim S1x256 ![] bcast_S_S1x256 (constant (F := Ideal) S_ .f32 0x00000000#32) := by
  show StableHlo.after hostOps0 (W0 m c) (Proc.devRef .tc main_v7) = _
  host_results <;> rfl
theorem W1_v8 : W1 m c main_v8 = broadcastInDim S1x64 ![] bcast_S_S1x64 (constant (F := Ideal) S_ .f32 0x00000000#32) := by
  show StableHlo.after hostOps0 (W0 m c) (Proc.devRef .tc main_v8) = _
  host_results <;> rfl

/-! ## The first launch -/

theorem W2_v10 (h0 : LaunchVal0) : W2 m c main_v10
    = Cert.ReferenceIdeal.Read.val_main_v0 (m ((c.tc : Thread nD τ).loc main_arg0)) (m ((c.tc : Thread nD τ).loc main_arg6)) := by
  refine (W2_arr m c 3 : W2 m c main_v10 = _).trans ?_
  rw [h0 (V1 m) c]
  show Cert.Dense.lin (a := 20000) (k := 500) (b := 256) (W1 m c main_arg0) (W1 m c main_v0) (W1 m c main_v7) = _
  rw [W1_arg m c main_arg0 (by decide), W1_v0, W1_v7]
  exact Cert.DenseOnHost.lin_zeroRow Cert.ReferenceIdeal.dot_S20000x500_S500x256_S20000x256_1_0_0_1_n_n.wf _ _ _ _

/-! ## The sparse product, bias and clamp between the first two launches -/

set_option maxHeartbeats 4000000 in
theorem W3_v26 (h0 : LaunchVal0) : W3 m c main_v26 = Cert.ReferenceIdeal.Read.val_main_v16 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  show StableHlo.after hostOps1 (W2 m c) (Proc.devRef .tc main_v26) = _
  host_results
  rw [W2_v10 m c h0, W2_arg m c main_arg2 (by decide) (by decide), W2_arg m c main_arg3 (by decide) (by decide), W2_arg m c main_arg4 (by decide) (by decide), W2_arg m c main_arg7 (by decide) (by decide)]
  rfl

/-- The clamp at zero, read off any contents: the maximum of the incoming array and a zero array. -/
theorem relu_v27 (V : Valuation τ sig (Elt Ideal)) : StableHlo.after hostOps1_1 V (Proc.devRef .tc main_v27)
    = maximumf (F := Ideal) (s := S20000x256) (φ := .f32) (V (Proc.devRef .tc main_v26))
        (broadcastInDim S20000x256 ![] bcast_S_S20000x256 (constant (F := Ideal) S_ .f32 0x00000000#32)) := by
  host_results
  rfl

theorem W4_v27 (h0 : LaunchVal0) : W4 m c main_v27 = Cert.ReferenceIdeal.Read.val_main_v17 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine (relu_v27 (W3 m c)).trans ?_
  rw [W3_v26 m c h0]
  rfl

/-! ## The second launch -/

theorem W5_v28 (h0 : LaunchVal0) (h1 : LaunchVal1) : W5 m c main_v28
    = Cert.ReferenceIdeal.Read.val_main_v18 (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg6))
        (m ((c.tc : Thread nD τ).loc main_arg7)) (m ((c.tc : Thread nD τ).loc main_arg8)) := by
  refine (W5_arr m c 3 : W5 m c main_v28 = _).trans ?_
  rw [h1 (V4 m) c]
  show Cert.Dense.lin (a := 20000) (k := 256) (b := 64) (W4 m c main_v27) (W4 m c main_v1) (W4 m c main_v8) = _
  rw [W4_v27 m c h0, W4_early m c main_v1 (by decide), W1_v1, W4_early m c main_v8 (by decide), W1_v8]
  exact Cert.DenseOnHost.lin_zeroRow Cert.ReferenceIdeal.dot_S20000x256_S256x64_S20000x64_1_0_0_1_n_n.wf _ _ _ _

end Cert.KernelIdeal.Hand

end
-- ==== Proof.KI.Bridge2.lean ====
/-
  From the second launch to the generated features: the second sparse product with its bias and clamp, the degree head
  (a product with a one-column weight, a bias, a clamp), the residual sum, and the three launches of the generator — two
  clamped dense layers and one through tanh, each with its bias recast to a one-row array — are, array by array, the
  reference's stages at the same arguments.
-/
import proofs.«123903_j63771674411482_1_alg».proof.Proof.KI.Fold
import proofs.«123903_j63771674411482_1_alg».proof.Proof.RefRead
import proofs.«123903_j63771674411482_1_alg».proof.Proof.KI.BridgeDense
import proofs.«123903_j63771674411482_1_alg».proof.Proof.KI.BridgeRead
import proofs.«123903_j63771674411482_1_alg».proof.Proof.KI.BridgeKeep
import proofs.«123903_j63771674411482_1_alg».proof.Proof.KI.Bridge1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (c : Dev nD)

/-! ## Weights written once before the first launch -/

theorem W1_v2 : (W1 m c main_v2 : FVec Ideal S64x256 .bf16)
    = truncf (F := Ideal) (s := S64x256) (φ := .f32) .bf16 (m ((c.tc : Thread nD τ).loc main_arg12)) bitsLt_bf16_f32 := by
  show StableHlo.after hostOps0 (W0 m c) (Proc.devRef .tc main_v2) = _
  host_results <;> rfl
theorem W1_v3 : (W1 m c main_v3 : FVec Ideal S256x2048 .bf16)
    = truncf (F := Ideal) (s := S256x2048) (φ := .f32) .bf16 (m ((c.tc : Thread nD τ).loc main_arg14)) bitsLt_bf16_f32 := by
  show StableHlo.after hostOps0 (W0 m c) (Proc.devRef .tc main_v3) = _
  host_results <;> rfl
theorem W1_v4 : (W1 m c main_v4 : FVec Ideal S2048x2500 .bf16)
    = truncf (F := Ideal) (s := S2048x2500) (φ := .f32) .bf16 (m ((c.tc : Thread nD τ).loc main_arg16)) bitsLt_bf16_f32 := by
  show StableHlo.after hostOps0 (W0 m c) (Proc.devRef .tc main_v4) = _
  host_results <;> rfl

/-! ## The second sparse product, bias and clamp -/

set_option maxHeartbeats 4000000 in
theorem W6_v44 (h0 : LaunchVal0) (h1 : LaunchVal1) : W6 m c main_v44 = Cert.ReferenceIdeal.Read.val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W5 m c) (Proc.devRef .tc main_v44) = _
  host_results
  rw [W5_v28 m c h0 h1, W5_arg m c main_arg2 (by decide) (by decide), W5_arg m c main_arg3 (by decide) (by decide), W5_arg m c main_arg4 (by decide) (by decide), W5_arg m c main_arg9 (by decide) (by decide)]
  rfl

/-- The clamp at zero, read off any contents: the maximum of the incoming array and a zero array. -/
theorem relu_v45 (V : Valuation τ sig (Elt Ideal)) : StableHlo.after hostOps2_1 V (Proc.devRef .tc main_v45)
    = maximumf (F := Ideal) (s := S20000x64) (φ := .f32) (V (Proc.devRef .tc main_v44))
        (broadcastInDim S20000x64 ![] bcast_S_S20000x64 (constant (F := Ideal) S_ .f32 0x00000000#32)) := by
  host_results
  rfl

theorem W7_v45 (h0 : LaunchVal0) (h1 : LaunchVal1) : W7 m c main_v45 = Cert.ReferenceIdeal.Read.val_main_v35 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := by
  refine (relu_v45 (W6 m c)).trans ?_
  rw [W6_v44 m c h0 h1]
  rfl

/-! ## The degree head -/

set_option maxHeartbeats 4000000 in
theorem W8_v49 (h0 : LaunchVal0) (h1 : LaunchVal1) : W8 m c main_v49 = Cert.ReferenceIdeal.Read.val_main_v39 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e45 := W7_v45 m c h0 h1
  have e10 := W7_arg m c main_arg10 (by decide) (by decide)
  have e11 := W7_arg m c main_arg11 (by decide) (by decide)
  show StableHlo.after hostOps2_2 (W7 m c) (Proc.devRef .tc main_v49) = _
  generalize W7 m c = V at e45 e10 e11 ⊢
  host_results
  rw [e45, e10, e11]
  rfl

/-- The clamp at zero, read off any contents: the maximum of the incoming array and a zero array. -/
theorem relu_v50 (V : Valuation τ sig (Elt Ideal)) : StableHlo.after hostOps2_3 V (Proc.devRef .tc main_v50)
    = maximumf (F := Ideal) (s := S20000x1) (φ := .f32) (V (Proc.devRef .tc main_v49))
        (broadcastInDim S20000x1 ![] bcast_S_S20000x1 (constant (F := Ideal) S_ .f32 0x00000000#32)) := by
  host_results
  rfl

theorem W9_v50 (h0 : LaunchVal0) (h1 : LaunchVal1) : W9 m c main_v50 = Cert.ReferenceIdeal.Read.val_main_v40 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (relu_v50 (W8 m c)).trans ?_
  rw [W8_v49 m c h0 h1]
  rfl

/-! ## The residual sum and the biases recast to rows -/

set_option maxHeartbeats 4000000 in
theorem W10_v51 (h0 : LaunchVal0) (h1 : LaunchVal1) : W10 m c main_v51 = Cert.ReferenceIdeal.Read.val_main_v41 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e45 : W9 m c main_v45 = _ := (W9_of m c main_v45 (by decide)).trans ((W8_of m c main_v45 (by decide)).trans (W7_v45 m c h0 h1))
  have e5 := W9_arg m c main_arg5 (by decide) (by decide)
  show StableHlo.after hostOps2_4 (W9 m c) (Proc.devRef .tc main_v51) = _
  generalize W9 m c = V at e45 e5 ⊢
  host_results
  rw [e45, e5]
  rfl
theorem W10_v52 : W10 m c main_v52 = shapeCast S1x256 (m ((c.tc : Thread nD τ).loc main_arg13)) shapeCasts_S256_S1x256 := by
  have e := W9_arg m c main_arg13 (by decide) (by decide)
  show StableHlo.after hostOps2_4 (W9 m c) (Proc.devRef .tc main_v52) = _
  generalize W9 m c = V at e ⊢
  host_results
  rw [e]
  rfl
theorem W10_v53 : W10 m c main_v53 = shapeCast S1x2048 (m ((c.tc : Thread nD τ).loc main_arg15)) shapeCasts_S2048_S1x2048 := by
  have e := W9_arg m c main_arg15 (by decide) (by decide)
  show StableHlo.after hostOps2_4 (W9 m c) (Proc.devRef .tc main_v53) = _
  generalize W9 m c = V at e ⊢
  host_results
  rw [e]
  rfl
theorem W10_v54 : W10 m c main_v54 = shapeCast S1x2500 (m ((c.tc : Thread nD τ).loc main_arg17)) shapeCasts_S2500_S1x2500 := by
  have e := W9_arg m c main_arg17 (by decide) (by decide)
  show StableHlo.after hostOps2_4 (W9 m c) (Proc.devRef .tc main_v54) = _
  generalize W9 m c = V at e ⊢
  host_results
  rw [e]
  rfl

/-! ## The generator's three launches -/

theorem W11_v55 (h0 : LaunchVal0) (h1 : LaunchVal1) (h2 : LaunchVal2) : W11 m c main_v55 = Cert.ReferenceIdeal.Read.val_main_v46 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  refine (W11_arr m c 3 : W11 m c main_v55 = _).trans ?_
  rw [h2 (V10 m) c]
  show Cert.Dense.linRelu (a := 20000) (k := 64) (b := 256) (W10 m c main_v51) (W10 m c main_v2) (W10 m c main_v52) = _
  rw [W10_v51 m c h0 h1, W10_early m c main_v2 (by decide), W1_v2, W10_v52]
  exact Cert.DenseOnHost.linRelu_bias Cert.ReferenceIdeal.dot_S20000x64_S64x256_S20000x256_1_0_0_1_n_n.wf _ _ _ _ _ _ _ _

theorem W12_v56 (h0 : LaunchVal0) (h1 : LaunchVal1) (h2 : LaunchVal2) (h3 : LaunchVal3) : W12 m c main_v56 = Cert.ReferenceIdeal.Read.val_main_v51 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) := by
  refine (W12_arr m c 3 : W12 m c main_v56 = _).trans ?_
  rw [h3 (V11 m) c]
  show Cert.Dense.linRelu (a := 20000) (k := 256) (b := 2048) (W11 m c main_v55) (W11 m c main_v3) (W11 m c main_v53) = _
  rw [W11_v55 m c h0 h1 h2, W11_early m c main_v3 (by decide), W1_v3, W11_of m c main_v53 (by decide), W10_v53]
  exact Cert.DenseOnHost.linRelu_bias Cert.ReferenceIdeal.dot_S20000x256_S256x2048_S20000x2048_1_0_0_1_n_n.wf _ _ _ _ _ _ _ _

theorem W13_v57 (h0 : LaunchVal0) (h1 : LaunchVal1) (h2 : LaunchVal2) (h3 : LaunchVal3) (h4 : LaunchVal4) : W13 m c main_v57 = Cert.ReferenceIdeal.Read.val_main_v56 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W13_arr m c 3 : W13 m c main_v57 = _).trans ?_
  rw [h4 (V12 m) c]
  show Cert.Dense.linTanh (a := 20000) (k := 2048) (b := 2500) (W12 m c main_v56) (W12 m c main_v4) (W12 m c main_v54) = _
  rw [W12_v56 m c h0 h1 h2 h3, W12_early m c main_v4 (by decide), W1_v4, W12_of m c main_v54 (by decide),
    W11_of m c main_v54 (by decide), W10_v54]
  exact Cert.DenseOnHost.linTanh_bias Cert.ReferenceIdeal.dot_S20000x2048_S2048x2500_S20000x2500_1_0_0_1_n_n.wf _ _ _ _ _ _ _

end Cert.KernelIdeal.Hand

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.KI.Bridge3.lean ====
/-
  From the generated features to the classifier's first layer: the features recast and stacked under the node features;
  the degree rounded to an integer and clipped to 0..5; the mended graph's edge lists and edge weights (iotas, slices of the
  edge array, comparisons against the clipped degree, concatenations), the weighted degree and its guarded reciprocal
  gathered back along the edges — all the same host operations on both sides, so each array is the reference's stage at
  the same arguments once the arrays going in are — and the fifth launch, the stacked features times its weight.
-/
import proofs.«123903_j63771674411482_1_alg».proof.Proof.KI.Fold
import proofs.«123903_j63771674411482_1_alg».proof.Proof.RefRead
import proofs.«123903_j63771674411482_1_alg».proof.Proof.LibAfterAppend
import proofs.«123903_j63771674411482_1_alg».proof.Proof.KI.BridgeRead
import proofs.«123903_j63771674411482_1_alg».proof.Proof.KI.BridgeDense
import proofs.«123903_j63771674411482_1_alg».proof.Proof.KI.BridgeKeep
import proofs.«123903_j63771674411482_1_alg».proof.Proof.KI.BridgeHyps
import proofs.«123903_j63771674411482_1_alg».proof.Proof.KI.Bridge1
import proofs.«123903_j63771674411482_1_alg».proof.Proof.KI.Bridge2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (c : Dev nD)

theorem W1_v5 : W1 m c main_v5 = truncf (F := Ideal) (s := S500x256) .bf16 (m ((c.tc : Thread nD τ).loc main_arg18)) bitsLt_bf16_f32 := by
  show StableHlo.after hostOps0 (W0 m c) (Proc.devRef .tc main_v5) = _
  host_results

/-! ## The stacked features and the clipped integer degree -/

theorem W14_v59 (h0 : LaunchVal0) (h1 : LaunchVal1) (h2 : LaunchVal2) (h3 : LaunchVal3) (h4 : LaunchVal4) : W14 m c main_v59 = Cert.ReferenceIdeal.Read.val_main_v58 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have e57 := W13_v57 m c h0 h1 h2 h3 h4
  have e0 := W13_arg m c main_arg0 (by decide) (by decide)
  show StableHlo.after hostOps5 (W13 m c) (Proc.devRef .tc main_v59) = _
  generalize W13 m c = V at e57 e0 ⊢
  host_results
  unfold Cert.ReferenceIdeal.Read.val_main_v58 Cert.ReferenceIdeal.Read.val_main_v57
  rw [← e57, ← e0]
  rfl

/-- The degree head's result is still in place when the generator's launches are over. -/
theorem W13_v50 (h0 : LaunchVal0) (h1 : LaunchVal1) : W13 m c main_v50 = Cert.ReferenceIdeal.Read.val_main_v40 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W13_of m c main_v50 (by decide)).trans ((W12_of m c main_v50 (by decide)).trans ((W11_of m c main_v50 (by decide)).trans
    ((W10_of m c main_v50 (by decide)).trans (W9_v50 m c h0 h1))))

/-- The clip to 0..5, over any contents: the minimum with a splat of the upper bound of the maximum with a splat of the
    lower bound. -/
theorem clip_v62 (V : Valuation τ sig (Elt Ideal)) : StableHlo.after hostOps5_1 V (Proc.devRef .tc main_v62)
    = minsi (broadcastInDim S20000 ![] bcast_S_S20000 (id (V (Proc.devRef .tc main_c_8))))
        (maxsi (broadcastInDim S20000 ![] bcast_S_S20000 (id (V (Proc.devRef .tc main_c_7))))
          (V (Proc.devRef .tc main_v61) : (⟨S20000, .i32⟩ : BufTy).Contents (Elt Ideal))) := by
  host_results
  rfl

/-- The degree as a flat array, rounded toward zero to an integer. -/
theorem W14_v61 (h0 : LaunchVal0) (h1 : LaunchVal1) : W14 m c main_v61 = Cert.ReferenceIdeal.Read.val_main_v60 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e50 := W13_v50 m c h0 h1
  show StableHlo.after hostOps5 (W13 m c) (Proc.devRef .tc main_v61) = _
  generalize W13 m c = V at e50 ⊢
  host_results
  unfold Cert.ReferenceIdeal.Read.val_main_v60 Cert.ReferenceIdeal.Read.val_main_v59
  rw [← e50]
  rfl

theorem W14_c7 : W14 m c main_c_7 = constantI S_ 32 0#32 := by
  show StableHlo.after hostOps5 (W13 m c) (Proc.devRef .tc main_c_7) = _
  generalize W13 m c = V
  host_results

theorem W14_c8 : W14 m c main_c_8 = constantI S_ 32 5#32 := by
  show StableHlo.after hostOps5 (W13 m c) (Proc.devRef .tc main_c_8) = _
  generalize W13 m c = V
  host_results

theorem W15_v62 (h0 : LaunchVal0) (h1 : LaunchVal1) : W15 m c main_v62 = Cert.ReferenceIdeal.Read.val_main_v61 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (clip_v62 (W14 m c)).trans ?_
  rw [W14_v61 m c h0 h1, W14_c7 m c, W14_c8 m c]
  rfl

/-! ## The mended graph's edges and weights -/

set_option maxHeartbeats 4000000 in
theorem W16_v89 : W16 m c main_v89 = Cert.ReferenceIdeal.Read.val_main_v88 (m ((c.tc : Thread nD τ).loc main_arg1)) := by
  have e1 := W15_arg m c main_arg1 (by decide) (by decide)
  show StableHlo.after hostOps5_2 (W15 m c) (Proc.devRef .tc main_v89) = _
  generalize W15 m c = V at e1 ⊢
  host_results
  rw [← e1]
  rfl

set_option maxHeartbeats 4000000 in
theorem W16_v94 : W16 m c main_v94 = Cert.ReferenceIdeal.Read.val_main_v93 (m ((c.tc : Thread nD τ).loc main_arg1)) := by
  have e1 := W15_arg m c main_arg1 (by decide) (by decide)
  show StableHlo.after hostOps5_2 (W15 m c) (Proc.devRef .tc main_v94) = _
  generalize W15 m c = V at e1 ⊢
  host_results
  rw [← e1]
  rfl

set_option maxHeartbeats 4000000 in
theorem W16_v97 (h0 : LaunchVal0) (h1 : LaunchVal1) : W16 m c main_v97 = Cert.ReferenceIdeal.Read.val_main_v96 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e62 := W15_v62 m c h0 h1
  show StableHlo.after hostOps5_2 (W15 m c) (Proc.devRef .tc main_v97) = _
  generalize W15 m c = V at e62 ⊢
  host_results
  unfold Cert.ReferenceIdeal.Read.val_main_v96 Cert.ReferenceIdeal.Read.val_main_v82 Cert.ReferenceIdeal.Read.val_main_v81 Cert.ReferenceIdeal.Read.val_main_v80
  rw [← e62]
  rfl

/-! ## The weighted degree, its guarded reciprocal, and the normalised edge weights

  The edge stretch is read in two parts: up to the edge lists and raw weights (above), and the eleven operations after
  them — the scatter-add of the weights at the edge sources, its comparison with zero and the quotient of one by it —,
  which over ANY contents are the reference's stages once the two arrays they read are. -/

theorem split52 (V : Valuation τ sig (Elt Ideal)) :
    StableHlo.after hostOps5_2 V = StableHlo.after (hostOps5_2.drop 41) (StableHlo.after (hostOps5_2.take 41) V) := by
  rw [← Cert.Lib.AfterAppend.after_append, List.take_append_drop]

theorem tail52_keep89 (V' : Valuation τ sig (Elt Ideal)) :
    StableHlo.after (hostOps5_2.drop 41) V' (Proc.devRef .tc main_v89) = V' (Proc.devRef .tc main_v89) := by
  simp only [hostOps5_2, List.drop_succ_cons, List.drop_zero]
  host_results

theorem tail52_keep97 (V' : Valuation τ sig (Elt Ideal)) :
    StableHlo.after (hostOps5_2.drop 41) V' (Proc.devRef .tc main_v97) = V' (Proc.devRef .tc main_v97) := by
  simp only [hostOps5_2, List.drop_succ_cons, List.drop_zero]
  host_results

theorem tail52_v102 (V' : Valuation τ sig (Elt Ideal)) (x0 : (⟨Cert.ReferenceIdeal.S20000x500, .f32⟩ : BufTy).Contents (Elt Ideal)) (x1 : (⟨Cert.ReferenceIdeal.S320000x2, .i32⟩ : BufTy).Contents (Elt Ideal)) (x2 x3 : (⟨Cert.ReferenceIdeal.S660000, .i32⟩ : BufTy).Contents (Elt Ideal)) (x4 : (⟨Cert.ReferenceIdeal.S660000, .f32⟩ : BufTy).Contents (Elt Ideal)) (x6 : (⟨Cert.ReferenceIdeal.S500x256, .f32⟩ : BufTy).Contents (Elt Ideal)) (x7 : (⟨Cert.ReferenceIdeal.S256, .f32⟩ : BufTy).Contents (Elt Ideal)) (x8 : (⟨Cert.ReferenceIdeal.S256x64, .f32⟩ : BufTy).Contents (Elt Ideal)) (x9 : (⟨Cert.ReferenceIdeal.S64, .f32⟩ : BufTy).Contents (Elt Ideal)) (x10 : (⟨Cert.ReferenceIdeal.S64x1, .f32⟩ : BufTy).Contents (Elt Ideal)) (x11 : (⟨Cert.ReferenceIdeal.S1, .f32⟩ : BufTy).Contents (Elt Ideal))
    (hA : V' (Proc.devRef .tc main_v89) = Cert.ReferenceIdeal.Read.val_main_v88 x1)
    (hB : V' (Proc.devRef .tc main_v97) = Cert.ReferenceIdeal.Read.val_main_v96 x0 x2 x3 x4 x6 x7 x8 x9 x10 x11) :
    StableHlo.after (hostOps5_2.drop 41) V' (Proc.devRef .tc main_v102) = Cert.ReferenceIdeal.Read.val_main_v101 x0 x1 x2 x3 x4 x6 x7 x8 x9 x10 x11 := by
  simp only [hostOps5_2, List.drop_succ_cons, List.drop_zero]
  host_results
  rw [hA, hB]
  rfl

theorem tail52_v104 (V' : Valuation τ sig (Elt Ideal)) (x0 : (⟨Cert.ReferenceIdeal.S20000x500, .f32⟩ : BufTy).Contents (Elt Ideal)) (x1 : (⟨Cert.ReferenceIdeal.S320000x2, .i32⟩ : BufTy).Contents (Elt Ideal)) (x2 x3 : (⟨Cert.ReferenceIdeal.S660000, .i32⟩ : BufTy).Contents (Elt Ideal)) (x4 : (⟨Cert.ReferenceIdeal.S660000, .f32⟩ : BufTy).Contents (Elt Ideal)) (x6 : (⟨Cert.ReferenceIdeal.S500x256, .f32⟩ : BufTy).Contents (Elt Ideal)) (x7 : (⟨Cert.ReferenceIdeal.S256, .f32⟩ : BufTy).Contents (Elt Ideal)) (x8 : (⟨Cert.ReferenceIdeal.S256x64, .f32⟩ : BufTy).Contents (Elt Ideal)) (x9 : (⟨Cert.ReferenceIdeal.S64, .f32⟩ : BufTy).Contents (Elt Ideal)) (x10 : (⟨Cert.ReferenceIdeal.S64x1, .f32⟩ : BufTy).Contents (Elt Ideal)) (x11 : (⟨Cert.ReferenceIdeal.S1, .f32⟩ : BufTy).Contents (Elt Ideal))
    (hA : V' (Proc.devRef .tc main_v89) = Cert.ReferenceIdeal.Read.val_main_v88 x1)
    (hB : V' (Proc.devRef .tc main_v97) = Cert.ReferenceIdeal.Read.val_main_v96 x0 x2 x3 x4 x6 x7 x8 x9 x10 x11) :
    StableHlo.after (hostOps5_2.drop 41) V' (Proc.devRef .tc main_v104) = Cert.ReferenceIdeal.Read.val_main_v103 x0 x1 x2 x3 x4 x6 x7 x8 x9 x10 x11 := by
  simp only [hostOps5_2, List.drop_succ_cons, List.drop_zero]
  host_results
  rw [hA, hB]
  rfl

theorem W16_v102 (h0 : LaunchVal0) (h1 : LaunchVal1) : W16 m c main_v102 = Cert.ReferenceIdeal.Read.val_main_v101 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e89 : StableHlo.after hostOps5_2 (W15 m c) (Proc.devRef .tc main_v89) = _ := W16_v89 m c
  have e97 : StableHlo.after hostOps5_2 (W15 m c) (Proc.devRef .tc main_v97) = _ := W16_v97 m c h0 h1
  rw [split52, tail52_keep89] at e89
  rw [split52, tail52_keep97] at e97
  show StableHlo.after hostOps5_2 (W15 m c) (Proc.devRef .tc main_v102) = _
  rw [split52]
  exact tail52_v102 _ _ _ _ _ _ _ _ _ _ _ _ e89 e97

theorem W16_v104 (h0 : LaunchVal0) (h1 : LaunchVal1) : W16 m c main_v104 = Cert.ReferenceIdeal.Read.val_main_v103 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e89 : StableHlo.after hostOps5_2 (W15 m c) (Proc.devRef .tc main_v89) = _ := W16_v89 m c
  have e97 : StableHlo.after hostOps5_2 (W15 m c) (Proc.devRef .tc main_v97) = _ := W16_v97 m c h0 h1
  rw [split52, tail52_keep89] at e89
  rw [split52, tail52_keep97] at e97
  show StableHlo.after hostOps5_2 (W15 m c) (Proc.devRef .tc main_v104) = _
  rw [split52]
  exact tail52_v104 _ _ _ _ _ _ _ _ _ _ _ _ e89 e97

theorem W16_cst18 : W16 m c main_cst_18 = constant (F := Ideal) S_ .f32 0x00000000#32 := by
  show StableHlo.after hostOps5_2 (W15 m c) (Proc.devRef .tc main_cst_18) = _
  generalize W15 m c = V
  host_results

/-- The guarded choice, over any contents: where the mask holds the second array, elsewhere a splat of the third. -/
theorem where_v105 (V : Valuation τ sig (Elt Ideal)) : StableHlo.after hostOps5_3 V (Proc.devRef .tc main_v105)
    = select (V (Proc.devRef .tc main_v102)) (V (Proc.devRef .tc main_v104) : FVec Ideal S120000 .f32)
        (broadcastInDim S120000 ![] bcast_S_S120000 (id (V (Proc.devRef .tc main_cst_18)))) := by
  host_results
  rfl

theorem W17_v105 (h0 : LaunchVal0) (h1 : LaunchVal1) : W17 m c main_v105 = Cert.ReferenceIdeal.Read.val_main_v104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (where_v105 (W16 m c)).trans ?_
  rw [W16_v102 m c h0 h1, W16_v104 m c h0 h1, W16_cst18 m c]
  rfl

theorem W18_v113 (h0 : LaunchVal0) (h1 : LaunchVal1) : W18 m c main_v113 = Cert.ReferenceIdeal.Read.val_main_v112 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e89 : W17 m c main_v89 = _ := (W17_of m c main_v89 (by decide)).trans (W16_v89 m c)
  have e97 : W17 m c main_v97 = _ := (W17_of m c main_v97 (by decide)).trans (W16_v97 m c h0 h1)
  have e105 := W17_v105 m c h0 h1
  show StableHlo.after hostOps5_4 (W17 m c) (Proc.devRef .tc main_v113) = _
  generalize W17 m c = V at e89 e97 e105 ⊢
  host_results
  rw [e89, e97, e105]
  rfl

/-! ## The fifth launch -/

theorem W19_v116 (h0 : LaunchVal0) (h1 : LaunchVal1) (h2 : LaunchVal2) (h3 : LaunchVal3) (h4 : LaunchVal4) (h5 : LaunchVal5) : W19 m c main_v116 = Cert.ReferenceIdeal.Read.val_main_v113 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W19_arr m c 3 : W19 m c main_v116 = _).trans ?_
  rw [h5 (V18 m) c]
  show Cert.Dense.lin (a := 120000) (k := 500) (b := 256) (W18 m c main_v59) (W18 m c main_v5) (W18 m c main_v7) = _
  rw [W18_of m c main_v59 (by decide), W17_of m c main_v59 (by decide), W16_of m c main_v59 (by decide),
    W15_of m c main_v59 (by decide), W14_v59 m c h0 h1 h2 h3 h4, W18_early m c main_v5 (by decide), W1_v5,
    W18_early m c main_v7 (by decide), W1_v7]
  exact Cert.DenseOnHost.lin_zeroRow Cert.ReferenceIdeal.dot_S120000x500_S500x256_S120000x256_1_0_0_1_n_n.wf _ _ _ _

end Cert.KernelIdeal.Hand

end
-- ==== Proof.KI.Bridge4.lean ====
/-
  The classifier on the mended graph and the three results: the two sparse products over the mended graph's edges (gather
  along one edge list, scale by the normalised weights, scatter-add along the other, bias, clamp) are the same host
  operations on both sides; the sixth launch between them is the clamped array times the last weight. The degree and the
  generated features, written earlier, are still in place at the end.
-/
import proofs.«123903_j63771674411482_1_alg».proof.Proof.KI.Fold
import proofs.«123903_j63771674411482_1_alg».proof.Proof.RefRead
import proofs.«123903_j63771674411482_1_alg».proof.Proof.KI.BridgeDense
import proofs.«123903_j63771674411482_1_alg».proof.Proof.KI.BridgeRead
import proofs.«123903_j63771674411482_1_alg».proof.Proof.KI.BridgeKeep
import proofs.«123903_j63771674411482_1_alg».proof.Proof.KI.BridgeHyps
import proofs.«123903_j63771674411482_1_alg».proof.Proof.KI.Bridge1
import proofs.«123903_j63771674411482_1_alg».proof.Proof.KI.Bridge2
import proofs.«123903_j63771674411482_1_alg».proof.Proof.KI.Bridge3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (c : Dev nD)

theorem W1_v6 : (W1 m c main_v6 : FVec Ideal S256x16 .bf16)
    = truncf (F := Ideal) (s := S256x16) (φ := .f32) .bf16 (m ((c.tc : Thread nD τ).loc main_arg20)) bitsLt_bf16_f32 := by
  show StableHlo.after hostOps0 (W0 m c) (Proc.devRef .tc main_v6) = _
  host_results <;> rfl
theorem W1_v9 : W1 m c main_v9 = broadcastInDim S1x16 ![] bcast_S_S1x16 (constant (F := Ideal) S_ .f32 0x00000000#32) := by
  show StableHlo.after hostOps0 (W0 m c) (Proc.devRef .tc main_v9) = _
  host_results <;> rfl

/-! ## The mended graph's arrays are still in place after the fifth launch -/

theorem W19_v89 : W19 m c main_v89 = Cert.ReferenceIdeal.Read.val_main_v88 (m ((c.tc : Thread nD τ).loc main_arg1)) :=
  (W19_of m c main_v89 (by decide)).trans ((W18_of m c main_v89 (by decide)).trans ((W17_of m c main_v89 (by decide)).trans (W16_v89 m c)))
theorem W19_v94 : W19 m c main_v94 = Cert.ReferenceIdeal.Read.val_main_v93 (m ((c.tc : Thread nD τ).loc main_arg1)) :=
  (W19_of m c main_v94 (by decide)).trans ((W18_of m c main_v94 (by decide)).trans ((W17_of m c main_v94 (by decide)).trans (W16_v94 m c)))
theorem W19_v113 (h0 : LaunchVal0) (h1 : LaunchVal1) : W19 m c main_v113 = Cert.ReferenceIdeal.Read.val_main_v112 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W19_of m c main_v113 (by decide)).trans (W18_v113 m c h0 h1)

/-! ## The first sparse product over the mended graph, bias and clamp -/

set_option maxHeartbeats 4000000 in
theorem W20_v132 (h0 : LaunchVal0) (h1 : LaunchVal1) (h2 : LaunchVal2) (h3 : LaunchVal3) (h4 : LaunchVal4) (h5 : LaunchVal5) : W20 m c main_v132 = Cert.ReferenceIdeal.Read.val_main_v129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  show StableHlo.after hostOps6 (W19 m c) (Proc.devRef .tc main_v132) = _
  host_results
  rw [W19_v113 m c h0 h1, W19_v94 m c, W19_v116 m c h0 h1 h2 h3 h4 h5, W19_v89 m c, W19_arg m c main_arg19 (by decide) (by decide)]
  rfl

/-- The clamp at zero, read off any contents: the maximum of the incoming array and a zero array. -/
theorem relu_v133 (V : Valuation τ sig (Elt Ideal)) : StableHlo.after hostOps6_1 V (Proc.devRef .tc main_v133)
    = maximumf (F := Ideal) (s := S120000x256) (φ := .f32) (V (Proc.devRef .tc main_v132))
        (broadcastInDim S120000x256 ![] bcast_S_S120000x256 (constant (F := Ideal) S_ .f32 0x00000000#32)) := by
  host_results
  rfl

theorem W21_v133 (h0 : LaunchVal0) (h1 : LaunchVal1) (h2 : LaunchVal2) (h3 : LaunchVal3) (h4 : LaunchVal4) (h5 : LaunchVal5) : W21 m c main_v133 = Cert.ReferenceIdeal.Read.val_main_v130 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  refine (relu_v133 (W20 m c)).trans ?_
  rw [W20_v132 m c h0 h1 h2 h3 h4 h5]
  rfl

/-! ## The sixth launch -/

theorem W22_v134 (h0 : LaunchVal0) (h1 : LaunchVal1) (h2 : LaunchVal2) (h3 : LaunchVal3) (h4 : LaunchVal4) (h5 : LaunchVal5) (h6 : LaunchVal6) : W22 m c main_v134 = Cert.ReferenceIdeal.Read.val_main_v131 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  refine (W22_arr m c 3 : W22 m c main_v134 = _).trans ?_
  rw [h6 (V21 m) c]
  show Cert.Dense.lin (a := 120000) (k := 256) (b := 16) (W21 m c main_v133) (W21 m c main_v6) (W21 m c main_v9) = _
  rw [W21_v133 m c h0 h1 h2 h3 h4 h5, W21_early m c main_v6 (by decide), W1_v6, W21_early m c main_v9 (by decide), W1_v9]
  exact Cert.DenseOnHost.lin_zeroRow Cert.ReferenceIdeal.dot_S120000x256_S256x16_S120000x16_1_0_0_1_n_n.wf _ _ _ _

/-! ## The second sparse product over the mended graph, bias and clamp -/

theorem W22_v89 : W22 m c main_v89 = Cert.ReferenceIdeal.Read.val_main_v88 (m ((c.tc : Thread nD τ).loc main_arg1)) :=
  (W22_of m c main_v89 (by decide)).trans ((W21_of m c main_v89 (by decide)).trans ((W20_of m c main_v89 (by decide)).trans (W19_v89 m c)))
theorem W22_v94 : W22 m c main_v94 = Cert.ReferenceIdeal.Read.val_main_v93 (m ((c.tc : Thread nD τ).loc main_arg1)) :=
  (W22_of m c main_v94 (by decide)).trans ((W21_of m c main_v94 (by decide)).trans ((W20_of m c main_v94 (by decide)).trans (W19_v94 m c)))
theorem W22_v113 (h0 : LaunchVal0) (h1 : LaunchVal1) : W22 m c main_v113 = Cert.ReferenceIdeal.Read.val_main_v112 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W22_of m c main_v113 (by decide)).trans ((W21_of m c main_v113 (by decide)).trans ((W20_of m c main_v113 (by decide)).trans (W19_v113 m c h0 h1)))

set_option maxHeartbeats 4000000 in
theorem W23_v150 (h0 : LaunchVal0) (h1 : LaunchVal1) (h2 : LaunchVal2) (h3 : LaunchVal3) (h4 : LaunchVal4) (h5 : LaunchVal5) (h6 : LaunchVal6) : W23 m c main_v150 = Cert.ReferenceIdeal.Read.val_main_v147 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  show StableHlo.after hostOps7 (W22 m c) (Proc.devRef .tc main_v150) = _
  host_results
  rw [W22_v113 m c h0 h1, W22_v94 m c, W22_v134 m c h0 h1 h2 h3 h4 h5 h6, W22_v89 m c, W22_arg m c main_arg21 (by decide) (by decide)]
  rfl

/-- The clamp at zero, read off any contents: the maximum of the incoming array and a zero array. -/
theorem relu_v151 (V : Valuation τ sig (Elt Ideal)) : StableHlo.after hostOps7_1 V (Proc.devRef .tc main_v151)
    = maximumf (F := Ideal) (s := S120000x16) (φ := .f32) (V (Proc.devRef .tc main_v150))
        (broadcastInDim S120000x16 ![] bcast_S_S120000x16 (constant (F := Ideal) S_ .f32 0x00000000#32)) := by
  host_results
  rfl

theorem W24_v151 (h0 : LaunchVal0) (h1 : LaunchVal1) (h2 : LaunchVal2) (h3 : LaunchVal3) (h4 : LaunchVal4) (h5 : LaunchVal5) (h6 : LaunchVal6) : W24 m c main_v151 = Cert.ReferenceIdeal.Read.val_main_v148 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  refine (relu_v151 (W23 m c)).trans ?_
  rw [W23_v150 m c h0 h1 h2 h3 h4 h5 h6]
  rfl

/-! ## The degree and the generated features at the end -/

theorem W24_v50 (h0 : LaunchVal0) (h1 : LaunchVal1) : W24 m c main_v50 = Cert.ReferenceIdeal.Read.val_main_v40 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W24_of m c main_v50 (by decide)).trans ((W23_of m c main_v50 (by decide)).trans ((W22_of m c main_v50 (by decide)).trans
  ((W21_of m c main_v50 (by decide)).trans ((W20_of m c main_v50 (by decide)).trans ((W19_of m c main_v50 (by decide)).trans
  ((W18_of m c main_v50 (by decide)).trans ((W17_of m c main_v50 (by decide)).trans ((W16_of m c main_v50 (by decide)).trans
  ((W15_of m c main_v50 (by decide)).trans ((W14_of m c main_v50 (by decide)).trans (W13_v50 m c h0 h1)))))))))))

theorem W24_v57 (h0 : LaunchVal0) (h1 : LaunchVal1) (h2 : LaunchVal2) (h3 : LaunchVal3) (h4 : LaunchVal4) : W24 m c main_v57 = Cert.ReferenceIdeal.Read.val_main_v56 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (W24_of m c main_v57 (by decide)).trans ((W23_of m c main_v57 (by decide)).trans ((W22_of m c main_v57 (by decide)).trans
  ((W21_of m c main_v57 (by decide)).trans ((W20_of m c main_v57 (by decide)).trans ((W19_of m c main_v57 (by decide)).trans
  ((W18_of m c main_v57 (by decide)).trans ((W17_of m c main_v57 (by decide)).trans ((W16_of m c main_v57 (by decide)).trans
  ((W15_of m c main_v57 (by decide)).trans ((W14_of m c main_v57 (by decide)).trans (W13_v57 m c h0 h1 h2 h3 h4)))))))))))

end Cert.KernelIdeal.Hand

end
-- ==== Proof.KI.Bridge.lean ====
/-
  The three results of the kernel program's main function, read off the contents at its end, are the reference's three
  results at the launch contents of the same arguments — given, for each of the seven launches, that it leaves the dense
  function of its input arrays in its output array.
-/
import proofs.«123903_j63771674411482_1_alg».proof.Proof.KI.Fold
import proofs.«123903_j63771674411482_1_alg».proof.Proof.RefRead
import proofs.«123903_j63771674411482_1_alg».proof.Proof.KI.BridgeDense
import proofs.«123903_j63771674411482_1_alg».proof.Proof.KI.BridgeHyps
import proofs.«123903_j63771674411482_1_alg».proof.Proof.KI.Bridge4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (c : Dev nD)

theorem results_eq (h0 : LaunchVal0) (h1 : LaunchVal1) (h2 : LaunchVal2) (h3 : LaunchVal3) (h4 : LaunchVal4) (h5 : LaunchVal5) (h6 : LaunchVal6) :
    W24 m c main_v50 = Cert.ReferenceIdeal.Read.val_main_v40 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ W24 m c main_v57 = Cert.ReferenceIdeal.Read.val_main_v56 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
    ∧ W24 m c main_v151 = Cert.ReferenceIdeal.Read.val_main_v148 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  ⟨W24_v50 m c h0 h1, W24_v57 m c h0 h1 h2 h3 h4, W24_v151 m c h0 h1 h2 h3 h4 h5 h6⟩

end Cert.KernelIdeal.Hand

end
-- ==== Proof.KI.R0Value.lean ====
/-
  The first encoder layer's product on the kernel side, from blocks to the whole array, at the exact values.
  One call of the body stores, at (p, q) of its 2000-row block, the sum over j of x (p, j) · w (j, q) plus the row's
  entry q (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R0Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_0 : (![0, 0] : Fin 2 → Nat) = fun _ => 0 := funext fun a => by fin_cases a <;> rfl

/-- The body's stored value at (p, q): the product's sum plus the row's entry. -/
theorem pay0_apply (x0 : FVec Ideal S2000x500 .f32) (x1 : FVec Ideal S500x256 .bf16) (x2 : FVec Ideal S1x256 .f32)
    (p : Fin 2000) (q : Fin 256) :
    k0_pay1 (F := Ideal) x0 x1 x2 (ix2 p q) = (∑ j : Fin 500, x0 (ix2 p j) * x1 (ix2 j q)) + x2 (ix2 (0 : Fin 1) q) := by
  unfold k0_pay1
  rw [addf_apply, shapeCast_self, shapeCast_self, Cert.Lib.Rows.bcastRow_apply]
  congr 1
  exact Cert.Lib.PlainDot.matmul_zero_apply dot_S2000x500_S500x256_S2000x256_1_0_0_1_n_n.wf none
    (truncf .bf16 x0 bitsLt_bf16_f32) x1 p q

/-- If the x block is rows n·2000 … of an array X and the other two blocks are the arrays W and B, the body's value at
    an index of its block is the dense layer of X, W, B at the index n·2000 rows further down. -/
theorem block_lin0 (X : FVec Ideal S20000x500 .f32) (W : FVec Ideal S500x256 .bf16) (B : FVec Ideal S1x256 .f32)
    (x0 : FVec Ideal S2000x500 .f32) (x1 : FVec Ideal S500x256 .bf16) (x2 : FVec Ideal S1x256 .f32) (n : Nat)
    (h0 : ∀ (y : S2000x500.Idx) (k : S20000x500.Idx), (k 0).val = n * 2000 + (y 0).val → (k 1).val = (y 1).val → x0 y = X k)
    (h1 : x1 = W) (h2 : x2 = B)
    (y : S2000x256.Idx) (i : S20000x256.Idx) (hi0 : (i 0).val = n * 2000 + (y 0).val) (hi1 : (i 1).val = (y 1).val) :
    k0_pay1 (F := Ideal) x0 x1 x2 y = Cert.Dense.lin X W B i := by
  subst h1 h2
  obtain ⟨p, q, rfl⟩ : ∃ (p : Fin 2000) (q : Fin 256), y = ix2 p q := ⟨y 0, y 1, eq_ix2 y⟩
  obtain ⟨r, s, rfl⟩ : ∃ (r : Fin 20000) (s : Fin 256), i = ix2 r s := ⟨i 0, i 1, eq_ix2 i⟩
  obtain rfl : s = q := Fin.ext hi1
  rw [pay0_apply, Cert.Dense.lin_apply]
  congr 1
  exact Finset.sum_congr rfl fun j _ => by rw [h0 (ix2 p j) (ix2 r j) hi0 rfl]

/-- The printed index maps, decided over the grid: the x and output windows move one block of rows per point, the
    weight and row windows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t is rows 2000 t … of the x array. -/
theorem iblk0_x (c : Dev nD) (t : Fin cfg0.N) (y : S2000x500.Idx) (k : S20000x500.Idx)
    (hk0 : (k 0).val = t.val * 2000 + (y 0).val) (hk1 : (k 1).val = (y 1).val) :
    (iblk0 V c 0 t : FVec Ideal S2000x500 .f32) y = (V c main_arg0 : FVec Ideal S20000x500 .f32) k := by
  obtain ⟨e0, e1, -⟩ := idx_facts0 t
  unfold iblk0
  rw [View.read_apply]
  show V c main_arg0 _ = V c main_arg0 k
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 500 + 1 * (y 1).val = (k 1).val; rw [e1, hk1]; omega

/-- The weight block at every point is the whole weight array. -/
theorem iblk0_w (c : Dev nD) (t : Fin cfg0.N) :
    (iblk0 V c 1 t : FVec Ideal S500x256 .bf16) = (V c main_v0 : FVec Ideal S500x256 .bf16) := by
  obtain ⟨-, -, e0, e1, -⟩ := idx_facts0 t
  funext y
  unfold iblk0
  rw [View.read_apply]
  show V c main_v0 _ = V c main_v0 y
  congr 1
  funext a
  apply Fin.ext
  match a with
  | ⟨0, _⟩ => show win0_1.index t (0 : Fin 2) * 500 + 1 * (y 0).val = (y 0).val; rw [e0]; omega
  | ⟨1, _⟩ => show win0_1.index t (1 : Fin 2) * 256 + 1 * (y 1).val = (y 1).val; rw [e1]; omega

/-- The row block at every point is the whole one-row array. -/
theorem iblk0_b (c : Dev nD) (t : Fin cfg0.N) :
    (iblk0 V c 2 t : FVec Ideal S1x256 .f32) = (V c main_v7 : FVec Ideal S1x256 .f32) := by
  obtain ⟨-, -, -, -, e0, e1, -⟩ := idx_facts0 t
  funext y
  unfold iblk0
  rw [View.read_apply]
  show V c main_v7 _ = V c main_v7 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- What point t writes back is its block of the dense layer of the three arrays. -/
theorem flushed_eq0 (c : Dev nD) (t : Fin cfg0.N) :
    (dat0 V c).flushed 3 t = ((cfg0.win 3).blk t).view.read (Elt Ideal)
      (Cert.Dense.lin (V c main_arg0 : FVec Ideal S20000x500 .f32) (V c main_v0 : FVec Ideal S500x256 .bf16)
        (V c main_v7 : FVec Ideal S1x256 .f32)) := by
  show (cfg0.win 3).cut (grid0.coords t) ((dat0 V c).after 3 t) = _
  rw [after0_3]
  unfold out0_3
  rw [View.canon_unit_zero zero2_0]
  simp only [View.ld_unit_zero (S := S2000x500) zero2_0, View.ld_unit_zero (S := S500x256) zero2_0,
    View.ld_unit_zero (S := S1x256) zero2_0]
  obtain ⟨-, -, -, -, -, -, e0, e1⟩ := idx_facts0 t
  funext y
  rw [View.read_apply]
  refine block_lin0 _ _ _ _ _ _ t.val (fun y k h0 h1 => iblk0_x V c t y k h0 h1) (iblk0_w V c t) (iblk0_b V c t) _ _ ?_ ?_
  · show win0_3.index t (0 : Fin 2) * 2000 + 1 * (y 0).val = t.val * 2000 + (y 0).val; rw [e0]; omega
  · show win0_3.index t (1 : Fin 2) * 256 + 1 * (y 1).val = (y 1).val; rw [e1]; omega

/-- An index of the result is in point t's block iff each coordinate is in the block's range on its axis. -/
theorem mem_blk0 (t : Fin cfg0.N) (i : S20000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v10).slice (win0_3.rect t)).set ↔ _
  rw [View.set_slice_whole, Rect.mem_set_unit]
  exact Iff.rfl

/-- Row r of the result lies in the block of point r / 2000. -/
theorem cover0 (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 256 ≤ (i 1).val ∧ (i 1).val < win0_3.index t (1 : Fin 2) * 256 + 256
    rw [e1]; omega

/-- The result array after the launch is the dense layer of the three arrays as the launch finds them. -/
theorem final0 (c : Dev nD) :
    (dat0 V c).arrAt 3 cfg0.N
      = Cert.Dense.lin (V c main_arg0 : FVec Ideal S20000x500 .f32) (V c main_v0 : FVec Ideal S500x256 .bf16)
        (V c main_v7 : FVec Ideal S1x256 .f32) :=
  (dat0 V c).arrAt_eq_of_cover 3 _ (fun t _ => flushed_eq0 V c t) cover0

end Cert.KernelIdeal.Hand

end
-- ==== Proof.KI.R1Value.lean ====
/-
  The second encoder layer's product on the kernel side, from blocks to the whole array, at the exact values.
  One call of the body stores, at (p, q) of its 2000-row block, the sum over j of x (p, j) · w (j, q) plus the row's
  entry q (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R1Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_1 : (![0, 0] : Fin 2 → Nat) = fun _ => 0 := funext fun a => by fin_cases a <;> rfl

/-- The body's stored value at (p, q): the product's sum plus the row's entry. -/
theorem pay1_apply (x0 : FVec Ideal S2000x256 .f32) (x1 : FVec Ideal S256x64 .bf16) (x2 : FVec Ideal S1x64 .f32)
    (p : Fin 2000) (q : Fin 64) :
    k1_pay1 (F := Ideal) x0 x1 x2 (ix2 p q) = (∑ j : Fin 256, x0 (ix2 p j) * x1 (ix2 j q)) + x2 (ix2 (0 : Fin 1) q) := by
  unfold k1_pay1
  rw [addf_apply, shapeCast_self, shapeCast_self, shapeCast_self, Cert.Lib.Rows.bcastRow_apply]
  congr 1
  exact Cert.Lib.PlainDot.matmul_zero_apply dot_S2000x256_S256x64_S2000x64_1_0_0_1_n_n.wf none
    (truncf .bf16 x0 bitsLt_bf16_f32) x1 p q

/-- If the x block is rows n·2000 … of an array X and the other two blocks are the arrays W and B, the body's value at
    an index of its block is the dense layer of X, W, B at the index n·2000 rows further down. -/
theorem block_lin1 (X : FVec Ideal S20000x256 .f32) (W : FVec Ideal S256x64 .bf16) (B : FVec Ideal S1x64 .f32)
    (x0 : FVec Ideal S2000x256 .f32) (x1 : FVec Ideal S256x64 .bf16) (x2 : FVec Ideal S1x64 .f32) (n : Nat)
    (h0 : ∀ (y : S2000x256.Idx) (k : S20000x256.Idx), (k 0).val = n * 2000 + (y 0).val → (k 1).val = (y 1).val → x0 y = X k)
    (h1 : x1 = W) (h2 : x2 = B)
    (y : S2000x64.Idx) (i : S20000x64.Idx) (hi0 : (i 0).val = n * 2000 + (y 0).val) (hi1 : (i 1).val = (y 1).val) :
    k1_pay1 (F := Ideal) x0 x1 x2 y = Cert.Dense.lin X W B i := by
  subst h1 h2
  obtain ⟨p, q, rfl⟩ : ∃ (p : Fin 2000) (q : Fin 64), y = ix2 p q := ⟨y 0, y 1, eq_ix2 y⟩
  obtain ⟨r, s, rfl⟩ : ∃ (r : Fin 20000) (s : Fin 64), i = ix2 r s := ⟨i 0, i 1, eq_ix2 i⟩
  obtain rfl : s = q := Fin.ext hi1
  rw [pay1_apply, Cert.Dense.lin_apply]
  congr 1
  exact Finset.sum_congr rfl fun j _ => by rw [h0 (ix2 p j) (ix2 r j) hi0 rfl]

/-- The printed index maps, decided over the grid: the x and output windows move one block of rows per point, the
    weight and row windows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The x block at point t is rows 2000 t … of the x array. -/
theorem iblk1_x (c : Dev nD) (t : Fin cfg1.N) (y : S2000x256.Idx) (k : S20000x256.Idx)
    (hk0 : (k 0).val = t.val * 2000 + (y 0).val) (hk1 : (k 1).val = (y 1).val) :
    (iblk1 V c 0 t : FVec Ideal S2000x256 .f32) y = (V c main_v27 : FVec Ideal S20000x256 .f32) k := by
  obtain ⟨e0, e1, -⟩ := idx_facts1 t
  unfold iblk1
  rw [View.read_apply]
  show V c main_v27 _ = V c main_v27 k
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 256 + 1 * (y 1).val = (k 1).val; rw [e1, hk1]; omega

/-- The weight block at every point is the whole weight array. -/
theorem iblk1_w (c : Dev nD) (t : Fin cfg1.N) :
    (iblk1 V c 1 t : FVec Ideal S256x64 .bf16) = (V c main_v1 : FVec Ideal S256x64 .bf16) := by
  obtain ⟨-, -, e0, e1, -⟩ := idx_facts1 t
  funext y
  unfold iblk1
  rw [View.read_apply]
  show V c main_v1 _ = V c main_v1 y
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 64 + 1 * (y 1).val = (y 1).val; rw [e1]; omega

/-- The row block at every point is the whole one-row array. -/
theorem iblk1_b (c : Dev nD) (t : Fin cfg1.N) :
    (iblk1 V c 2 t : FVec Ideal S1x64 .f32) = (V c main_v8 : FVec Ideal S1x64 .f32) := by
  obtain ⟨-, -, -, -, e0, e1, -⟩ := idx_facts1 t
  funext y
  unfold iblk1
  rw [View.read_apply]
  show V c main_v8 _ = V c main_v8 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point t writes back is its block of the dense layer of the three arrays. -/
theorem flushed_eq1 (c : Dev nD) (t : Fin cfg1.N) :
    (dat1 V c).flushed 3 t = ((cfg1.win 3).blk t).view.read (Elt Ideal)
      (Cert.Dense.lin (V c main_v27 : FVec Ideal S20000x256 .f32) (V c main_v1 : FVec Ideal S256x64 .bf16)
        (V c main_v8 : FVec Ideal S1x64 .f32)) := by
  show (cfg1.win 3).cut (grid1.coords t) ((dat1 V c).after 3 t) = _
  rw [after1_3]
  unfold out1_3
  rw [View.canon_unit_zero zero2_1]
  simp only [View.ld_unit_zero (S := S2000x256) zero2_1, View.ld_unit_zero (S := S256x64) zero2_1,
    View.ld_unit_zero (S := S1x64) zero2_1]
  obtain ⟨-, -, -, -, -, -, e0, e1⟩ := idx_facts1 t
  funext y
  rw [View.read_apply]
  refine block_lin1 _ _ _ _ _ _ t.val (fun y k h0 h1 => iblk1_x V c t y k h0 h1) (iblk1_w V c t) (iblk1_b V c t) _ _ ?_ ?_
  · show win1_3.index t (0 : Fin 2) * 2000 + 1 * (y 0).val = t.val * 2000 + (y 0).val; rw [e0]; omega
  · show win1_3.index t (1 : Fin 2) * 64 + 1 * (y 1).val = (y 1).val; rw [e1]; omega

/-- An index of the result is in point t's block iff each coordinate is in the block's range on its axis. -/
theorem mem_blk1 (t : Fin cfg1.N) (i : S20000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v28).slice (win1_3.rect t)).set ↔ _
  rw [View.set_slice_whole, Rect.mem_set_unit]
  exact Iff.rfl

/-- Row r of the result lies in the block of point r / 2000. -/
theorem cover1 (i : S20000x64.Idx) :
    ∃ t : Fin cfg1.N, (cfg1.win 3).flush t = true ∧ i ∈ ((cfg1.win 3).blk t).view.set := by
  have hi0 : (i 0).val < 20000 := (i 0).isLt
  have hi1 : (i 1).val < 64 := (i 1).isLt
  obtain ⟨t, ht⟩ : ∃ t : Fin cfg1.N, t.val = (i 0).val / 2000 :=
    ⟨⟨(i 0).val / 2000, by rw [show cfg1.N = 10 from N_1]; omega⟩, rfl⟩
  obtain ⟨-, -, -, -, -, -, e0, e1⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 64 ≤ (i 1).val ∧ (i 1).val < win1_3.index t (1 : Fin 2) * 64 + 64
    rw [e1]; omega

/-- The result array after the launch is the dense layer of the three arrays as the launch finds them. -/
theorem final1 (c : Dev nD) :
    (dat1 V c).arrAt 3 cfg1.N
      = Cert.Dense.lin (V c main_v27 : FVec Ideal S20000x256 .f32) (V c main_v1 : FVec Ideal S256x64 .bf16)
        (V c main_v8 : FVec Ideal S1x64 .f32) :=
  (dat1 V c).arrAt_eq_of_cover 3 _ (fun t _ => flushed_eq1 V c t) cover1

end Cert.KernelIdeal.Hand

end
-- ==== Proof.KI.R2Value.lean ====
/-
  The generator's first layer on the kernel side, from blocks to the whole array, at the exact values.
  One call of the body stores, at (p, q) of its 2000-row block, the sum over j of x (p, j) · w (j, q) plus the row's
  entry q, clamped below at zero (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R2Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_2 : (![0, 0] : Fin 2 → Nat) = fun _ => 0 := funext fun a => by fin_cases a <;> rfl

/-- The body's stored value at (p, q): the product's sum plus the row's entry, clamped below at zero. -/
theorem pay2_apply (x0 : FVec Ideal S2000x64 .f32) (x1 : FVec Ideal S64x256 .bf16) (x2 : FVec Ideal S1x256 .f32)
    (p : Fin 2000) (q : Fin 256) :
    k2_pay1 (F := Ideal) x0 x1 x2 (ix2 p q) = max ((∑ j : Fin 64, x0 (ix2 p j) * x1 (ix2 j q)) + x2 (ix2 (0 : Fin 1) q)) 0 := by
  unfold k2_pay1
  rw [truncf_apply, maximumf_apply, broadcast_apply, addf_apply, shapeCast_self, shapeCast_self, shapeCast_self, Cert.Lib.Rows.bcastRow_apply]
  show max _ (Ideal.ofBits .f32 0x00000000#32) = _
  rw [Ideal.ofBits_zero_f32]
  congr 2
  exact Cert.Lib.PlainDot.matmul_zero_apply dot_S2000x64_S64x256_S2000x256_1_0_0_1_n_n.wf none
    (truncf .bf16 x0 bitsLt_bf16_f32) x1 p q

/-- If the x block is rows n·2000 … of an array X and the other two blocks are the arrays W and B, the body's value at
    an index of its block is the dense layer of X, W, B at the index n·2000 rows further down. -/
theorem block_lin2 (X : FVec Ideal S20000x64 .f32) (W : FVec Ideal S64x256 .bf16) (B : FVec Ideal S1x256 .f32)
    (x0 : FVec Ideal S2000x64 .f32) (x1 : FVec Ideal S64x256 .bf16) (x2 : FVec Ideal S1x256 .f32) (n : Nat)
    (h0 : ∀ (y : S2000x64.Idx) (k : S20000x64.Idx), (k 0).val = n * 2000 + (y 0).val → (k 1).val = (y 1).val → x0 y = X k)
    (h1 : x1 = W) (h2 : x2 = B)
    (y : S2000x256.Idx) (i : S20000x256.Idx) (hi0 : (i 0).val = n * 2000 + (y 0).val) (hi1 : (i 1).val = (y 1).val) :
    k2_pay1 (F := Ideal) x0 x1 x2 y = Cert.Dense.linRelu X W B i := by
  subst h1 h2
  obtain ⟨p, q, rfl⟩ : ∃ (p : Fin 2000) (q : Fin 256), y = ix2 p q := ⟨y 0, y 1, eq_ix2 y⟩
  obtain ⟨r, s, rfl⟩ : ∃ (r : Fin 20000) (s : Fin 256), i = ix2 r s := ⟨i 0, i 1, eq_ix2 i⟩
  obtain rfl : s = q := Fin.ext hi1
  rw [pay2_apply]
  show _ = max (Cert.Dense.lin _ _ _ (ix2 _ _)) 0
  rw [Cert.Dense.lin_apply]
  congr 2
  exact Finset.sum_congr rfl fun j _ => by rw [h0 (ix2 p j) (ix2 r j) hi0 rfl]

/-- The printed index maps, decided over the grid: the x and output windows move one block of rows per point, the
    weight and row windows stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The x block at point t is rows 2000 t … of the x array. -/
theorem iblk2_x (c : Dev nD) (t : Fin cfg2.N) (y : S2000x64.Idx) (k : S20000x64.Idx)
    (hk0 : (k 0).val = t.val * 2000 + (y 0).val) (hk1 : (k 1).val = (y 1).val) :
    (iblk2 V c 0 t : FVec Ideal S2000x64 .f32) y = (V c main_v51 : FVec Ideal S20000x64 .f32) k := by
  obtain ⟨e0, e1, -⟩ := idx_facts2 t
  unfold iblk2
  rw [View.read_apply]
  show V c main_v51 _ = V c main_v51 k
  congr 1
  funext a
  apply Fin.ext
  match a with
  | ⟨0, _⟩ => show win2_0.index t (0 : Fin 2) * 2000 + 1 * (y 0).val = (k 0).val; rw [e0, hk0]; omega
  | ⟨1, _⟩ => show win2_0.index t (1 : Fin 2) * 64 + 1 * (y 1).val = (k 1).val; rw [e1, hk1]; omega

/-- The weight block at every point is the whole weight array. -/
theorem iblk2_w (c : Dev nD) (t : Fin cfg2.N) :
    (iblk2 V c 1 t : FVec Ideal S64x256 .bf16) = (V c main_v2 : FVec Ideal S64x256 .bf16) := by
  obtain ⟨-, -, e0, e1, -⟩ := idx_facts2 t
  funext y
  unfold iblk2
  rw [View.read_apply]
  show V c main_v2 _ = V c main_v2 y
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 256 + 1 * (y 1).val = (y 1).val; rw [e1]; omega

/-- The row block at every point is the whole one-row array. -/
theorem iblk2_b (c : Dev nD) (t : Fin cfg2.N) :
    (iblk2 V c 2 t : FVec Ideal S1x256 .f32) = (V c main_v52 : FVec Ideal S1x256 .f32) := by
  obtain ⟨-, -, -, -, e0, e1, -⟩ := idx_facts2 t
  funext y
  unfold iblk2
  rw [View.read_apply]
  show V c main_v52 _ = V c main_v52 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- What point t writes back is its block of the dense layer of the three arrays. -/
theorem flushed_eq2 (c : Dev nD) (t : Fin cfg2.N) :
    (dat2 V c).flushed 3 t = ((cfg2.win 3).blk t).view.read (Elt Ideal)
      (Cert.Dense.linRelu (V c main_v51 : FVec Ideal S20000x64 .f32) (V c main_v2 : FVec Ideal S64x256 .bf16)
        (V c main_v52 : FVec Ideal S1x256 .f32)) := by
  show (cfg2.win 3).cut (grid2.coords t) ((dat2 V c).after 3 t) = _
  rw [after2_3]
  unfold out2_3
  rw [View.canon_unit_zero zero2_2]
  simp only [View.ld_unit_zero (S := S2000x64) zero2_2, View.ld_unit_zero (S := S64x256) zero2_2,
    View.ld_unit_zero (S := S1x256) zero2_2]
  obtain ⟨-, -, -, -, -, -, e0, e1⟩ := idx_facts2 t
  funext y
  rw [View.read_apply]
  refine block_lin2 _ _ _ _ _ _ t.val (fun y k h0 h1 => iblk2_x V c t y k h0 h1) (iblk2_w V c t) (iblk2_b V c t) _ _ ?_ ?_
  · show win2_3.index t (0 : Fin 2) * 2000 + 1 * (y 0).val = t.val * 2000 + (y 0).val; rw [e0]; omega
  · show win2_3.index t (1 : Fin 2) * 256 + 1 * (y 1).val = (y 1).val; rw [e1]; omega

/-- An index of the result is in point t's block iff each coordinate is in the block's range on its axis. -/
theorem mem_blk2 (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v55).slice (win2_3.rect t)).set ↔ _
  rw [View.set_slice_whole, Rect.mem_set_unit]
  exact Iff.rfl

/-- Row r of the result lies in the block of point r / 2000. -/
theorem cover2 (i : S20000x256.Idx) :
    ∃ t : Fin cfg2.N, (cfg2.win 3).flush t = true ∧ i ∈ ((cfg2.win 3).blk t).view.set := by
  have hi0 : (i 0).val < 20000 := (i 0).isLt
  have hi1 : (i 1).val < 256 := (i 1).isLt
  obtain ⟨t, ht⟩ : ∃ t : Fin cfg2.N, t.val = (i 0).val / 2000 :=
    ⟨⟨(i 0).val / 2000, by rw [show cfg2.N = 10 from N_2]; omega⟩, rfl⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 256 ≤ (i 1).val ∧ (i 1).val < win2_3.index t (1 : Fin 2) * 256 + 256
    rw [e1]; omega

/-- The result array after the launch is the dense layer of the three arrays as the launch finds them. -/
theorem final2 (c : Dev nD) :
    (dat2 V c).arrAt 3 cfg2.N
      = Cert.Dense.linRelu (V c main_v51 : FVec Ideal S20000x64 .f32) (V c main_v2 : FVec Ideal S64x256 .bf16)
        (V c main_v52 : FVec Ideal S1x256 .f32) :=
  (dat2 V c).arrAt_eq_of_cover 3 _ (fun t _ => flushed_eq2 V c t) cover2

end Cert.KernelIdeal.Hand

end
-- ==== Proof.KI.R3Value.lean ====
/-
  The generator's second layer on the kernel side, from blocks to the whole array, at the exact values.
  One call of the body stores, at (p, q) of its 2000-row block, the sum over j of x (p, j) · w (j, q) plus the row's
  entry q, clamped below at zero (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R3Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_3 : (![0, 0] : Fin 2 → Nat) = fun _ => 0 := funext fun a => by fin_cases a <;> rfl

/-- The body's stored value at (p, q): the product's sum plus the row's entry, clamped below at zero. -/
theorem pay3_apply (x0 : FVec Ideal S2000x256 .bf16) (x1 : FVec Ideal S256x2048 .bf16) (x2 : FVec Ideal S1x2048 .f32)
    (p : Fin 2000) (q : Fin 2048) :
    k3_pay1 (F := Ideal) x0 x1 x2 (ix2 p q) = max ((∑ j : Fin 256, x0 (ix2 p j) * x1 (ix2 j q)) + x2 (ix2 (0 : Fin 1) q)) 0 := by
  unfold k3_pay1
  rw [truncf_apply, maximumf_apply, broadcast_apply, addf_apply, shapeCast_self, shapeCast_self, shapeCast_self, Cert.Lib.Rows.bcastRow_apply]
  show max _ (Ideal.ofBits .f32 0x00000000#32) = _
  rw [Ideal.ofBits_zero_f32]
  congr 2
  exact Cert.Lib.PlainDot.matmul_zero_apply dot_S2000x256_S256x2048_S2000x2048_1_0_0_1_n_n.wf none
    x0 x1 p q

/-- If the x block is rows n·2000 … of an array X and the other two blocks are the arrays W and B, the body's value at
    an index of its block is the dense layer of X, W, B at the index n·2000 rows further down. -/
theorem block_lin3 (X : FVec Ideal S20000x256 .bf16) (W : FVec Ideal S256x2048 .bf16) (B : FVec Ideal S1x2048 .f32)
    (x0 : FVec Ideal S2000x256 .bf16) (x1 : FVec Ideal S256x2048 .bf16) (x2 : FVec Ideal S1x2048 .f32) (n : Nat)
    (h0 : ∀ (y : S2000x256.Idx) (k : S20000x256.Idx), (k 0).val = n * 2000 + (y 0).val → (k 1).val = (y 1).val → x0 y = X k)
    (h1 : x1 = W) (h2 : x2 = B)
    (y : S2000x2048.Idx) (i : S20000x2048.Idx) (hi0 : (i 0).val = n * 2000 + (y 0).val) (hi1 : (i 1).val = (y 1).val) :
    k3_pay1 (F := Ideal) x0 x1 x2 y = Cert.Dense.linRelu X W B i := by
  subst h1 h2
  obtain ⟨p, q, rfl⟩ : ∃ (p : Fin 2000) (q : Fin 2048), y = ix2 p q := ⟨y 0, y 1, eq_ix2 y⟩
  obtain ⟨r, s, rfl⟩ : ∃ (r : Fin 20000) (s : Fin 2048), i = ix2 r s := ⟨i 0, i 1, eq_ix2 i⟩
  obtain rfl : s = q := Fin.ext hi1
  rw [pay3_apply]
  show _ = max (Cert.Dense.lin _ _ _ (ix2 _ _)) 0
  rw [Cert.Dense.lin_apply]
  congr 2
  exact Finset.sum_congr rfl fun j _ => by rw [h0 (ix2 p j) (ix2 r j) hi0 rfl]

/-- The printed index maps, decided over the grid: the x and output windows move one block of rows per point, the
    weight and row windows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The x block at point t is rows 2000 t … of the x array. -/
theorem iblk3_x (c : Dev nD) (t : Fin cfg3.N) (y : S2000x256.Idx) (k : S20000x256.Idx)
    (hk0 : (k 0).val = t.val * 2000 + (y 0).val) (hk1 : (k 1).val = (y 1).val) :
    (iblk3 V c 0 t : FVec Ideal S2000x256 .bf16) y = (V c main_v55 : FVec Ideal S20000x256 .bf16) k := by
  obtain ⟨e0, e1, -⟩ := idx_facts3 t
  unfold iblk3
  rw [View.read_apply]
  show V c main_v55 _ = V c main_v55 k
  congr 1
  funext a
  apply Fin.ext
  match a with
  | ⟨0, _⟩ => show win3_0.index t (0 : Fin 2) * 2000 + 1 * (y 0).val = (k 0).val; rw [e0, hk0]; omega
  | ⟨1, _⟩ => show win3_0.index t (1 : Fin 2) * 256 + 1 * (y 1).val = (k 1).val; rw [e1, hk1]; omega

/-- The weight block at every point is the whole weight array. -/
theorem iblk3_w (c : Dev nD) (t : Fin cfg3.N) :
    (iblk3 V c 1 t : FVec Ideal S256x2048 .bf16) = (V c main_v3 : FVec Ideal S256x2048 .bf16) := by
  obtain ⟨-, -, e0, e1, -⟩ := idx_facts3 t
  funext y
  unfold iblk3
  rw [View.read_apply]
  show V c main_v3 _ = V c main_v3 y
  congr 1
  funext a
  apply Fin.ext
  match a with
  | ⟨0, _⟩ => show win3_1.index t (0 : Fin 2) * 256 + 1 * (y 0).val = (y 0).val; rw [e0]; omega
  | ⟨1, _⟩ => show win3_1.index t (1 : Fin 2) * 2048 + 1 * (y 1).val = (y 1).val; rw [e1]; omega

/-- The row block at every point is the whole one-row array. -/
theorem iblk3_b (c : Dev nD) (t : Fin cfg3.N) :
    (iblk3 V c 2 t : FVec Ideal S1x2048 .f32) = (V c main_v53 : FVec Ideal S1x2048 .f32) := by
  obtain ⟨-, -, -, -, e0, e1, -⟩ := idx_facts3 t
  funext y
  unfold iblk3
  rw [View.read_apply]
  show V c main_v53 _ = V c main_v53 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 2048 + 1 * (y 1).val = (y 1).val; rw [e1]; omega

/-- What point t writes back is its block of the dense layer of the three arrays. -/
theorem flushed_eq3 (c : Dev nD) (t : Fin cfg3.N) :
    (dat3 V c).flushed 3 t = ((cfg3.win 3).blk t).view.read (Elt Ideal)
      (Cert.Dense.linRelu (V c main_v55 : FVec Ideal S20000x256 .bf16) (V c main_v3 : FVec Ideal S256x2048 .bf16)
        (V c main_v53 : FVec Ideal S1x2048 .f32)) := by
  show (cfg3.win 3).cut (grid3.coords t) ((dat3 V c).after 3 t) = _
  rw [after3_3]
  unfold out3_3
  rw [View.canon_unit_zero zero2_3]
  simp only [View.ld_unit_zero (S := S2000x256) zero2_3, View.ld_unit_zero (S := S256x2048) zero2_3,
    View.ld_unit_zero (S := S1x2048) zero2_3]
  obtain ⟨-, -, -, -, -, -, e0, e1⟩ := idx_facts3 t
  funext y
  rw [View.read_apply]
  refine block_lin3 _ _ _ _ _ _ t.val (fun y k h0 h1 => iblk3_x V c t y k h0 h1) (iblk3_w V c t) (iblk3_b V c t) _ _ ?_ ?_
  · show win3_3.index t (0 : Fin 2) * 2000 + 1 * (y 0).val = t.val * 2000 + (y 0).val; rw [e0]; omega
  · show win3_3.index t (1 : Fin 2) * 2048 + 1 * (y 1).val = (y 1).val; rw [e1]; omega

/-- An index of the result is in point t's block iff each coordinate is in the block's range on its axis. -/
theorem mem_blk3 (t : Fin cfg3.N) (i : S20000x2048.Idx) :
    i ∈ ((cfg3.win 3).blk t).view.set ↔ ∀ a : Fin 2, win3_3.index t a * S2000x2048.size a ≤ (i a).val
      ∧ (i a).val < win3_3.index t a * S2000x2048.size a + S2000x2048.size a := by
  show i ∈ ((View.whole main_v56).slice (win3_3.rect t)).set ↔ _
  rw [View.set_slice_whole, Rect.mem_set_unit]
  exact Iff.rfl

/-- Row r of the result lies in the block of point r / 2000. -/
theorem cover3 (i : S20000x2048.Idx) :
    ∃ t : Fin cfg3.N, (cfg3.win 3).flush t = true ∧ i ∈ ((cfg3.win 3).blk t).view.set := by
  have hi0 : (i 0).val < 20000 := (i 0).isLt
  have hi1 : (i 1).val < 2048 := (i 1).isLt
  obtain ⟨t, ht⟩ : ∃ t : Fin cfg3.N, t.val = (i 0).val / 2000 :=
    ⟨⟨(i 0).val / 2000, by rw [show cfg3.N = 10 from N_3]; omega⟩, rfl⟩
  obtain ⟨-, -, -, -, -, -, e0, e1⟩ := idx_facts3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 2048 ≤ (i 1).val ∧ (i 1).val < win3_3.index t (1 : Fin 2) * 2048 + 2048
    rw [e1]; omega

/-- The result array after the launch is the dense layer of the three arrays as the launch finds them. -/
theorem final3 (c : Dev nD) :
    (dat3 V c).arrAt 3 cfg3.N
      = Cert.Dense.linRelu (V c main_v55 : FVec Ideal S20000x256 .bf16) (V c main_v3 : FVec Ideal S256x2048 .bf16)
        (V c main_v53 : FVec Ideal S1x2048 .f32) :=
  (dat3 V c).arrAt_eq_of_cover 3 _ (fun t _ => flushed_eq3 V c t) cover3

end Cert.KernelIdeal.Hand

end
-- ==== Proof.KI.R4Value.lean ====
/-
  The generator's last layer on the kernel side, from blocks to the whole array, at the exact values.
  One call of the body stores, at (p, q) of its 400-row block, the sum over j of x (p, j) · w (j, q) plus the row's
  entry q, passed through tanh (a change of float format is the identity here). At grid point t the x block is rows
  400 t … 400 t + 399 of the x array, the w and row blocks are the whole arrays, and the output block is rows
  400 t … of the result; so what point t writes back is its block of ONE function of the three arrays, the dense
  layer, and since row r lies in the block of point r / 400 the result array ends holding that function.
-/
import proofs.«123903_j63771674411482_1_alg».proof.Proof.Gen.KernelIdeal.Skeleton
import proofs.«123903_j63771674411482_1_alg».proof.Proof.KI.R4Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_4 : (![0, 0] : Fin 2 → Nat) = fun _ => 0 := funext fun a => by fin_cases a <;> rfl

/-- The body's stored value at (p, q): the product's sum plus the row's entry, passed through tanh. -/
theorem pay4_apply (x0 : FVec Ideal S400x2048 .bf16) (x1 : FVec Ideal S2048x2500 .bf16) (x2 : FVec Ideal S1x2500 .f32)
    (p : Fin 400) (q : Fin 2500) :
    k4_pay1 (F := Ideal) x0 x1 x2 (ix2 p q) = Ideal.tanh ((∑ j : Fin 2048, x0 (ix2 p j) * x1 (ix2 j q)) + x2 (ix2 (0 : Fin 1) q)) := by
  unfold k4_pay1
  show Ideal.tanh ((addf _ _ : FVec Ideal S400x2500 .f32) (ix2 p q)) = _
  rw [addf_apply, shapeCast_self, shapeCast_self, shapeCast_self, Cert.Lib.Rows.bcastRow_apply]
  congr 2
  exact Cert.Lib.PlainDot.matmul_zero_apply dot_S400x2048_S2048x2500_S400x2500_1_0_0_1_n_n.wf none
    x0 x1 p q

/-- If the x block is rows n·400 … of an array X and the other two blocks are the arrays W and B, the body's value at
    an index of its block is the dense layer of X, W, B at the index n·400 rows further down. -/
theorem block_lin4 (X : FVec Ideal S20000x2048 .bf16) (W : FVec Ideal S2048x2500 .bf16) (B : FVec Ideal S1x2500 .f32)
    (x0 : FVec Ideal S400x2048 .bf16) (x1 : FVec Ideal S2048x2500 .bf16) (x2 : FVec Ideal S1x2500 .f32) (n : Nat)
    (h0 : ∀ (y : S400x2048.Idx) (k : S20000x2048.Idx), (k 0).val = n * 400 + (y 0).val → (k 1).val = (y 1).val → x0 y = X k)
    (h1 : x1 = W) (h2 : x2 = B)
    (y : S400x2500.Idx) (i : S20000x2500.Idx) (hi0 : (i 0).val = n * 400 + (y 0).val) (hi1 : (i 1).val = (y 1).val) :
    k4_pay1 (F := Ideal) x0 x1 x2 y = Cert.Dense.linTanh X W B i := by
  subst h1 h2
  obtain ⟨p, q, rfl⟩ : ∃ (p : Fin 400) (q : Fin 2500), y = ix2 p q := ⟨y 0, y 1, eq_ix2 y⟩
  obtain ⟨r, s, rfl⟩ : ∃ (r : Fin 20000) (s : Fin 2500), i = ix2 r s := ⟨i 0, i 1, eq_ix2 i⟩
  obtain rfl : s = q := Fin.ext hi1
  rw [pay4_apply]
  show _ = Ideal.tanh (Cert.Dense.lin _ _ _ (ix2 _ _))
  rw [Cert.Dense.lin_apply]
  congr 2
  exact Finset.sum_congr rfl fun j _ => by rw [h0 (ix2 p j) (ix2 r j) hi0 rfl]

/-- The printed index maps, decided over the grid: the x and output windows move one block of rows per point, the
    weight and row windows stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The x block at point t is rows 400 t … of the x array. -/
theorem iblk4_x (c : Dev nD) (t : Fin cfg4.N) (y : S400x2048.Idx) (k : S20000x2048.Idx)
    (hk0 : (k 0).val = t.val * 400 + (y 0).val) (hk1 : (k 1).val = (y 1).val) :
    (iblk4 V c 0 t : FVec Ideal S400x2048 .bf16) y = (V c main_v56 : FVec Ideal S20000x2048 .bf16) k := by
  obtain ⟨e0, e1, -⟩ := idx_facts4 t
  unfold iblk4
  rw [View.read_apply]
  show V c main_v56 _ = V c main_v56 k
  congr 1
  funext a
  apply Fin.ext
  match a with
  | ⟨0, _⟩ => show win4_0.index t (0 : Fin 2) * 400 + 1 * (y 0).val = (k 0).val; rw [e0, hk0]; omega
  | ⟨1, _⟩ => show win4_0.index t (1 : Fin 2) * 2048 + 1 * (y 1).val = (k 1).val; rw [e1, hk1]; omega

/-- The weight block at every point is the whole weight array. -/
theorem iblk4_w (c : Dev nD) (t : Fin cfg4.N) :
    (iblk4 V c 1 t : FVec Ideal S2048x2500 .bf16) = (V c main_v4 : FVec Ideal S2048x2500 .bf16) := by
  obtain ⟨-, -, e0, e1, -⟩ := idx_facts4 t
  funext y
  unfold iblk4
  rw [View.read_apply]
  show V c main_v4 _ = V c main_v4 y
  congr 1
  funext a
  apply Fin.ext
  match a with
  | ⟨0, _⟩ => show win4_1.index t (0 : Fin 2) * 2048 + 1 * (y 0).val = (y 0).val; rw [e0]; omega
  | ⟨1, _⟩ => show win4_1.index t (1 : Fin 2) * 2500 + 1 * (y 1).val = (y 1).val; rw [e1]; omega

/-- The row block at every point is the whole one-row array. -/
theorem iblk4_b (c : Dev nD) (t : Fin cfg4.N) :
    (iblk4 V c 2 t : FVec Ideal S1x2500 .f32) = (V c main_v54 : FVec Ideal S1x2500 .f32) := by
  obtain ⟨-, -, -, -, e0, e1, -⟩ := idx_facts4 t
  funext y
  unfold iblk4
  rw [View.read_apply]
  show V c main_v54 _ = V c main_v54 y
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 2500 + 1 * (y 1).val = (y 1).val; rw [e1]; omega

/-- What point t writes back is its block of the dense layer of the three arrays. -/
theorem flushed_eq4 (c : Dev nD) (t : Fin cfg4.N) :
    (dat4 V c).flushed 3 t = ((cfg4.win 3).blk t).view.read (Elt Ideal)
      (Cert.Dense.linTanh (V c main_v56 : FVec Ideal S20000x2048 .bf16) (V c main_v4 : FVec Ideal S2048x2500 .bf16)
        (V c main_v54 : FVec Ideal S1x2500 .f32)) := by
  show (cfg4.win 3).cut (grid4.coords t) ((dat4 V c).after 3 t) = _
  rw [after4_3]
  unfold out4_3
  rw [View.canon_unit_zero zero2_4]
  simp only [View.ld_unit_zero (S := S400x2048) zero2_4, View.ld_unit_zero (S := S2048x2500) zero2_4,
    View.ld_unit_zero (S := S1x2500) zero2_4]
  obtain ⟨-, -, -, -, -, -, e0, e1⟩ := idx_facts4 t
  funext y
  rw [View.read_apply]
  refine block_lin4 _ _ _ _ _ _ t.val (fun y k h0 h1 => iblk4_x V c t y k h0 h1) (iblk4_w V c t) (iblk4_b V c t) _ _ ?_ ?_
  · show win4_3.index t (0 : Fin 2) * 400 + 1 * (y 0).val = t.val * 400 + (y 0).val; rw [e0]; omega
  · show win4_3.index t (1 : Fin 2) * 2500 + 1 * (y 1).val = (y 1).val; rw [e1]; omega

/-- An index of the result is in point t's block iff each coordinate is in the block's range on its axis. -/
theorem mem_blk4 (t : Fin cfg4.N) (i : S20000x2500.Idx) :
    i ∈ ((cfg4.win 3).blk t).view.set ↔ ∀ a : Fin 2, win4_3.index t a * S400x2500.size a ≤ (i a).val
      ∧ (i a).val < win4_3.index t a * S400x2500.size a + S400x2500.size a := by
  show i ∈ ((View.whole main_v57).slice (win4_3.rect t)).set ↔ _
  rw [View.set_slice_whole, Rect.mem_set_unit]
  exact Iff.rfl

/-- Row r of the result lies in the block of point r / 400. -/
theorem cover4 (i : S20000x2500.Idx) :
    ∃ t : Fin cfg4.N, (cfg4.win 3).flush t = true ∧ i ∈ ((cfg4.win 3).blk t).view.set := by
  have hi0 : (i 0).val < 20000 := (i 0).isLt
  have hi1 : (i 1).val < 2500 := (i 1).isLt
  obtain ⟨t, ht⟩ : ∃ t : Fin cfg4.N, t.val = (i 0).val / 400 :=
    ⟨⟨(i 0).val / 400, by rw [show cfg4.N = 50 from N_4]; omega⟩, rfl⟩
  obtain ⟨-, -, -, -, -, -, e0, e1⟩ := idx_facts4 t
  refine ⟨t, flush4_3 t, ?_⟩
  rw [mem_blk4]
  intro a
  match a with
  | ⟨0, _⟩ =>
    show win4_3.index t (0 : Fin 2) * 400 ≤ (i 0).val ∧ (i 0).val < win4_3.index t (0 : Fin 2) * 400 + 400
    rw [e0, ht]; omega
  | ⟨1, _⟩ =>
    show win4_3.index t (1 : Fin 2) * 2500 ≤ (i 1).val ∧ (i 1).val < win4_3.index t (1 : Fin 2) * 2500 + 2500
    rw [e1]; omega

/-- The result array after the launch is the dense layer of the three arrays as the launch finds them. -/
theorem final4 (c : Dev nD) :
    (dat4 V c).arrAt 3 cfg4.N
      = Cert.Dense.linTanh (V c main_v56 : FVec Ideal S20000x2048 .bf16) (V c main_v4 : FVec Ideal S2048x2500 .bf16)
        (V c main_v54 : FVec Ideal S1x2500 .f32) :=
  (dat4 V c).arrAt_eq_of_cover 3 _ (fun t _ => flushed_eq4 V c t) cover4

end Cert.KernelIdeal.Hand

end
-- ==== Proof.KI.R5Value.lean ====
/-
  The first classifier layer's product over the mended graph on the kernel side, from blocks to the whole array, at the exact values.
  One call of the body stores, at (p, q) of its 2000-row block, the sum over j of x (p, j) · w (j, q) plus the row's
  entry q (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R5Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_5 : (![0, 0] : Fin 2 → Nat) = fun _ => 0 := funext fun a => by fin_cases a <;> rfl

/-- The body's stored value at (p, q): the product's sum plus the row's entry. -/
theorem pay5_apply (x0 : FVec Ideal S2000x500 .f32) (x1 : FVec Ideal S500x256 .bf16) (x2 : FVec Ideal S1x256 .f32)
    (p : Fin 2000) (q : Fin 256) :
    k5_pay1 (F := Ideal) x0 x1 x2 (ix2 p q) = (∑ j : Fin 500, x0 (ix2 p j) * x1 (ix2 j q)) + x2 (ix2 (0 : Fin 1) q) := by
  unfold k5_pay1
  rw [addf_apply, shapeCast_self, shapeCast_self, shapeCast_self, Cert.Lib.Rows.bcastRow_apply]
  congr 1
  exact Cert.Lib.PlainDot.matmul_zero_apply dot_S2000x500_S500x256_S2000x256_1_0_0_1_n_n.wf none
    (truncf .bf16 x0 bitsLt_bf16_f32) x1 p q

/-- If the x block is rows n·2000 … of an array X and the other two blocks are the arrays W and B, the body's value at
    an index of its block is the dense layer of X, W, B at the index n·2000 rows further down. -/
theorem block_lin5 (X : FVec Ideal S120000x500 .f32) (W : FVec Ideal S500x256 .bf16) (B : FVec Ideal S1x256 .f32)
    (x0 : FVec Ideal S2000x500 .f32) (x1 : FVec Ideal S500x256 .bf16) (x2 : FVec Ideal S1x256 .f32) (n : Nat)
    (h0 : ∀ (y : S2000x500.Idx) (k : S120000x500.Idx), (k 0).val = n * 2000 + (y 0).val → (k 1).val = (y 1).val → x0 y = X k)
    (h1 : x1 = W) (h2 : x2 = B)
    (y : S2000x256.Idx) (i : S120000x256.Idx) (hi0 : (i 0).val = n * 2000 + (y 0).val) (hi1 : (i 1).val = (y 1).val) :
    k5_pay1 (F := Ideal) x0 x1 x2 y = Cert.Dense.lin X W B i := by
  subst h1 h2
  obtain ⟨p, q, rfl⟩ : ∃ (p : Fin 2000) (q : Fin 256), y = ix2 p q := ⟨y 0, y 1, eq_ix2 y⟩
  obtain ⟨r, s, rfl⟩ : ∃ (r : Fin 120000) (s : Fin 256), i = ix2 r s := ⟨i 0, i 1, eq_ix2 i⟩
  obtain rfl : s = q := Fin.ext hi1
  rw [pay5_apply, Cert.Dense.lin_apply]
  congr 1
  exact Finset.sum_congr rfl fun j _ => by rw [h0 (ix2 p j) (ix2 r j) hi0 rfl]

/-- The printed index maps, decided over the grid: the x and output windows move one block of rows per point, the
    weight and row windows stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The x block at point t is rows 2000 t … of the x array. -/
theorem iblk5_x (c : Dev nD) (t : Fin cfg5.N) (y : S2000x500.Idx) (k : S120000x500.Idx)
    (hk0 : (k 0).val = t.val * 2000 + (y 0).val) (hk1 : (k 1).val = (y 1).val) :
    (iblk5 V c 0 t : FVec Ideal S2000x500 .f32) y = (V c main_v59 : FVec Ideal S120000x500 .f32) k := by
  obtain ⟨e0, e1, -⟩ := idx_facts5 t
  unfold iblk5
  rw [View.read_apply]
  show V c main_v59 _ = V c main_v59 k
  congr 1
  funext a
  apply Fin.ext
  match a with
  | ⟨0, _⟩ => show win5_0.index t (0 : Fin 2) * 2000 + 1 * (y 0).val = (k 0).val; rw [e0, hk0]; omega
  | ⟨1, _⟩ => show win5_0.index t (1 : Fin 2) * 500 + 1 * (y 1).val = (k 1).val; rw [e1, hk1]; omega

/-- The weight block at every point is the whole weight array. -/
theorem iblk5_w (c : Dev nD) (t : Fin cfg5.N) :
    (iblk5 V c 1 t : FVec Ideal S500x256 .bf16) = (V c main_v5 : FVec Ideal S500x256 .bf16) := by
  obtain ⟨-, -, e0, e1, -⟩ := idx_facts5 t
  funext y
  unfold iblk5
  rw [View.read_apply]
  show V c main_v5 _ = V c main_v5 y
  congr 1
  funext a
  apply Fin.ext
  match a with
  | ⟨0, _⟩ => show win5_1.index t (0 : Fin 2) * 500 + 1 * (y 0).val = (y 0).val; rw [e0]; omega
  | ⟨1, _⟩ => show win5_1.index t (1 : Fin 2) * 256 + 1 * (y 1).val = (y 1).val; rw [e1]; omega

/-- The row block at every point is the whole one-row array. -/
theorem iblk5_b (c : Dev nD) (t : Fin cfg5.N) :
    (iblk5 V c 2 t : FVec Ideal S1x256 .f32) = (V c main_v7 : FVec Ideal S1x256 .f32) := by
  obtain ⟨-, -, -, -, e0, e1, -⟩ := idx_facts5 t
  funext y
  unfold iblk5
  rw [View.read_apply]
  show V c main_v7 _ = V c main_v7 y
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 256 + 1 * (y 1).val = (y 1).val; rw [e1]; omega

/-- What point t writes back is its block of the dense layer of the three arrays. -/
theorem flushed_eq5 (c : Dev nD) (t : Fin cfg5.N) :
    (dat5 V c).flushed 3 t = ((cfg5.win 3).blk t).view.read (Elt Ideal)
      (Cert.Dense.lin (V c main_v59 : FVec Ideal S120000x500 .f32) (V c main_v5 : FVec Ideal S500x256 .bf16)
        (V c main_v7 : FVec Ideal S1x256 .f32)) := by
  show (cfg5.win 3).cut (grid5.coords t) ((dat5 V c).after 3 t) = _
  rw [after5_3]
  unfold out5_3
  rw [View.canon_unit_zero zero2_5]
  simp only [View.ld_unit_zero (S := S2000x500) zero2_5, View.ld_unit_zero (S := S500x256) zero2_5,
    View.ld_unit_zero (S := S1x256) zero2_5]
  obtain ⟨-, -, -, -, -, -, e0, e1⟩ := idx_facts5 t
  funext y
  rw [View.read_apply]
  refine block_lin5 _ _ _ _ _ _ t.val (fun y k h0 h1 => iblk5_x V c t y k h0 h1) (iblk5_w V c t) (iblk5_b V c t) _ _ ?_ ?_
  · show win5_3.index t (0 : Fin 2) * 2000 + 1 * (y 0).val = t.val * 2000 + (y 0).val; rw [e0]; omega
  · show win5_3.index t (1 : Fin 2) * 256 + 1 * (y 1).val = (y 1).val; rw [e1]; omega

/-- An index of the result is in point t's block iff each coordinate is in the block's range on its axis. -/
theorem mem_blk5 (t : Fin cfg5.N) (i : S120000x256.Idx) :
    i ∈ ((cfg5.win 3).blk t).view.set ↔ ∀ a : Fin 2, win5_3.index t a * S2000x256.size a ≤ (i a).val
      ∧ (i a).val < win5_3.index t a * S2000x256.size a + S2000x256.size a := by
  show i ∈ ((View.whole main_v116).slice (win5_3.rect t)).set ↔ _
  rw [View.set_slice_whole, Rect.mem_set_unit]
  exact Iff.rfl

/-- Row r of the result lies in the block of point r / 2000. -/
theorem cover5 (i : S120000x256.Idx) :
    ∃ t : Fin cfg5.N, (cfg5.win 3).flush t = true ∧ i ∈ ((cfg5.win 3).blk t).view.set := by
  have hi0 : (i 0).val < 120000 := (i 0).isLt
  have hi1 : (i 1).val < 256 := (i 1).isLt
  obtain ⟨t, ht⟩ : ∃ t : Fin cfg5.N, t.val = (i 0).val / 2000 :=
    ⟨⟨(i 0).val / 2000, by rw [show cfg5.N = 60 from N_5]; omega⟩, rfl⟩
  obtain ⟨-, -, -, -, -, -, e0, e1⟩ := idx_facts5 t
  refine ⟨t, flush5_3 t, ?_⟩
  rw [mem_blk5]
  intro a
  match a with
  | ⟨0, _⟩ =>
    show win5_3.index t (0 : Fin 2) * 2000 ≤ (i 0).val ∧ (i 0).val < win5_3.index t (0 : Fin 2) * 2000 + 2000
    rw [e0, ht]; omega
  | ⟨1, _⟩ =>
    show win5_3.index t (1 : Fin 2) * 256 ≤ (i 1).val ∧ (i 1).val < win5_3.index t (1 : Fin 2) * 256 + 256
    rw [e1]; omega

/-- The result array after the launch is the dense layer of the three arrays as the launch finds them. -/
theorem final5 (c : Dev nD) :
    (dat5 V c).arrAt 3 cfg5.N
      = Cert.Dense.lin (V c main_v59 : FVec Ideal S120000x500 .f32) (V c main_v5 : FVec Ideal S500x256 .bf16)
        (V c main_v7 : FVec Ideal S1x256 .f32) :=
  (dat5 V c).arrAt_eq_of_cover 3 _ (fun t _ => flushed_eq5 V c t) cover5

end Cert.KernelIdeal.Hand

end
-- ==== Proof.KI.R6Value.lean ====
/-
  The second classifier layer's product over the mended graph on the kernel side, from blocks to the whole array, at the exact values.
  One call of the body stores, at (p, q) of its 2000-row block, the sum over j of x (p, j) · w (j, q) plus the row's
  entry q (a change of float format is the identity here). At grid point t the x block is rows
  2000 t … 2000 t + 1999 of the x array, the w and row blocks are the whole arrays, and the output block is rows
  2000 t … of the result; so what point t writes back is its block of ONE function of the three arrays, the dense
  layer, and since row r lies in the block of point r / 2000 the result array ends holding that function.
-/
import proofs.«123903_j63771674411482_1_alg».proof.Proof.Gen.KernelIdeal.Skeleton
import proofs.«123903_j63771674411482_1_alg».proof.Proof.KI.R6Defs
import proofs.«123903_j63771674411482_1_alg».proof.Proof.Dense
import proofs.«123903_j63771674411482_1_alg».proof.Proof.LibPlainDot
import proofs.«123903_j63771674411482_1_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two zero offsets, as the constant function. -/
theorem zero2_6 : (![0, 0] : Fin 2 → Nat) = fun _ => 0 := funext fun a => by fin_cases a <;> rfl

/-- The body's stored value at (p, q): the product's sum plus the row's entry. -/
theorem pay6_apply (x0 : FVec Ideal S2000x256 .f32) (x1 : FVec Ideal S256x16 .bf16) (x2 : FVec Ideal S1x16 .f32)
    (p : Fin 2000) (q : Fin 16) :
    k6_pay1 (F := Ideal) x0 x1 x2 (ix2 p q) = (∑ j : Fin 256, x0 (ix2 p j) * x1 (ix2 j q)) + x2 (ix2 (0 : Fin 1) q) := by
  unfold k6_pay1
  rw [addf_apply, shapeCast_self, shapeCast_self, shapeCast_self, Cert.Lib.Rows.bcastRow_apply]
  congr 1
  exact Cert.Lib.PlainDot.matmul_zero_apply dot_S2000x256_S256x16_S2000x16_1_0_0_1_n_n.wf none
    (truncf .bf16 x0 bitsLt_bf16_f32) x1 p q

/-- If the x block is rows n·2000 … of an array X and the other two blocks are the arrays W and B, the body's value at
    an index of its block is the dense layer of X, W, B at the index n·2000 rows further down. -/
theorem block_lin6 (X : FVec Ideal S120000x256 .f32) (W : FVec Ideal S256x16 .bf16) (B : FVec Ideal S1x16 .f32)
    (x0 : FVec Ideal S2000x256 .f32) (x1 : FVec Ideal S256x16 .bf16) (x2 : FVec Ideal S1x16 .f32) (n : Nat)
    (h0 : ∀ (y : S2000x256.Idx) (k : S120000x256.Idx), (k 0).val = n * 2000 + (y 0).val → (k 1).val = (y 1).val → x0 y = X k)
    (h1 : x1 = W) (h2 : x2 = B)
    (y : S2000x16.Idx) (i : S120000x16.Idx) (hi0 : (i 0).val = n * 2000 + (y 0).val) (hi1 : (i 1).val = (y 1).val) :
    k6_pay1 (F := Ideal) x0 x1 x2 y = Cert.Dense.lin X W B i := by
  subst h1 h2
  obtain ⟨p, q, rfl⟩ : ∃ (p : Fin 2000) (q : Fin 16), y = ix2 p q := ⟨y 0, y 1, eq_ix2 y⟩
  obtain ⟨r, s, rfl⟩ : ∃ (r : Fin 120000) (s : Fin 16), i = ix2 r s := ⟨i 0, i 1, eq_ix2 i⟩
  obtain rfl : s = q := Fin.ext hi1
  rw [pay6_apply, Cert.Dense.lin_apply]
  congr 1
  exact Finset.sum_congr rfl fun j _ => by rw [h0 (ix2 p j) (ix2 r j) hi0 rfl]

/-- The printed index maps, decided over the grid: the x and output windows move one block of rows per point, the
    weight and row windows stay. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The x block at point t is rows 2000 t … of the x array. -/
theorem iblk6_x (c : Dev nD) (t : Fin cfg6.N) (y : S2000x256.Idx) (k : S120000x256.Idx)
    (hk0 : (k 0).val = t.val * 2000 + (y 0).val) (hk1 : (k 1).val = (y 1).val) :
    (iblk6 V c 0 t : FVec Ideal S2000x256 .f32) y = (V c main_v133 : FVec Ideal S120000x256 .f32) k := by
  obtain ⟨e0, e1, -⟩ := idx_facts6 t
  unfold iblk6
  rw [View.read_apply]
  show V c main_v133 _ = V c main_v133 k
  congr 1
  funext a
  apply Fin.ext
  match a with
  | ⟨0, _⟩ => show win6_0.index t (0 : Fin 2) * 2000 + 1 * (y 0).val = (k 0).val; rw [e0, hk0]; omega
  | ⟨1, _⟩ => show win6_0.index t (1 : Fin 2) * 256 + 1 * (y 1).val = (k 1).val; rw [e1, hk1]; omega

/-- The weight block at every point is the whole weight array. -/
theorem iblk6_w (c : Dev nD) (t : Fin cfg6.N) :
    (iblk6 V c 1 t : FVec Ideal S256x16 .bf16) = (V c main_v6 : FVec Ideal S256x16 .bf16) := by
  obtain ⟨-, -, e0, e1, -⟩ := idx_facts6 t
  funext y
  unfold iblk6
  rw [View.read_apply]
  show V c main_v6 _ = V c main_v6 y
  congr 1
  funext a
  apply Fin.ext
  match a with
  | ⟨0, _⟩ => show win6_1.index t (0 : Fin 2) * 256 + 1 * (y 0).val = (y 0).val; rw [e0]; omega
  | ⟨1, _⟩ => show win6_1.index t (1 : Fin 2) * 16 + 1 * (y 1).val = (y 1).val; rw [e1]; omega

/-- The row block at every point is the whole one-row array. -/
theorem iblk6_b (c : Dev nD) (t : Fin cfg6.N) :
    (iblk6 V c 2 t : FVec Ideal S1x16 .f32) = (V c main_v9 : FVec Ideal S1x16 .f32) := by
  obtain ⟨-, -, -, -, e0, e1, -⟩ := idx_facts6 t
  funext y
  unfold iblk6
  rw [View.read_apply]
  show V c main_v9 _ = V c main_v9 y
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 16 + 1 * (y 1).val = (y 1).val; rw [e1]; omega

/-- What point t writes back is its block of the dense layer of the three arrays. -/
theorem flushed_eq6 (c : Dev nD) (t : Fin cfg6.N) :
    (dat6 V c).flushed 3 t = ((cfg6.win 3).blk t).view.read (Elt Ideal)
      (Cert.Dense.lin (V c main_v133 : FVec Ideal S120000x256 .f32) (V c main_v6 : FVec Ideal S256x16 .bf16)
        (V c main_v9 : FVec Ideal S1x16 .f32)) := by
  show (cfg6.win 3).cut (grid6.coords t) ((dat6 V c).after 3 t) = _
  rw [after6_3]
  unfold out6_3
  rw [View.canon_unit_zero zero2_6]
  simp only [View.ld_unit_zero (S := S2000x256) zero2_6, View.ld_unit_zero (S := S256x16) zero2_6,
    View.ld_unit_zero (S := S1x16) zero2_6]
  obtain ⟨-, -, -, -, -, -, e0, e1⟩ := idx_facts6 t
  funext y
  rw [View.read_apply]
  refine block_lin6 _ _ _ _ _ _ t.val (fun y k h0 h1 => iblk6_x V c t y k h0 h1) (iblk6_w V c t) (iblk6_b V c t) _ _ ?_ ?_
  · show win6_3.index t (0 : Fin 2) * 2000 + 1 * (y 0).val = t.val * 2000 + (y 0).val; rw [e0]; omega
  · show win6_3.index t (1 : Fin 2) * 16 + 1 * (y 1).val = (y 1).val; rw [e1]; omega

/-- An index of the result is in point t's block iff each coordinate is in the block's range on its axis. -/
theorem mem_blk6 (t : Fin cfg6.N) (i : S120000x16.Idx) :
    i ∈ ((cfg6.win 3).blk t).view.set ↔ ∀ a : Fin 2, win6_3.index t a * S2000x16.size a ≤ (i a).val
      ∧ (i a).val < win6_3.index t a * S2000x16.size a + S2000x16.size a := by
  show i ∈ ((View.whole main_v134).slice (win6_3.rect t)).set ↔ _
  rw [View.set_slice_whole, Rect.mem_set_unit]
  exact Iff.rfl

/-- Row r of the result lies in the block of point r / 2000. -/
theorem cover6 (i : S120000x16.Idx) :
    ∃ t : Fin cfg6.N, (cfg6.win 3).flush t = true ∧ i ∈ ((cfg6.win 3).blk t).view.set := by
  have hi0 : (i 0).val < 120000 := (i 0).isLt
  have hi1 : (i 1).val < 16 := (i 1).isLt
  obtain ⟨t, ht⟩ : ∃ t : Fin cfg6.N, t.val = (i 0).val / 2000 :=
    ⟨⟨(i 0).val / 2000, by rw [show cfg6.N = 60 from N_6]; omega⟩, rfl⟩
  obtain ⟨-, -, -, -, -, -, e0, e1⟩ := idx_facts6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e0, ht]; omega
  | ⟨1, _⟩ =>
    show win6_3.index t (1 : Fin 2) * 16 ≤ (i 1).val ∧ (i 1).val < win6_3.index t (1 : Fin 2) * 16 + 16
    rw [e1]; omega

/-- The result array after the launch is the dense layer of the three arrays as the launch finds them. -/
theorem final6 (c : Dev nD) :
    (dat6 V c).arrAt 3 cfg6.N
      = Cert.Dense.lin (V c main_v133 : FVec Ideal S120000x256 .f32) (V c main_v6 : FVec Ideal S256x16 .bf16)
        (V c main_v9 : FVec Ideal S1x16 .f32) :=
  (dat6 V c).arrAt_eq_of_cover 3 _ (fun t _ => flushed_eq6 V c t) cover6

end Cert.KernelIdeal.Hand

end
-- ==== Proof.lean ====
/-
  A seven-layer graph network, its dense layers as tiled kernels, against the same network in plain array operations.

  Both programs run the same host operations in the same order (sparse products as gather, scale, scatter-add; bias adds;
  clamps at zero; the graph-mending index arithmetic); they differ where the kernel program launches a dense layer — blocks
  of rows of x, times the whole weight rounded to bf16, plus a one-row array, into a zero accumulator, optionally clamped
  at zero or passed through tanh — and the reference has one whole matrix product plus a broadcast bias. Over the extended
  reals a change of float format is the identity, x + 0 = x, and a sum of row blocks' products is the whole product read
  row by row, so each launch's output array is the reference's stage, and the shared operations carry the equality to the
  three results. No algebraic law beyond these is used, and the precondition (finite inputs) is never opened.

  The frames: each dense layer's body, on whole staging buffers, loads three blocks, stores one value and returns; the main
  function is host stretches and seven launches in a row; no item writes an argument array.
-/
import proofs.«123903_j63771674411482_1_alg».proof.Defs
import proofs.«123903_j63771674411482_1_alg».proof.Proof.Gen.Kernel
import proofs.«123903_j63771674411482_1_alg».proof.Proof.Gen.KernelIdeal
import proofs.«123903_j63771674411482_1_alg».proof.Proof.Gen.ReferenceIdeal
import proofs.«123903_j63771674411482_1_alg».proof.Proof.Gen.Pre_finite_inputs
import proofs.«123903_j63771674411482_1_alg».proof.Proof.K.Frame
import proofs.«123903_j63771674411482_1_alg».proof.Proof.KI.Frame
import proofs.«123903_j63771674411482_1_alg».proof.Proof.KI.Bridge
import proofs.«123903_j63771674411482_1_alg».proof.Proof.KI.R0Value
import proofs.«123903_j63771674411482_1_alg».proof.Proof.KI.R1Value
import proofs.«123903_j63771674411482_1_alg».proof.Proof.KI.R2Value
import proofs.«123903_j63771674411482_1_alg».proof.Proof.KI.R3Value
import proofs.«123903_j63771674411482_1_alg».proof.Proof.KI.R4Value
import proofs.«123903_j63771674411482_1_alg».proof.Proof.KI.R5Value
import proofs.«123903_j63771674411482_1_alg».proof.Proof.KI.R6Value
import proofs.«123903_j63771674411482_1_alg».proof.Proof.RefRun
import proofs.«123903_j63771674411482_1_alg».proof.Proof.RefRead
import Idealize.ShloMosaic.Adequacy
import Idealize.ShloMosaic.Init

noncomputable section

namespace Cert.Proof

open Idealize.ShloMosaic Idealize.ShloMosaic.TcCoe Idealize.SL.Sem

/-- The word-level program's frame. -/
theorem frame_p : Cert.frame_Kernel := fun m ρ _ => Cert.Kernel.Hand.frame m ρ
/-- The idealized program's frame. -/
theorem frame_pi : Cert.frame_KernelIdeal := fun m ρ _ => Cert.KernelIdeal.Hand.frame m ρ
/-- The reference's frame: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both programs end, and the three results agree element by element: the kernel
    program's results are the fold's last contents, which are the reference's stages at the arguments. -/
theorem algebraic : Cert.algebraic_KernelIdeal_ReferenceIdeal := by
  intro m ρ m' ρ' _ hagree
  refine ⟨fun c => Cert.KernelIdeal.Hand.W24 m c Cert.KernelIdeal.main_v50, fun c => Cert.KernelIdeal.Hand.W24 m c Cert.KernelIdeal.main_v57,
    fun c => Cert.KernelIdeal.Hand.W24 m c Cert.KernelIdeal.main_v151, Cert.KernelIdeal.Hand.run_named (F := Ideal) m ρ, ?_⟩
  refine (θ_run Cert.ReferenceIdeal.defs _ _).mono (fun r h c => ?_) (Cert.ReferenceIdeal.Value.run (F := Ideal) m' ρ')
  obtain ⟨h40, h56, h148, hargs⟩ := h c
  obtain ⟨e50, e57, e151⟩ := Cert.KernelIdeal.Hand.results_eq m c Cert.KernelIdeal.Hand.final0 Cert.KernelIdeal.Hand.final1
    Cert.KernelIdeal.Hand.final2 Cert.KernelIdeal.Hand.final3 Cert.KernelIdeal.Hand.final4 Cert.KernelIdeal.Hand.final5 Cert.KernelIdeal.Hand.final6
  obtain ⟨a0, a1, a2, a3, a4, a5, a6, a7, a8, a9, a10, a11, a12, a13, a14, a15, a16, a17, a18, a19, a20, a21⟩ := hagree c
  refine ⟨h40.trans ?_, h56.trans ?_, h148.trans ?_, hargs⟩
  · refine (Cert.ReferenceIdeal.Read.val_main_v40_eq (F := Ideal) _ _ _ _ _ _ _ _ _ _).trans ?_
    rw [a0, a2, a3, a4, a6, a7, a8, a9, a10, a11]
    exact e50.symm
  · refine (Cert.ReferenceIdeal.Read.val_main_v56_eq (F := Ideal) _ _ _ _ _ _ _ _ _ _ _ _ _ _ _).trans ?_
    rw [a0, a2, a3, a4, a5, a6, a7, a8, a9, a12, a13, a14, a15, a16, a17]
    exact e57.symm
  · refine (Cert.ReferenceIdeal.Read.val_main_v148_eq (F := Ideal) m' c).trans ?_
    rw [a0, a1, a2, a3, a4, a5, a6, a7, a8, a9, a10, a11, a12, a13, a14, a15, a16, a17, a18, a19, a20, a21]
    exact e151.symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
